-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x32x32 : Shape := ⟨4, ![16, 64, 32, 32]⟩
abbrev S65536x2 : Shape := ⟨2, ![65536, 2]⟩
abbrev S8192 : Shape := ⟨1, ![8192]⟩
abbrev S_ : Shape := ⟨0, ![]⟩

class Facts : Prop where
  bcast_S_S16x64x32x32 : S_.BroadcastsInDim S16x64x32x32 (![] : Fin 0 → Fin S16x64x32x32.rank)
  reducesTo_S16x64x32x32_S_d0_1_2_3 : S16x64x32x32.ReducesTo [0, 1, 2, 3] S_
  h_S_ : 0 < S_.numel
  bcast_S_S65536x2 : S_.BroadcastsInDim S65536x2 (![] : Fin 0 → Fin S65536x2.rank)
  reducesTo_S65536x2_S_d0_1 : S65536x2.ReducesTo [0, 1] S_

variable [Facts]

def fn {F : FTy → Type} [FloatOps F] (main_arg0 : FVec F S16x64x32x32 .f32) (main_arg1 : FVec F S65536x2 .f32) (main_arg2 : IVec S8192 32) : IVec S_ 1 :=
  let main_v0 : FVec F S16x64x32x32 .f32 := Host.absf main_arg0
  let main_cst : FVec F S_ .f32 := constant S_ .f32 0x7F800000#32
  let main_v1 : FVec F S16x64x32x32 .f32 := broadcastInDim S16x64x32x32 ![] bcast_S_S16x64x32x32 main_cst
  let main_v2 : IVec S16x64x32x32 1 := cmpf .olt main_v0 main_v1
  let main_c : IVec S_ 1 := constantI S_ 1 1#1
  let main_v3 : IVec S_ 1 := (fun x v => Host.reduce IntOp.andi x v reducesTo_S16x64x32x32_S_d0_1_2_3 h_S_) main_v2 main_c
  let main_v4 : FVec F S65536x2 .f32 := Host.absf main_arg1
  let main_cst_0 : FVec F S_ .f32 := constant S_ .f32 0x7F800000#32
  let main_v5 : FVec F S65536x2 .f32 := broadcastInDim S65536x2 ![] bcast_S_S65536x2 main_cst_0
  let main_v6 : IVec S65536x2 1 := cmpf .olt main_v4 main_v5
  let main_c_1 : IVec S_ 1 := constantI S_ 1 1#1
  let main_v7 : IVec S_ 1 := (fun x v => Host.reduce IntOp.andi x v reducesTo_S65536x2_S_d0_1 h_S_) main_v6 main_c_1
  let main_v8 : IVec S_ 1 := andi main_v3 main_v7
  main_v8
-- ==== Kernel.lean ====
abbrev S16x64x32x32 : Shape := ⟨4, ![16, 64, 32, 32]⟩
abbrev S65536x2 : Shape := ⟨2, ![65536, 2]⟩
abbrev S8192 : Shape := ⟨1, ![8192]⟩
abbrev S16x65536 : Shape := ⟨2, ![16, 65536]⟩
abbrev S_ : Shape := ⟨0, ![]⟩
abbrev S8192x1 : Shape := ⟨2, ![8192, 1]⟩
abbrev S16x8192 : Shape := ⟨2, ![16, 8192]⟩
abbrev S8192x2 : Shape := ⟨2, ![8192, 2]⟩
abbrev S8192x16 : Shape := ⟨2, ![8192, 16]⟩
abbrev S1x1 : Shape := ⟨2, ![1, 1]⟩
abbrev S512x16 : Shape := ⟨2, ![512, 16]⟩
abbrev S512x2 : Shape := ⟨2, ![512, 2]⟩
abbrev S512x1 : Shape := ⟨2, ![512, 1]⟩
abbrev S16x512 : Shape := ⟨2, ![16, 512]⟩
abbrev S512x512 : Shape := ⟨2, ![512, 512]⟩
abbrev S2x512 : Shape := ⟨2, ![2, 512]⟩
abbrev S1x512 : Shape := ⟨2, ![1, 512]⟩
abbrev S1x512x512 : Shape := ⟨3, ![1, 512, 512]⟩
abbrev S1 : Shape := ⟨1, ![1]⟩
abbrev S1x1x1 : Shape := ⟨3, ![1, 1, 1]⟩

abbrev nBuf : Space → Nat
  | .hbm => 76
  | .vmem => 8
  | .smem => 0
  | _ => 0

abbrev bufTy : (tb : Table) → Fin (tcTables nBuf tb) → BufTy
  | .hbm, ⟨0, _⟩ => ⟨S16x64x32x32, .f32⟩
  | .hbm, ⟨1, _⟩ => ⟨S65536x2, .f32⟩
  | .hbm, ⟨2, _⟩ => ⟨S8192, .i32⟩
  | .hbm, ⟨3, _⟩ => ⟨S16x65536, .f32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S16x8192, .f32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S8192x2, .f32⟩
  | .hbm, ⟨22, _⟩ => ⟨S8192x16, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1, .f32⟩
  | .hbm, ⟨36, _⟩ => ⟨S8192x16, .f32⟩
  | .hbm, ⟨37, _⟩ => ⟨S8192x16, .f32⟩
  | .hbm, ⟨38, _⟩ => ⟨S8192x2, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S1x1, .f32⟩
  | .hbm, ⟨43, _⟩ => ⟨S1x1, .f32⟩
  | .hbm, ⟨44, _⟩ => ⟨S1x1, .f32⟩
  | .hbm, ⟨45, _⟩ => ⟨S1x1, .f32⟩
  | .hbm, ⟨46, _⟩ => ⟨S1x1, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .local _ .vmem, ⟨0, _⟩ => ⟨S8192x16, .f32⟩
  | .local _ .vmem, ⟨1, _⟩ => ⟨S8192x2, .f32⟩
  | .local _ .vmem, ⟨2, _⟩ => ⟨S8192x1, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev main_v31_2 : Ref sig .tc := ⟨.hbm, 44, rfl⟩
abbrev main_v31_3 : Ref sig .tc := ⟨.hbm, 45, rfl⟩
abbrev main_v31_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg0 : BitVec 32 := BitVec.ofNat 32 (i 0).val
  let arg1 : BitVec 32 := BitVec.ofNat 32 (i 1).val
  let v5 : BitVec 1 := Scalar.cmpi .sge arg0 arg1
  let v6 : BitVec 32 := Scalar.extui v5
  let c0_i32_2 : BitVec 32 := 0#32
  let v7 : BitVec 1 := Scalar.cmpi .ne v6 c0_i32_2
  v7

def k0_mult1 (i : grid0.Coords) : BitVec 32 :=
  let arg0 : BitVec 32 := BitVec.ofNat 32 (i 0).val
  let c512_i32 : BitVec 32 := 512#32
  let v8 : BitVec 32 := Scalar.muli arg0 c512_i32
  v8
def k0_mult2 (i : grid0.Coords) : BitVec 32 :=
  let arg1 : BitVec 32 := BitVec.ofNat 32 (i 1).val
  let c512_i32_3 : BitVec 32 := 512#32
  let v10 : BitVec 32 := Scalar.muli arg1 c512_i32_3
  v10
def k0_off1 (i : grid0.Coords) : Fin 2 → Nat :=
  let arg0 : BitVec 32 := BitVec.ofNat 32 (i 0).val
  let c512_i32 : BitVec 32 := 512#32
  let v8 : BitVec 32 := Scalar.muli arg0 c512_i32
  let v9 : BitVec 32 := v8
  let v12 : Index := Scalar.indexCast v9
  let c0 : Index := 0#32
  ![v12.toNat, 0]
def k0_off2 (i : grid0.Coords) : Fin 2 → Nat :=
  let arg1 : BitVec 32 := BitVec.ofNat 32 (i 1).val
  let c512_i32_3 : BitVec 32 := 512#32
  let v10 : BitVec 32 := Scalar.muli arg1 c512_i32_3
  let v11 : BitVec 32 := v10
  let v15 : Index := Scalar.indexCast v11
  let c0_4 : Index := 0#32
  ![v15.toNat, 0]
def k0_off3 (i : grid0.Coords) : Fin 2 → Nat :=
  let arg0 : BitVec 32 := BitVec.ofNat 32 (i 0).val
  let c512_i32 : BitVec 32 := 512#32
  let v8 : BitVec 32 := Scalar.muli arg0 c512_i32
  let v9 : BitVec 32 := v8
  let v18 : Index := Scalar.indexCast v9
  let c0_5 : Index := 0#32
  ![v18.toNat, 0]
def k0_off4 (i : grid0.Coords) : Fin 2 → Nat :=
  let arg1 : BitVec 32 := BitVec.ofNat 32 (i 1).val
  let c512_i32_3 : BitVec 32 := 512#32
  let v10 : BitVec 32 := Scalar.muli arg1 c512_i32_3
  let v11 : BitVec 32 := v10
  let v21 : Index := Scalar.indexCast v11
  let c0_6 : Index := 0#32
  ![v21.toNat, 0]
def k0_off5 (i : grid0.Coords) : Fin 2 → Nat :=
  let arg0 : BitVec 32 := BitVec.ofNat 32 (i 0).val
  let c512_i32 : BitVec 32 := 512#32
  let v8 : BitVec 32 := Scalar.muli arg0 c512_i32
  let v9 : BitVec 32 := v8
  let v24 : Index := Scalar.indexCast v9
  let c0_7 : Index := 0#32
  ![v24.toNat, 0]
def k0_off6 (i : grid0.Coords) : Fin 2 → Nat :=
  let arg1 : BitVec 32 := BitVec.ofNat 32 (i 1).val
  let c512_i32_3 : BitVec 32 := 512#32
  let v10 : BitVec 32 := Scalar.muli arg1 c512_i32_3
  let v11 : BitVec 32 := v10
  let v27 : Index := Scalar.indexCast v11
  let c0_8 : Index := 0#32
  ![v27.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8192x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

class Facts₀ : Prop where
  shapeCasts_S16x64x32x32_S16x65536 : S16x64x32x32.ShapeCasts S16x65536
  bcast_S_S8192 : S_.BroadcastsInDim S8192 (![] : Fin 0 → Fin S8192.rank)
  bcast_S8192_S8192x1_0 : S8192.BroadcastsInDim S8192x1 (![0] : Fin 1 → Fin S8192x1.rank)
  transposes_S16x8192_S8192x16_1_0 : S16x8192.Transposes [1, 0] S8192x16
  reducesTo_S8192x16_S8192_d1 : S8192x16.ReducesTo [1] S8192
  h_S_ : 0 < S_.numel
  bcast_S_S8192x1 : S_.BroadcastsInDim S8192x1 (![] : Fin 0 → Fin S8192x1.rank)
  bcast_S8192x1_S8192x16_0_1 : S8192x1.BroadcastsInDim S8192x16 (![0, 1] : Fin 2 → Fin S8192x16.rank)
  reducesTo_S8192x2_S8192_d1 : S8192x2.ReducesTo [1] S8192
  inb_S1x1_S1x1_0_0 : ∀ a, (![0, 0] : Fin 2 → Nat) a + S1x1.size a ≤ S1x1.size a
  h_S1x1 : 0 < S1x1.numel
  h_S512x16 : 0 < S512x16.numel
  shapeCasts_S512x16_S512x16 : S512x16.ShapeCasts S512x16
  h_S512x2 : 0 < S512x2.numel
  shapeCasts_S512x2_S512x2 : S512x2.ShapeCasts S512x2
  h_S512x1 : 0 < S512x1.numel
  shapeCasts_S512x1_S512x1 : S512x1.ShapeCasts S512x1
  transposes_S512x16_p1_0_S16x512 : S512x16.Transposes [1, 0] S16x512
  transposes_S512x2_p1_0_S2x512 : S512x2.Transposes [1, 0] S2x512
  transposes_S512x1_p1_0_S1x512 : S512x1.Transposes [1, 0] S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  natLt_1_32 : 1 < 32
  shapeCasts_S1x1_S1x1 : S1x1.ShapeCasts S1x1
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  gather_S16x65536_S8192x1_S16x8192_0_1_n_n_1_1_161_wf : GatherDims.WF S16x65536 S8192x1 S16x8192 [0] [1] [] [1] [] 1 ![16, 1]
  gather_S65536x2_S8192x1_S8192x2_1_0_n_n_0_1_12_wf : GatherDims.WF S65536x2 S8192x1 S8192x2 [1] [0] [] [0] [] 1 ![1, 2]
  dot_S512x16_S16x512_S512x512_1_0_0_1_n_n_wf : DotDims.WF S512x16 S16x512 S512x512 [1] [0] [0] [1] [] []
  dot_S512x2_S2x512_S512x512_1_0_0_1_n_n_wf : DotDims.WF S512x2 S2x512 S512x512 [1] [0] [0] [1] [] []
  hrank0 : 0 < grid0.rank
  k0_mult1_dvd : ∀ i : grid0.Coords, ∀ (k0_h2 : k0_cond2 i = 1#1), 512 ∣ (k0_mult1 i).toNat
  k0_mult2_dvd : ∀ i : grid0.Coords, ∀ (k0_h2 : k0_cond2 i = 1#1), 512 ∣ (k0_mult2 i).toNat
  k0_off1_inb : ∀ i : grid0.Coords, ∀ (k0_h2 : k0_cond2 i = 1#1), ∀ a, (k0_off1 i) a + S512x16.size a ≤ S8192x16.size a
  k0_off2_inb : ∀ i : grid0.Coords, ∀ (k0_h2 : k0_cond2 i = 1#1), ∀ a, (k0_off2 i) a + S512x16.size a ≤ S8192x16.size a
  k0_off3_inb : ∀ i : grid0.Coords, ∀ (k0_h2 : k0_cond2 i = 1#1), ∀ a, (k0_off3 i) a + S512x2.size a ≤ S8192x2.size a
  k0_off4_inb : ∀ i : grid0.Coords, ∀ (k0_h2 : k0_cond2 i = 1#1), ∀ a, (k0_off4 i) a + S512x2.size a ≤ S8192x2.size a
  k0_off5_inb : ∀ i : grid0.Coords, ∀ (k0_h2 : k0_cond2 i = 1#1), ∀ a, (k0_off5 i) a + S512x1.size a ≤ S8192x1.size a
  k0_off6_inb : ∀ i : grid0.Coords, ∀ (k0_h2 : k0_cond2 i = 1#1), ∀ a, (k0_off6 i) a + S512x1.size a ≤ S8192x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x16.size a ≤ S8192x16.size a
  hwx0_0 : ∀ i : grid0.Coords, EltTy.bits .f32 = 32 ∨ (Rect.block (s := S8192x16) S8192x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x2.size a ≤ S8192x2.size a
  hwx0_1 : ∀ i : grid0.Coords, EltTy.bits .f32 = 32 ∨ (Rect.block (s := S8192x2) S8192x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S8192x1.size a
  hwx0_2 : ∀ i : grid0.Coords, EltTy.bits .f32 = 32 ∨ (Rect.block (s := S8192x1) S8192x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

def gather_S16x65536_S8192x1_S16x8192_0_1_n_n_1_1_161 : GatherDims S16x65536 S8192x1 S16x8192 where
  offsetDims := [0]
  collapsedSliceDims := [1]
  operandBatchingDims := []
  startIndicesBatchingDims := []
  startIndexMap := [1]
  indexVectorDim := 1
  sliceSizes := ![16, 1]
  wf := gather_S16x65536_S8192x1_S16x8192_0_1_n_n_1_1_161_wf
def gather_S65536x2_S8192x1_S8192x2_1_0_n_n_0_1_12 : GatherDims S65536x2 S8192x1 S8192x2 where
  offsetDims := [1]
  collapsedSliceDims := [0]
  operandBatchingDims := []
  startIndicesBatchingDims := []
  startIndexMap := [0]
  indexVectorDim := 1
  sliceSizes := ![1, 2]
  wf := gather_S65536x2_S8192x1_S8192x2_1_0_n_n_0_1_12_wf
def dot_S512x16_S16x512_S512x512_1_0_0_1_n_n : DotDims S512x16 S16x512 S512x512 where
  lhsContracting := [1]
  rhsContracting := [0]
  lhsNonContracting := [0]
  rhsNonContracting := [1]
  lhsBatch := []
  rhsBatch := []
  wf := dot_S512x16_S16x512_S512x512_1_0_0_1_n_n_wf
def dot_S512x2_S2x512_S512x512_1_0_0_1_n_n : DotDims S512x2 S2x512 S512x512 where
  lhsContracting := [1]
  rhsContracting := [0]
  lhsNonContracting := [0]
  rhsNonContracting := [1]
  lhsBatch := []
  rhsBatch := []
  wf := dot_S512x2_S2x512_S512x512_1_0_0_1_n_n_wf

abbrev win0_0 : Pipeline.Window sig grid0 :=
  Pipeline.Window.ofSpec (Memref.whole main_v27) S8192x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8192x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S8192x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31_1) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31_2) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31_3) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31_4) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun i => !(k0_cond1 i == 1#1) && !(k0_cond2 i == 1#1) | 4 => fun i => !(k0_cond1 i == 1#1) && !(k0_cond2 i == 1#1) | 5 => fun i => !(k0_cond1 i == 1#1) && !(k0_cond2 i == 1#1) | 6 => fun i => !(k0_cond1 i == 1#1) && !(k0_cond2 i == 1#1) | 7 => fun i => !(k0_cond1 i == 1#1) && !(k0_cond2 i == 1#1) | ⟨_ + 8, h⟩ => absurd h (Nat.not_lt.2 (Nat.le_add_left _ _))

class Facts : Prop extends Facts₀ where

variable [Facts]
-- ==== ReferenceIdeal.lean ====
abbrev S16x64x32x32 : Shape := ⟨4, ![16, 64, 32, 32]⟩
abbrev S65536x2 : Shape := ⟨2, ![65536, 2]⟩
abbrev S8192 : Shape := ⟨1, ![8192]⟩
abbrev S16x65536 : Shape := ⟨2, ![16, 65536]⟩
abbrev S_ : Shape := ⟨0, ![]⟩
abbrev S8192x1 : Shape := ⟨2, ![8192, 1]⟩
abbrev S16x8192 : Shape := ⟨2, ![16, 8192]⟩
abbrev S8192x2 : Shape := ⟨2, ![8192, 2]⟩
abbrev S1x8192 : Shape := ⟨2, ![1, 8192]⟩
abbrev S8192x8192 : Shape := ⟨2, ![8192, 8192]⟩
abbrev S2x8192 : Shape := ⟨2, ![2, 8192]⟩
abbrev S8192x16 : Shape := ⟨2, ![8192, 16]⟩

abbrev nBuf : Space → Nat
  | .hbm => 128
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S65536x2, .f32⟩
  | .hbm, ⟨2, _⟩ => ⟨S8192, .i32⟩
  | .hbm, ⟨3, _⟩ => ⟨S16x65536, .f32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S16x8192, .f32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S8192x2, .f32⟩
  | .hbm, ⟨22, _⟩ => ⟨S8192x2, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S1x8192, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S2x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .i1⟩
  | .hbm, ⟨42, _⟩ => ⟨S_, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x16, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x16, .f32⟩
  | .hbm, ⟨61, _⟩ => ⟨S8192x16, .f32⟩
  | .hbm, ⟨62, _⟩ => ⟨S8192x16, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1, .f32⟩
  | .hbm, ⟨67, _⟩ => ⟨S8192x16, .f32⟩
  | .hbm, ⟨68, _⟩ => ⟨S8192x16, .f32⟩
  | .hbm, ⟨69, _⟩ => ⟨S16x8192, .f32⟩
  | .hbm, ⟨70, _⟩ => ⟨S8192x8192, .f32⟩
  | .hbm, ⟨71, _⟩ => ⟨S_, .i1⟩
  | .hbm, ⟨72, _⟩ => ⟨S8192x8192, .i1⟩
  | .hbm, ⟨73, _⟩ => ⟨S8192x8192, .i32⟩
  | .hbm, ⟨74, _⟩ => ⟨S_, .i32⟩
  | .hbm, ⟨75, _⟩ => ⟨S8192x8192, .i32⟩
  | .hbm, ⟨76, _⟩ => ⟨S8192x8192, .i32⟩
  | .hbm, ⟨77, _⟩ => ⟨S8192x8192, .i32⟩
  | .hbm, ⟨78, _⟩ => ⟨S8192x8192, .i1⟩
  | .hbm, ⟨79, _⟩ => ⟨S_, .i1⟩
  | .hbm, ⟨80, _⟩ => ⟨S8192x8192, .i1⟩
  | .hbm, ⟨81, _⟩ => ⟨S8192x8192, .i1⟩
  | .hbm, ⟨82, _⟩ => ⟨S8192x8192, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S8192x8192, .f32⟩
  | .hbm, ⟨88, _⟩ => ⟨S8192x8192, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S8192x8192, .f32⟩
  | .hbm, ⟨95, _⟩ => ⟨S8192x8192, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S8192x8192, .f32⟩
  | .hbm, ⟨100, _⟩ => ⟨S8192x8192, .f32⟩
  | .hbm, ⟨101, _⟩ => ⟨S_, .f32⟩
  | .hbm, ⟨102, _⟩ => ⟨S_, .f32⟩
  | .hbm, ⟨103, _⟩ => ⟨S8192x8192, .f32⟩
  | .hbm, ⟨104, _⟩ => ⟨S8192x8192, .f32⟩
  | .hbm, ⟨105, _⟩ => ⟨S8192x8192, .f32⟩
  | .hbm, ⟨106, _⟩ => ⟨S8192x8192, .f32⟩
  | .hbm, ⟨107, _⟩ => ⟨S_, .f32⟩
  | .hbm, ⟨108, _⟩ => ⟨S_, .f32⟩
  | .hbm, ⟨109, _⟩ => ⟨S8192x8192, .f32⟩
  | .hbm, ⟨110, _⟩ => ⟨S8192x8192, .f32⟩
  | .hbm, ⟨111, _⟩ => ⟨S8192x8192, .f32⟩
  | .hbm, ⟨112, _⟩ => ⟨S_, .f32⟩
  | .hbm, ⟨113, _⟩ => ⟨S_, .f32⟩
  | .hbm, ⟨114, _⟩ => ⟨S8192x8192, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S8192x8192, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_call0_v0 : Ref sig .tc := ⟨.hbm, 43, rfl⟩
abbrev main_call0_v1 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_12 : Ref sig .tc := ⟨.hbm, 71, rfl⟩
abbrev main_v52 : Ref sig .tc := ⟨.hbm, 72, rfl⟩
abbrev main_call1_v0 : Ref sig .tc := ⟨.hbm, 73, rfl⟩
abbrev main_call1_c : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_c_0 : Ref sig .tc := ⟨.hbm, 79, rfl⟩
abbrev main_call1_v5 : Ref sig .tc := ⟨.hbm, 80, rfl⟩
abbrev main_v53 : Ref sig .tc := ⟨.hbm, 81, rfl⟩
abbrev main_v54 : Ref sig .tc := ⟨.hbm, 82, rfl⟩
abbrev main_cst_13 : Ref sig .tc := ⟨.hbm, 83, rfl⟩
abbrev main_v55 : Ref sig .tc := ⟨.hbm, 84, rfl⟩
abbrev main_cst_14 : Ref sig .tc := ⟨.hbm, 85, rfl⟩
abbrev main_call2_v0 : Ref sig .tc := ⟨.hbm, 86, rfl⟩
abbrev main_call2_v1 : Ref sig .tc := ⟨.hbm, 87, rfl⟩
abbrev main_v56 : Ref sig .tc := ⟨.hbm, 88, rfl⟩
abbrev main_cst_15 : Ref sig .tc := ⟨.hbm, 89, rfl⟩
abbrev main_v57 : Ref sig .tc := ⟨.hbm, 90, rfl⟩
abbrev main_v58 : Ref sig .tc := ⟨.hbm, 91, rfl⟩
abbrev main_cst_16 : Ref sig .tc := ⟨.hbm, 92, rfl⟩
abbrev main_call3_v0 : Ref sig .tc := ⟨.hbm, 93, rfl⟩
abbrev main_call3_v1 : Ref sig .tc := ⟨.hbm, 94, rfl⟩
abbrev main_v59 : Ref sig .tc := ⟨.hbm, 95, rfl⟩
abbrev main_cst_17 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_18 : Ref sig .tc := ⟨.hbm, 101, rfl⟩
abbrev main_call4_v0 : Ref sig .tc := ⟨.hbm, 102, rfl⟩
abbrev main_call4_v1 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_19 : Ref sig .tc := ⟨.hbm, 107, rfl⟩
abbrev main_call5_v0 : Ref sig .tc := ⟨.hbm, 108, rfl⟩
abbrev main_call5_v1 : Ref sig .tc := ⟨.hbm, 109, rfl⟩
abbrev main_v67 : Ref sig .tc := ⟨.hbm, 110, rfl⟩
abbrev main_v68 : Ref sig .tc := ⟨.hbm, 111, rfl⟩
abbrev main_cst_20 : Ref sig .tc := ⟨.hbm, 112, rfl⟩
abbrev main_v69 : Ref sig .tc := ⟨.hbm, 113, rfl⟩
abbrev main_v70 : Ref sig .tc := ⟨.hbm, 114, rfl⟩
abbrev main_cst_21 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_cst_22 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_23 : Ref sig .tc := ⟨.hbm, 124, rfl⟩
abbrev main_v78 : Ref sig .tc := ⟨.hbm, 125, rfl⟩
abbrev main_cst_24 : Ref sig .tc := ⟨.hbm, 126, rfl⟩
abbrev main_v79 : Ref sig .tc := ⟨.hbm, 127, rfl⟩

abbrev nD : Nat := 1
abbrev τ : Topo := Topo.v7x

variable {F : FTy → Type} [FloatOps F]

class Facts₀ : Prop where
  shapeCasts_S16x64x32x32_S16x65536 : S16x64x32x32.ShapeCasts S16x65536
  bcast_S_S8192 : S_.BroadcastsInDim S8192 (![] : Fin 0 → Fin S8192.rank)
  bcast_S8192_S8192x1_0 : S8192.BroadcastsInDim S8192x1 (![0] : Fin 1 → Fin S8192x1.rank)
  reducesTo_S8192x2_S8192_d1 : S8192x2.ReducesTo [1] S8192
  h_S_ : 0 < S_.numel
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x2_S2x8192_1_0 : S8192x2.Transposes [1, 0] S2x8192
  bcast_S_S8192x8192 : S_.BroadcastsInDim S8192x8192 (![] : Fin 0 → Fin S8192x8192.rank)
  transposes_S16x8192_S8192x16_1_0 : S16x8192.Transposes [1, 0] S8192x16
  reducesTo_S8192x16_S8192_d1 : S8192x16.ReducesTo [1] S8192
  bcast_S_S8192x1 : S_.BroadcastsInDim S8192x1 (![] : Fin 0 → Fin S8192x1.rank)
  bcast_S8192x1_S8192x16_0_1 : S8192x1.BroadcastsInDim S8192x16 (![0, 1] : Fin 2 → Fin S8192x16.rank)
  transposes_S8192x16_S16x8192_1_0 : S8192x16.Transposes [1, 0] S16x8192
  reducesTo_S8192x8192_S_d0_1 : S8192x8192.ReducesTo [0, 1] S_
  gather_S16x65536_S8192x1_S16x8192_0_1_n_n_1_1_161_wf : GatherDims.WF S16x65536 S8192x1 S16x8192 [0] [1] [] [1] [] 1 ![16, 1]
  gather_S65536x2_S8192x1_S8192x2_1_0_n_n_0_1_12_wf : GatherDims.WF S65536x2 S8192x1 S8192x2 [1] [0] [] [0] [] 1 ![1, 2]
  dot_S8192x2_S2x8192_S8192x8192_1_0_0_1_n_n_wf : DotDims.WF S8192x2 S2x8192 S8192x8192 [1] [0] [0] [1] [] []
  dot_S8192x16_S16x8192_S8192x8192_1_0_0_1_n_n_wf : DotDims.WF S8192x16 S16x8192 S8192x8192 [1] [0] [0] [1] [] []

variable [Facts₀]

def gather_S16x65536_S8192x1_S16x8192_0_1_n_n_1_1_161 : GatherDims S16x65536 S8192x1 S16x8192 where
  offsetDims := [0]
  collapsedSliceDims := [1]
  operandBatchingDims := []
  startIndicesBatchingDims := []
  startIndexMap := [1]
  indexVectorDim := 1
  sliceSizes := ![16, 1]
  wf := gather_S16x65536_S8192x1_S16x8192_0_1_n_n_1_1_161_wf
def gather_S65536x2_S8192x1_S8192x2_1_0_n_n_0_1_12 : GatherDims S65536x2 S8192x1 S8192x2 where
  offsetDims := [1]
  collapsedSliceDims := [0]
  operandBatchingDims := []
  startIndicesBatchingDims := []
  startIndexMap := [0]
  indexVectorDim := 1
  sliceSizes := ![1, 2]
  wf := gather_S65536x2_S8192x1_S8192x2_1_0_n_n_0_1_12_wf
def dot_S8192x2_S2x8192_S8192x8192_1_0_0_1_n_n : DotDims S8192x2 S2x8192 S8192x8192 where
  lhsContracting := [1]
  rhsContracting := [0]
  lhsNonContracting := [0]
  rhsNonContracting := [1]
  lhsBatch := []
  rhsBatch := []
  wf := dot_S8192x2_S2x8192_S8192x8192_1_0_0_1_n_n_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf

class Facts : Prop extends Facts₀ where

variable [Facts]
-- ==== Proof.KBodyRuns.lean ====
import proofs.«149199_j10763188043930_1_alg».proof.Proof.Gen.Kernel.Frame
import proofs.«149199_j10763188043930_1_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The two branch conditions over the grid -/

/-- The first condition (both coordinates zero) holds at the first point only. -/
theorem cond1_iff : ∀ t : Fin cfg0.N, k0_cond1 (grid0.coords t) = 1#1 ↔ t.val = 0 :=
  (by decide +kernel : ∀ t : Fin grid0.N, k0_cond1 (grid0.coords t) = 1#1 ↔ t.val = 0)
/-- The second condition (row tile not above the column tile) holds at the first point. -/
theorem cond2_first : ∀ t : Fin cfg0.N, t.val = 0 → k0_cond2 (grid0.coords t) = 1#1 :=
  (by decide +kernel : ∀ t : Fin grid0.N, t.val = 0 → k0_cond2 (grid0.coords t) = 1#1)
/-- The second condition holds at the last point (the diagonal tile (15, 15)). -/
theorem cond2_last : ∀ t : Fin cfg0.N, t.val % 256 = 255 → k0_cond2 (grid0.coords t) = 1#1 :=
  (by decide +kernel : ∀ t : Fin grid0.N, t.val % 256 = 255 → k0_cond2 (grid0.coords t) = 1#1)
/-- Wherever the first condition holds, so does the second: the assignment (first, not second) meets no point. -/
theorem cond2_of_cond1 (t : Fin cfg0.N) (h : k0_cond1 (grid0.coords t) = 1#1) : k0_cond2 (grid0.coords t) = 1#1 :=
  cond2_first t ((cond1_iff t).mp h)

/-! ## Where the output windows are idle -/

/-- Two one-bit words both different from one: the Boolean the configuration's idle table computes. -/
theorem idle_bool (a b : BitVec 1) : (!(a == 1#1) && !(b == 1#1)) = true ↔ (¬a = 1#1 ∧ ¬b = 1#1) := by
  simp
/-- Output window 3 is live wherever the second condition holds. -/
theorem live0_3 (i : grid0.Coords) (h2 : k0_cond2 i = 1#1) : cfg0.idle 3 i = false := by
  rw [show cfg0.idle 3 i = (!(k0_cond1 i == 1#1) && !(k0_cond2 i == 1#1)) from rfl, Bool.eq_false_iff]
  exact fun h => ((idle_bool _ _).mp h).2 h2
/-- Output window 3 is idle wherever neither condition holds. -/
theorem idle0_3 (i : grid0.Coords) (h1 : ¬k0_cond1 i = 1#1) (h2 : ¬k0_cond2 i = 1#1) : cfg0.idle 3 i = true := by
  rw [show cfg0.idle 3 i = (!(k0_cond1 i == 1#1) && !(k0_cond2 i == 1#1)) from rfl]
  exact (idle_bool _ _).mpr ⟨h1, h2⟩
/-- Output window 3 is not written back where the second condition fails (it is written back at the last point only). -/
theorem noFlush0_3 (t : Fin cfg0.N) (h2 : ¬k0_cond2 (grid0.coords t) = 1#1) : (cfg0.win 3).flush t = false :=
  Bool.eq_false_iff.mpr fun h => h2 (cond2_last t ((flush0_3 t).mp h))
/-- Output window 4 is live wherever the second condition holds. -/
theorem live0_4 (i : grid0.Coords) (h2 : k0_cond2 i = 1#1) : cfg0.idle 4 i = false := by
  rw [show cfg0.idle 4 i = (!(k0_cond1 i == 1#1) && !(k0_cond2 i == 1#1)) from rfl, Bool.eq_false_iff]
  exact fun h => ((idle_bool _ _).mp h).2 h2
/-- Output window 4 is idle wherever neither condition holds. -/
theorem idle0_4 (i : grid0.Coords) (h1 : ¬k0_cond1 i = 1#1) (h2 : ¬k0_cond2 i = 1#1) : cfg0.idle 4 i = true := by
  rw [show cfg0.idle 4 i = (!(k0_cond1 i == 1#1) && !(k0_cond2 i == 1#1)) from rfl]
  exact (idle_bool _ _).mpr ⟨h1, h2⟩
/-- Output window 4 is not written back where the second condition fails (it is written back at the last point only). -/
theorem noFlush0_4 (t : Fin cfg0.N) (h2 : ¬k0_cond2 (grid0.coords t) = 1#1) : (cfg0.win 4).flush t = false :=
  Bool.eq_false_iff.mpr fun h => h2 (cond2_last t ((flush0_4 t).mp h))
/-- Output window 5 is live wherever the second condition holds. -/
theorem live0_5 (i : grid0.Coords) (h2 : k0_cond2 i = 1#1) : cfg0.idle 5 i = false := by
  rw [show cfg0.idle 5 i = (!(k0_cond1 i == 1#1) && !(k0_cond2 i == 1#1)) from rfl, Bool.eq_false_iff]
  exact fun h => ((idle_bool _ _).mp h).2 h2
/-- Output window 5 is idle wherever neither condition holds. -/
theorem idle0_5 (i : grid0.Coords) (h1 : ¬k0_cond1 i = 1#1) (h2 : ¬k0_cond2 i = 1#1) : cfg0.idle 5 i = true := by
  rw [show cfg0.idle 5 i = (!(k0_cond1 i == 1#1) && !(k0_cond2 i == 1#1)) from rfl]
  exact (idle_bool _ _).mpr ⟨h1, h2⟩
/-- Output window 5 is not written back where the second condition fails (it is written back at the last point only). -/
theorem noFlush0_5 (t : Fin cfg0.N) (h2 : ¬k0_cond2 (grid0.coords t) = 1#1) : (cfg0.win 5).flush t = false :=
  Bool.eq_false_iff.mpr fun h => h2 (cond2_last t ((flush0_5 t).mp h))
/-- Output window 6 is live wherever the second condition holds. -/
theorem live0_6 (i : grid0.Coords) (h2 : k0_cond2 i = 1#1) : cfg0.idle 6 i = false := by
  rw [show cfg0.idle 6 i = (!(k0_cond1 i == 1#1) && !(k0_cond2 i == 1#1)) from rfl, Bool.eq_false_iff]
  exact fun h => ((idle_bool _ _).mp h).2 h2
/-- Output window 6 is idle wherever neither condition holds. -/
theorem idle0_6 (i : grid0.Coords) (h1 : ¬k0_cond1 i = 1#1) (h2 : ¬k0_cond2 i = 1#1) : cfg0.idle 6 i = true := by
  rw [show cfg0.idle 6 i = (!(k0_cond1 i == 1#1) && !(k0_cond2 i == 1#1)) from rfl]
  exact (idle_bool _ _).mpr ⟨h1, h2⟩
/-- Output window 6 is not written back where the second condition fails (it is written back at the last point only). -/
theorem noFlush0_6 (t : Fin cfg0.N) (h2 : ¬k0_cond2 (grid0.coords t) = 1#1) : (cfg0.win 6).flush t = false :=
  Bool.eq_false_iff.mpr fun h => h2 (cond2_last t ((flush0_6 t).mp h))
/-- Output window 7 is live wherever the second condition holds. -/
theorem live0_7 (i : grid0.Coords) (h2 : k0_cond2 i = 1#1) : cfg0.idle 7 i = false := by
  rw [show cfg0.idle 7 i = (!(k0_cond1 i == 1#1) && !(k0_cond2 i == 1#1)) from rfl, Bool.eq_false_iff]
  exact fun h => ((idle_bool _ _).mp h).2 h2
/-- Output window 7 is idle wherever neither condition holds. -/
theorem idle0_7 (i : grid0.Coords) (h1 : ¬k0_cond1 i = 1#1) (h2 : ¬k0_cond2 i = 1#1) : cfg0.idle 7 i = true := by
  rw [show cfg0.idle 7 i = (!(k0_cond1 i == 1#1) && !(k0_cond2 i == 1#1)) from rfl]
  exact (idle_bool _ _).mpr ⟨h1, h2⟩
/-- Output window 7 is not written back where the second condition fails (it is written back at the last point only). -/
theorem noFlush0_7 (t : Fin cfg0.N) (h2 : ¬k0_cond2 (grid0.coords t) = 1#1) : (cfg0.win 7).flush t = false :=
  Bool.eq_false_iff.mpr fun h => h2 (cond2_last t ((flush0_7 t).mp h))

/-! ## The staging memrefs the body is called with -/

/-- One staging buffer of an output window, through which the outputs' contents are stated (any view of the shape would do). -/
abbrev VO : View sig .tc .vmem S1x1 .f32 := (Memref.whole cc0_stg3_0 : Memref sig .tc .vmem S1x1 .f32).view
/-- Window 0's current staging memref at point `t`, and its wholeness. -/
abbrev ms0_0 (t : Fin cfg0.N) : Memref sig .tc .vmem S8192x16 .f32 := win0_0.stage (cfg0.slots t 0)
abbrev hs0_0 (t : Fin cfg0.N) : (ms0_0 t).IsWhole := hstage0_0 ((cfg0.slots t 0).cast nbuf0_0)
/-- Window 1's current staging memref at point `t`, and its wholeness. -/
abbrev ms0_1 (t : Fin cfg0.N) : Memref sig .tc .vmem S8192x2 .f32 := win0_1.stage (cfg0.slots t 1)
abbrev hs0_1 (t : Fin cfg0.N) : (ms0_1 t).IsWhole := hstage0_1 ((cfg0.slots t 1).cast nbuf0_1)
/-- Window 2's current staging memref at point `t`, and its wholeness. -/
abbrev ms0_2 (t : Fin cfg0.N) : Memref sig .tc .vmem S8192x1 .f32 := win0_2.stage (cfg0.slots t 2)
abbrev hs0_2 (t : Fin cfg0.N) : (ms0_2 t).IsWhole := hstage0_2 ((cfg0.slots t 2).cast nbuf0_2)
/-- Window 3's current staging memref at point `t`, and its wholeness. -/
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- Window 4's current staging memref at point `t`, and its wholeness. -/
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- Window 5's current staging memref at point `t`, and its wholeness. -/
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
/-- Window 6's current staging memref at point `t`, and its wholeness. -/
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
/-- Window 7's current staging memref at point `t`, and its wholeness. -/
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)

end Cert.Kernel.Gen

end
-- ==== Proof.KBodyRunA.lean ====
import proofs.«149199_j10763188043930_1_alg».proof.Proof.KBodyRuns

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT THE FIRST POINT (both conditions hold). On whole staging memrefs — the three inputs' at their contents, the five
    outputs' at anything — the body runs to the continuation holding the inputs' as they were and each output's buffer with the
    pieces its stores wrote (last first): the zero fill, then the first tile's sum added to it. The piece lists are the witness. -/
noncomputable def kernelRunA (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) :
    Σ' (L3 : List (View.Piece (Elt F) S1x1 .f32)), Σ' (L4 : List (View.Piece (Elt F) S1x1 .f32)), Σ' (L5 : List (View.Piece (Elt F) S1x1 .f32)), Σ' (L6 : List (View.Piece (Elt F) S1x1 .f32)), { L7 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__corr_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__corr_kernel_eq_skeleton]; unfold cc0__corr_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    iexists _; iexact H7

end Cert.Kernel.Gen

end
-- ==== Proof.KBodyRunB.lean ====
import proofs.«149199_j10763188043930_1_alg».proof.Proof.KBodyRunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT A LATER POINT ON OR BELOW THE DIAGONAL (the first condition fails, the second holds). On whole staging memrefs —
    the three inputs' at their contents, the five outputs' at their running sums `xo·` — the body runs to the continuation holding
    the inputs' as they were and each output's buffer with the one piece its store wrote: the tile's sum added to the running sum.
    The piece lists are the witness. -/
noncomputable def kernelRunB (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) :
    Σ' (L3 : List (View.Piece (Elt F) S1x1 .f32)), Σ' (L4 : List (View.Piece (Elt F) S1x1 .f32)), Σ' (L5 : List (View.Piece (Elt F) S1x1 .f32)), Σ' (L6 : List (View.Piece (Elt F) S1x1 .f32)), { L7 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__corr_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__corr_kernel_eq_skeleton]; unfold cc0__corr_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6; obtain rfl := harg9.eq_unread hf7
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    iexists _; iexact H7

end Cert.Kernel.Gen

end
-- ==== Proof.KBodyRunC.lean ====
import proofs.«149199_j10763188043930_1_alg».proof.Proof.KBodyRunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE BODY ABOVE THE DIAGONAL (neither condition holds): it does nothing. Every staging memref is handed back as it was. -/
theorem kernelRunC (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : ¬k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xo6 ∗ owns (c : Thread nD τ) arg9 fullShare xo7) -∗ K ⟨⟩))
          ⊢ wp frame (wpE (defs₀ (F := F)) Variants.none c none) E (cc0__corr_kernel i arg2 harg2 arg3 harg3 arg4 harg4 arg5 harg5 arg6 harg6 arg7 harg7 arg8 harg8 arg9 harg9) K := by
  simp only [cc0__corr_kernel_eq_skeleton]; unfold cc0__corr_kernel_skel
  iintro ⟨H0, H1, H2, H3, H4, H5, H6, H7, Hk⟩
  sl_exec (disch := first | exact h1 | exact h2)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Kernel.Gen

end
-- ==== Proof.KBody.lean ====
import proofs.«149199_j10763188043930_1_alg».proof.Proof.KBodyRunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What each case leaves in the outputs -/

/-- What the five output staging buffers hold, in window order. -/
abbrev Outs (F : FTy → Type) [FloatOps F] : Type := Vec F S1x1 .f32 × Vec F S1x1 .f32 × Vec F S1x1 .f32 × Vec F S1x1 .f32 × Vec F S1x1 .f32

/-- The first point's pieces for output 3 tile its one-element block, so they cover it. -/
theorem coverA_3 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) (y : S1x1.Idx) :
    ∃ pc ∈ (kernelRunA c i arg2 harg2 arg3 harg3 arg4 harg4 arg5 harg5 arg6 harg6 arg7 harg7 arg8 harg8 arg9 harg9 h1 h2 x0 x1 x2).1, y ∈ pc.1.set :=
  View.cover_of_tiledL (kernelRunA c i arg2 harg2 arg3 harg3 arg4 harg4 arg5 harg5 arg6 harg6 arg7 harg7 arg8 harg8 arg9 harg9 h1 h2 x0 x1 x2).1 S1x1.size (by sl_kernel_rfl) y
/-- What the first point leaves in output 3's staging buffer: its pieces read back. -/
def outA_3 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) : Vec F S1x1 .f32 :=
  VO.read (Elt F) (VO.writes (Elt F) VO.junk (kernelRunA c i arg2 harg2 arg3 harg3 arg4 harg4 arg5 harg5 arg6 harg6 arg7 harg7 arg8 harg8 arg9 harg9 h1 h2 x0 x1 x2).1)
/-- A later point on or below the diagonal: its piece for output 3 is the whole one-element block. -/
theorem coverB_3 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) (y : S1x1.Idx) :
    ∃ pc ∈ (kernelRunB c i arg2 harg2 arg3 harg3 arg4 harg4 arg5 harg5 arg6 harg6 arg7 harg7 arg8 harg8 arg9 harg9 h1 h2 x0 x1 x2 xo3 xo4 xo5 xo6 xo7).1, y ∈ pc.1.set :=
  View.cover_of_tiledL (kernelRunB c i arg2 harg2 arg3 harg3 arg4 harg4 arg5 harg5 arg6 harg6 arg7 harg7 arg8 harg8 arg9 harg9 h1 h2 x0 x1 x2 xo3 xo4 xo5 xo6 xo7).1 S1x1.size (by sl_kernel_rfl) y
/-- What such a point leaves in output 3's staging buffer, over the running sums `xo·`: its piece read back. -/
def outB_3 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) : Vec F S1x1 .f32 :=
  VO.read (Elt F) (VO.writes (Elt F) VO.junk (kernelRunB c i arg2 harg2 arg3 harg3 arg4 harg4 arg5 harg5 arg6 harg6 arg7 harg7 arg8 harg8 arg9 harg9 h1 h2 x0 x1 x2 xo3 xo4 xo5 xo6 xo7).1)
/-- The first point's pieces for output 4 tile its one-element block, so they cover it. -/
theorem coverA_4 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) (y : S1x1.Idx) :
    ∃ pc ∈ (kernelRunA c i arg2 harg2 arg3 harg3 arg4 harg4 arg5 harg5 arg6 harg6 arg7 harg7 arg8 harg8 arg9 harg9 h1 h2 x0 x1 x2).2.1, y ∈ pc.1.set :=
  View.cover_of_tiledL (kernelRunA c i arg2 harg2 arg3 harg3 arg4 harg4 arg5 harg5 arg6 harg6 arg7 harg7 arg8 harg8 arg9 harg9 h1 h2 x0 x1 x2).2.1 S1x1.size (by sl_kernel_rfl) y
/-- What the first point leaves in output 4's staging buffer: its pieces read back. -/
def outA_4 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) : Vec F S1x1 .f32 :=
  VO.read (Elt F) (VO.writes (Elt F) VO.junk (kernelRunA c i arg2 harg2 arg3 harg3 arg4 harg4 arg5 harg5 arg6 harg6 arg7 harg7 arg8 harg8 arg9 harg9 h1 h2 x0 x1 x2).2.1)
/-- A later point on or below the diagonal: its piece for output 4 is the whole one-element block. -/
theorem coverB_4 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) (y : S1x1.Idx) :
    ∃ pc ∈ (kernelRunB c i arg2 harg2 arg3 harg3 arg4 harg4 arg5 harg5 arg6 harg6 arg7 harg7 arg8 harg8 arg9 harg9 h1 h2 x0 x1 x2 xo3 xo4 xo5 xo6 xo7).2.1, y ∈ pc.1.set :=
  View.cover_of_tiledL (kernelRunB c i arg2 harg2 arg3 harg3 arg4 harg4 arg5 harg5 arg6 harg6 arg7 harg7 arg8 harg8 arg9 harg9 h1 h2 x0 x1 x2 xo3 xo4 xo5 xo6 xo7).2.1 S1x1.size (by sl_kernel_rfl) y
/-- What such a point leaves in output 4's staging buffer, over the running sums `xo·`: its piece read back. -/
def outB_4 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) : Vec F S1x1 .f32 :=
  VO.read (Elt F) (VO.writes (Elt F) VO.junk (kernelRunB c i arg2 harg2 arg3 harg3 arg4 harg4 arg5 harg5 arg6 harg6 arg7 harg7 arg8 harg8 arg9 harg9 h1 h2 x0 x1 x2 xo3 xo4 xo5 xo6 xo7).2.1)
/-- The first point's pieces for output 5 tile its one-element block, so they cover it. -/
theorem coverA_5 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) (y : S1x1.Idx) :
    ∃ pc ∈ (kernelRunA c i arg2 harg2 arg3 harg3 arg4 harg4 arg5 harg5 arg6 harg6 arg7 harg7 arg8 harg8 arg9 harg9 h1 h2 x0 x1 x2).2.2.1, y ∈ pc.1.set :=
  View.cover_of_tiledL (kernelRunA c i arg2 harg2 arg3 harg3 arg4 harg4 arg5 harg5 arg6 harg6 arg7 harg7 arg8 harg8 arg9 harg9 h1 h2 x0 x1 x2).2.2.1 S1x1.size (by sl_kernel_rfl) y
/-- What the first point leaves in output 5's staging buffer: its pieces read back. -/
def outA_5 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) : Vec F S1x1 .f32 :=
  VO.read (Elt F) (VO.writes (Elt F) VO.junk (kernelRunA c i arg2 harg2 arg3 harg3 arg4 harg4 arg5 harg5 arg6 harg6 arg7 harg7 arg8 harg8 arg9 harg9 h1 h2 x0 x1 x2).2.2.1)
/-- A later point on or below the diagonal: its piece for output 5 is the whole one-element block. -/
theorem coverB_5 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) (y : S1x1.Idx) :
    ∃ pc ∈ (kernelRunB c i arg2 harg2 arg3 harg3 arg4 harg4 arg5 harg5 arg6 harg6 arg7 harg7 arg8 harg8 arg9 harg9 h1 h2 x0 x1 x2 xo3 xo4 xo5 xo6 xo7).2.2.1, y ∈ pc.1.set :=
  View.cover_of_tiledL (kernelRunB c i arg2 harg2 arg3 harg3 arg4 harg4 arg5 harg5 arg6 harg6 arg7 harg7 arg8 harg8 arg9 harg9 h1 h2 x0 x1 x2 xo3 xo4 xo5 xo6 xo7).2.2.1 S1x1.size (by sl_kernel_rfl) y
/-- What such a point leaves in output 5's staging buffer, over the running sums `xo·`: its piece read back. -/
def outB_5 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) : Vec F S1x1 .f32 :=
  VO.read (Elt F) (VO.writes (Elt F) VO.junk (kernelRunB c i arg2 harg2 arg3 harg3 arg4 harg4 arg5 harg5 arg6 harg6 arg7 harg7 arg8 harg8 arg9 harg9 h1 h2 x0 x1 x2 xo3 xo4 xo5 xo6 xo7).2.2.1)
/-- The first point's pieces for output 6 tile its one-element block, so they cover it. -/
theorem coverA_6 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) (y : S1x1.Idx) :
    ∃ pc ∈ (kernelRunA c i arg2 harg2 arg3 harg3 arg4 harg4 arg5 harg5 arg6 harg6 arg7 harg7 arg8 harg8 arg9 harg9 h1 h2 x0 x1 x2).2.2.2.1, y ∈ pc.1.set :=
  View.cover_of_tiledL (kernelRunA c i arg2 harg2 arg3 harg3 arg4 harg4 arg5 harg5 arg6 harg6 arg7 harg7 arg8 harg8 arg9 harg9 h1 h2 x0 x1 x2).2.2.2.1 S1x1.size (by sl_kernel_rfl) y
/-- What the first point leaves in output 6's staging buffer: its pieces read back. -/
def outA_6 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) : Vec F S1x1 .f32 :=
  VO.read (Elt F) (VO.writes (Elt F) VO.junk (kernelRunA c i arg2 harg2 arg3 harg3 arg4 harg4 arg5 harg5 arg6 harg6 arg7 harg7 arg8 harg8 arg9 harg9 h1 h2 x0 x1 x2).2.2.2.1)
/-- A later point on or below the diagonal: its piece for output 6 is the whole one-element block. -/
theorem coverB_6 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) (y : S1x1.Idx) :
    ∃ pc ∈ (kernelRunB c i arg2 harg2 arg3 harg3 arg4 harg4 arg5 harg5 arg6 harg6 arg7 harg7 arg8 harg8 arg9 harg9 h1 h2 x0 x1 x2 xo3 xo4 xo5 xo6 xo7).2.2.2.1, y ∈ pc.1.set :=
  View.cover_of_tiledL (kernelRunB c i arg2 harg2 arg3 harg3 arg4 harg4 arg5 harg5 arg6 harg6 arg7 harg7 arg8 harg8 arg9 harg9 h1 h2 x0 x1 x2 xo3 xo4 xo5 xo6 xo7).2.2.2.1 S1x1.size (by sl_kernel_rfl) y
/-- What such a point leaves in output 6's staging buffer, over the running sums `xo·`: its piece read back. -/
def outB_6 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) : Vec F S1x1 .f32 :=
  VO.read (Elt F) (VO.writes (Elt F) VO.junk (kernelRunB c i arg2 harg2 arg3 harg3 arg4 harg4 arg5 harg5 arg6 harg6 arg7 harg7 arg8 harg8 arg9 harg9 h1 h2 x0 x1 x2 xo3 xo4 xo5 xo6 xo7).2.2.2.1)
/-- The first point's pieces for output 7 tile its one-element block, so they cover it. -/
theorem coverA_7 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) (y : S1x1.Idx) :
    ∃ pc ∈ (kernelRunA c i arg2 harg2 arg3 harg3 arg4 harg4 arg5 harg5 arg6 harg6 arg7 harg7 arg8 harg8 arg9 harg9 h1 h2 x0 x1 x2).2.2.2.2.1, y ∈ pc.1.set :=
  View.cover_of_tiledL (kernelRunA c i arg2 harg2 arg3 harg3 arg4 harg4 arg5 harg5 arg6 harg6 arg7 harg7 arg8 harg8 arg9 harg9 h1 h2 x0 x1 x2).2.2.2.2.1 S1x1.size (by sl_kernel_rfl) y
/-- What the first point leaves in output 7's staging buffer: its pieces read back. -/
def outA_7 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) : Vec F S1x1 .f32 :=
  VO.read (Elt F) (VO.writes (Elt F) VO.junk (kernelRunA c i arg2 harg2 arg3 harg3 arg4 harg4 arg5 harg5 arg6 harg6 arg7 harg7 arg8 harg8 arg9 harg9 h1 h2 x0 x1 x2).2.2.2.2.1)
/-- A later point on or below the diagonal: its piece for output 7 is the whole one-element block. -/
theorem coverB_7 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) (y : S1x1.Idx) :
    ∃ pc ∈ (kernelRunB c i arg2 harg2 arg3 harg3 arg4 harg4 arg5 harg5 arg6 harg6 arg7 harg7 arg8 harg8 arg9 harg9 h1 h2 x0 x1 x2 xo3 xo4 xo5 xo6 xo7).2.2.2.2.1, y ∈ pc.1.set :=
  View.cover_of_tiledL (kernelRunB c i arg2 harg2 arg3 harg3 arg4 harg4 arg5 harg5 arg6 harg6 arg7 harg7 arg8 harg8 arg9 harg9 h1 h2 x0 x1 x2 xo3 xo4 xo5 xo6 xo7).2.2.2.2.1 S1x1.size (by sl_kernel_rfl) y
/-- What such a point leaves in output 7's staging buffer, over the running sums `xo·`: its piece read back. -/
def outB_7 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) : Vec F S1x1 .f32 :=
  VO.read (Elt F) (VO.writes (Elt F) VO.junk (kernelRunB c i arg2 harg2 arg3 harg3 arg4 harg4 arg5 harg5 arg6 harg6 arg7 harg7 arg8 harg8 arg9 harg9 h1 h2 x0 x1 x2 xo3 xo4 xo5 xo6 xo7).2.2.2.2.1)

/-! ## What the outputs hold after each point -/

/-- THE ACCUMULATION. What the five outputs' staging buffers hold after the body at position `n`: at the first point the zero
    fill plus the first tile's sums; at a later point on or below the diagonal the tile's sums added to what the point before
    left; at a point above the diagonal what the point before left, unchanged. -/
def outsAt (c : Dev nD) : (n : ℕ) → n < cfg0.N → Outs F
  | 0, hn =>
    (outA_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((cond1_iff ⟨0, hn⟩).mpr rfl) (cond2_first ⟨0, hn⟩ rfl) (iblk m c 0 ⟨0, hn⟩) (iblk m c 1 ⟨0, hn⟩) (iblk m c 2 ⟨0, hn⟩),
     outA_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((cond1_iff ⟨0, hn⟩).mpr rfl) (cond2_first ⟨0, hn⟩ rfl) (iblk m c 0 ⟨0, hn⟩) (iblk m c 1 ⟨0, hn⟩) (iblk m c 2 ⟨0, hn⟩),
     outA_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((cond1_iff ⟨0, hn⟩).mpr rfl) (cond2_first ⟨0, hn⟩ rfl) (iblk m c 0 ⟨0, hn⟩) (iblk m c 1 ⟨0, hn⟩) (iblk m c 2 ⟨0, hn⟩),
     outA_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((cond1_iff ⟨0, hn⟩).mpr rfl) (cond2_first ⟨0, hn⟩ rfl) (iblk m c 0 ⟨0, hn⟩) (iblk m c 1 ⟨0, hn⟩) (iblk m c 2 ⟨0, hn⟩),
     outA_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((cond1_iff ⟨0, hn⟩).mpr rfl) (cond2_first ⟨0, hn⟩ rfl) (iblk m c 0 ⟨0, hn⟩) (iblk m c 1 ⟨0, hn⟩) (iblk m c 2 ⟨0, hn⟩))
  | n + 1, hn =>
    if h2 : k0_cond2 (grid0.coords ⟨n + 1, hn⟩) = 1#1 then
      (outB_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => Nat.succ_ne_zero n ((cond1_iff ⟨n + 1, hn⟩).mp h)) h2 (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
       outB_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => Nat.succ_ne_zero n ((cond1_iff ⟨n + 1, hn⟩).mp h)) h2 (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
       outB_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => Nat.succ_ne_zero n ((cond1_iff ⟨n + 1, hn⟩).mp h)) h2 (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
       outB_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => Nat.succ_ne_zero n ((cond1_iff ⟨n + 1, hn⟩).mp h)) h2 (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
       outB_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => Nat.succ_ne_zero n ((cond1_iff ⟨n + 1, hn⟩).mp h)) h2 (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2)
    else outsAt c n (Nat.lt_of_succ_lt hn)

/-- `outsAt` at the first point. -/
theorem outsAt_A (c : Dev nD) (t : Fin cfg0.N) (h1 : k0_cond1 (grid0.coords t) = 1#1) (h2 : k0_cond2 (grid0.coords t) = 1#1) :
    outsAt m c t.val t.isLt =
      (outA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t),
       outA_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t),
       outA_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t),
       outA_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t),
       outA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t)) := by
  have h0 : t.val = 0 := (cond1_iff t).mp h1
  obtain ⟨n, hn⟩ := t
  cases n with
  | zero => exact rfl
  | succ n => exact absurd h0 (Nat.succ_ne_zero n)

/-- `outsAt` at a later point on or below the diagonal: the tile's sums over what the point before left. -/
theorem outsAt_B (c : Dev nD) (t : Fin cfg0.N) (h1 : ¬k0_cond1 (grid0.coords t) = 1#1) (h2 : k0_cond2 (grid0.coords t) = 1#1) :
    outsAt m c t.val t.isLt =
      (outB_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
       outB_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
       outB_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
       outB_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
       outB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2) := by
  obtain ⟨n, hn⟩ := t
  cases n with
  | zero => exact absurd ((cond1_iff ⟨0, hn⟩).mpr rfl) h1
  | succ n => exact (dif_pos h2).trans rfl

/-- `outsAt` at a point above the diagonal: what the point before left. -/
theorem outsAt_C (c : Dev nD) (t : Fin cfg0.N) (h1 : ¬k0_cond1 (grid0.coords t) = 1#1) (h2 : ¬k0_cond2 (grid0.coords t) = 1#1) :
    outsAt m c t.val t.isLt = outsAt m c (t.val - 1) (Nat.lt_of_le_of_lt (Nat.sub_le _ _) t.isLt) := by
  obtain ⟨n, hn⟩ := t
  cases n with
  | zero => exact absurd ((cond1_iff ⟨0, hn⟩).mpr rfl) h1
  | succ n => exact (dif_neg h2).trans rfl

/-! ## The pipeline's proof data -/

/-- The proof data of the one pipeline on core `c`: the arrays as the region finds them; after the body at point `t` each
    input's buffer at its block and the outputs' at `outsAt`; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
    | ⟨4, _⟩ => (outsAt m c t.val t.isLt).2.1
    | ⟨5, _⟩ => (outsAt m c t.val t.isLt).2.2.1
    | ⟨6, _⟩ => (outsAt m c t.val t.isLt).2.2.2.1
    | ⟨7, _⟩ => (outsAt m c t.val t.isLt).2.2.2.2
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt m c t.val t.isLt).1 := by dsimp only [dats]
theorem after0_4 (c : Dev nD) (t : Fin cfg0.N) : (dats m 0 c).after 4 t = (outsAt m c t.val t.isLt).2.1 := by dsimp only [dats]
theorem after0_5 (c : Dev nD) (t : Fin cfg0.N) : (dats m 0 c).after 5 t = (outsAt m c t.val t.isLt).2.2.1 := by dsimp only [dats]
theorem after0_6 (c : Dev nD) (t : Fin cfg0.N) : (dats m 0 c).after 6 t = (outsAt m c t.val t.isLt).2.2.2.1 := by dsimp only [dats]
theorem after0_7 (c : Dev nD) (t : Fin cfg0.N) : (dats m 0 c).after 7 t = (outsAt m c t.val t.isLt).2.2.2.2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- AN ACCUMULATOR THROUGH IDLE POINTS. For proof data over this grid and an output window `w` written back at the last point
    only, uncut, idle exactly where neither condition holds, whose `after` at an idle point repeats the point before: at every
    point but the first the window's current staging buffer holds `after` of the point before — through a run of idle points
    the buffer is untouched, and `after` was defined to carry the value along. By induction on the point. -/
theorem before_through_idle {c : Dev nD} (dat : Dat τ (Elt F) Unit ℕ (UR sig nD τ) ℕ cfg0 c) (w : Fin cfg0.W)
    (hw : (cfg0.win w).isOut = true) (hfl : ∀ t : Fin cfg0.N, (cfg0.win w).flush t = true ↔ t.val % 256 = 255)
    (hclip : ∀ (i : cfg0.grid.Coords) a, (cfg0.win w).clip i a = none)
    (hlive : ∀ i, k0_cond2 i = 1#1 → cfg0.idle w i = false)
    (hrep : ∀ t : Fin cfg0.N, cfg0.idle w (grid0.coords t) = true → t.val ≠ 0 ∧ dat.after w t = dat.after w ⟨t.val - 1, (Nat.lt_of_le_of_lt (Nat.sub_le _ _) t.isLt)⟩) :
    ∀ (n : ℕ) (hn : n < cfg0.N) (hpos : n ≠ 0) (d), dat.before w ⟨n, hn⟩ d = dat.after w ⟨n - 1, Nat.lt_of_le_of_lt (Nat.sub_le _ _) hn⟩ := by
  intro n
  induction n with
  | zero => intro _ h; exact absurd rfl h
  | succ k ih =>
    intro hn _ d
    have hN : k + 1 < 256 := lt_of_lt_of_eq hn (show cfg0.N = 256 from N_0)
    have hk : k < cfg0.N := Nat.lt_of_succ_lt hn
    rw [dat.before_of_pos w ⟨k + 1, hn⟩ (Nat.succ_ne_zero k) ((cfg0.win w).fetch_out hw _)]
    have hnf : (cfg0.win w).flush ⟨k + 1 - 1, Nat.lt_of_le_of_lt (Nat.sub_le _ _) hn⟩ = false :=
      Bool.eq_false_iff.mpr fun h => by have := (hfl _).mp h; dsimp only at this; omega
    rw [hnf, if_neg Bool.false_ne_true]
    unfold Dat.left
    cases hi : cfg0.idle w (cfg0.grid.coords ⟨k + 1 - 1, Nat.lt_of_le_of_lt (Nat.sub_le _ _) hn⟩) with
    | false =>
      dsimp only
      unfold Dat.kept
      rw [Pipeline.fill_of_clip_none w _ (hclip _) d (dat.after w _), Window.fill_cut]
    | true =>
      dsimp only
      obtain ⟨hk0, hr⟩ := hrep ⟨k + 1 - 1, Nat.lt_of_le_of_lt (Nat.sub_le _ _) hn⟩ hi
      have hk0' : k ≠ 0 := by simpa using hk0
      have := ih hk hk0' d
      rw [hr]
      exact this

/-- At every point but the first, output 3's current staging buffer holds what `outsAt` says the point before left. -/
theorem before0_3 (c : Dev nD) (t : Fin cfg0.N) (ht : t.val ≠ 0) (d) :
    (dats m 0 c).before 3 t d = (outsAt m c (t.val - 1) (Nat.lt_of_le_of_lt (Nat.sub_le _ _) t.isLt)).1 := by
  have h := before_through_idle (dats m 0 c) 3 rfl flush0_3 (fun _ _ => rfl) live0_3
    (fun s hi => by
      have h2 : ¬k0_cond2 (grid0.coords s) = 1#1 := fun h2 => by rw [live0_3 _ h2] at hi; exact Bool.false_ne_true hi
      have h1 : ¬k0_cond1 (grid0.coords s) = 1#1 := fun h1 => h2 (cond2_of_cond1 s h1)
      refine ⟨fun h0 => h1 ((cond1_iff s).mpr h0), ?_⟩
      rw [after0_3, after0_3, outsAt_C m c s h1 h2])
    t.val t.isLt ht d
  rw [show t = ⟨t.val, t.isLt⟩ from rfl, h, after0_3]
/-- At every point but the first, output 4's current staging buffer holds what `outsAt` says the point before left. -/
theorem before0_4 (c : Dev nD) (t : Fin cfg0.N) (ht : t.val ≠ 0) (d) :
    (dats m 0 c).before 4 t d = (outsAt m c (t.val - 1) (Nat.lt_of_le_of_lt (Nat.sub_le _ _) t.isLt)).2.1 := by
  have h := before_through_idle (dats m 0 c) 4 rfl flush0_4 (fun _ _ => rfl) live0_4
    (fun s hi => by
      have h2 : ¬k0_cond2 (grid0.coords s) = 1#1 := fun h2 => by rw [live0_4 _ h2] at hi; exact Bool.false_ne_true hi
      have h1 : ¬k0_cond1 (grid0.coords s) = 1#1 := fun h1 => h2 (cond2_of_cond1 s h1)
      refine ⟨fun h0 => h1 ((cond1_iff s).mpr h0), ?_⟩
      rw [after0_4, after0_4, outsAt_C m c s h1 h2])
    t.val t.isLt ht d
  rw [show t = ⟨t.val, t.isLt⟩ from rfl, h, after0_4]
/-- At every point but the first, output 5's current staging buffer holds what `outsAt` says the point before left. -/
theorem before0_5 (c : Dev nD) (t : Fin cfg0.N) (ht : t.val ≠ 0) (d) :
    (dats m 0 c).before 5 t d = (outsAt m c (t.val - 1) (Nat.lt_of_le_of_lt (Nat.sub_le _ _) t.isLt)).2.2.1 := by
  have h := before_through_idle (dats m 0 c) 5 rfl flush0_5 (fun _ _ => rfl) live0_5
    (fun s hi => by
      have h2 : ¬k0_cond2 (grid0.coords s) = 1#1 := fun h2 => by rw [live0_5 _ h2] at hi; exact Bool.false_ne_true hi
      have h1 : ¬k0_cond1 (grid0.coords s) = 1#1 := fun h1 => h2 (cond2_of_cond1 s h1)
      refine ⟨fun h0 => h1 ((cond1_iff s).mpr h0), ?_⟩
      rw [after0_5, after0_5, outsAt_C m c s h1 h2])
    t.val t.isLt ht d
  rw [show t = ⟨t.val, t.isLt⟩ from rfl, h, after0_5]
/-- At every point but the first, output 6's current staging buffer holds what `outsAt` says the point before left. -/
theorem before0_6 (c : Dev nD) (t : Fin cfg0.N) (ht : t.val ≠ 0) (d) :
    (dats m 0 c).before 6 t d = (outsAt m c (t.val - 1) (Nat.lt_of_le_of_lt (Nat.sub_le _ _) t.isLt)).2.2.2.1 := by
  have h := before_through_idle (dats m 0 c) 6 rfl flush0_6 (fun _ _ => rfl) live0_6
    (fun s hi => by
      have h2 : ¬k0_cond2 (grid0.coords s) = 1#1 := fun h2 => by rw [live0_6 _ h2] at hi; exact Bool.false_ne_true hi
      have h1 : ¬k0_cond1 (grid0.coords s) = 1#1 := fun h1 => h2 (cond2_of_cond1 s h1)
      refine ⟨fun h0 => h1 ((cond1_iff s).mpr h0), ?_⟩
      rw [after0_6, after0_6, outsAt_C m c s h1 h2])
    t.val t.isLt ht d
  rw [show t = ⟨t.val, t.isLt⟩ from rfl, h, after0_6]
/-- At every point but the first, output 7's current staging buffer holds what `outsAt` says the point before left. -/
theorem before0_7 (c : Dev nD) (t : Fin cfg0.N) (ht : t.val ≠ 0) (d) :
    (dats m 0 c).before 7 t d = (outsAt m c (t.val - 1) (Nat.lt_of_le_of_lt (Nat.sub_le _ _) t.isLt)).2.2.2.2 := by
  have h := before_through_idle (dats m 0 c) 7 rfl flush0_7 (fun _ _ => rfl) live0_7
    (fun s hi => by
      have h2 : ¬k0_cond2 (grid0.coords s) = 1#1 := fun h2 => by rw [live0_7 _ h2] at hi; exact Bool.false_ne_true hi
      have h1 : ¬k0_cond1 (grid0.coords s) = 1#1 := fun h1 => h2 (cond2_of_cond1 s h1)
      refine ⟨fun h0 => h1 ((cond1_iff s).mpr h0), ?_⟩
      rw [after0_7, after0_7, outsAt_C m c s h1 h2])
    t.val t.isLt ht d
  rw [show t = ⟨t.val, t.isLt⟩ from rfl, h, after0_7]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns: each window's buffer at what the body leaves (at an idle point, what it found). -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point: the inputs' memrefs hold their blocks; the two conditions say which case the point is in; at a later
    point on or below the diagonal each output holds what the point before left; above the diagonal the outputs are idle and
    handed back as found; so the case's run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from rfl,
    show (dats m 0 c).leavesExact 1 t = owns (c : Thread nD τ) (ms0_1 t) fullShare ((dats m 0 c).after 1 t) from rfl,
    show (dats m 0 c).leavesExact 2 t = owns (c : Thread nD τ) (ms0_2 t) fullShare ((dats m 0 c).after 2 t) from rfl,
    after0_0, after0_1, after0_2]
  by_cases h2 : k0_cond2 (grid0.coords t) = 1#1
  · rw [show (dats m 0 c).leavesExact 3 t = owns (c : Thread nD τ) (ms0_3 t) fullShare ((dats m 0 c).after 3 t) from by
        unfold Dat.leavesExact; rw [live0_3 _ h2],
      show (dats m 0 c).leavesExact 4 t = owns (c : Thread nD τ) (ms0_4 t) fullShare ((dats m 0 c).after 4 t) from by
        unfold Dat.leavesExact; rw [live0_4 _ h2],
      show (dats m 0 c).leavesExact 5 t = owns (c : Thread nD τ) (ms0_5 t) fullShare ((dats m 0 c).after 5 t) from by
        unfold Dat.leavesExact; rw [live0_5 _ h2],
      show (dats m 0 c).leavesExact 6 t = owns (c : Thread nD τ) (ms0_6 t) fullShare ((dats m 0 c).after 6 t) from by
        unfold Dat.leavesExact; rw [live0_6 _ h2],
      show (dats m 0 c).leavesExact 7 t = owns (c : Thread nD τ) (ms0_7 t) fullShare ((dats m 0 c).after 7 t) from by
        unfold Dat.leavesExact; rw [live0_7 _ h2],
      after0_3, after0_4, after0_5, after0_6, after0_7]
    by_cases h1 : k0_cond1 (grid0.coords t) = 1#1
    · rw [outsAt_A m c t h1 h2]
      unfold outA_3 outA_4 outA_5 outA_6 outA_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunA c (grid0.coords t) _ _ _ _ _ _ _ _ _ _ _ _ _ _ _ _ h1 h2 (iblk m c 0 t) (iblk m c 1 t) (iblk m c 2 t)).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      iintro ⟨H0, H1, H2, ⟨%e3, H3⟩, ⟨%e4, H4⟩, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverA_3 c _ _ _ _ _ _ _ _ _ _ _ _ _ _ _ _ _ _ _ _ _ _)
      isplitl [H4]
      · unfold owns; iexists _; isplitr
        swap; · iexact H4
        ipureintro; exact View.read_writes_of_cover _ _ _ _ _ (coverA_4 c _ _ _ _ _ _ _ _ _ _ _ _ _ _ _ _ _ _ _ _ _ _)
      isplitl [H5]
      · unfold owns; iexists _; isplitr
        swap; · iexact H5
        ipureintro; exact View.read_writes_of_cover _ _ _ _ _ (coverA_5 c _ _ _ _ _ _ _ _ _ _ _ _ _ _ _ _ _ _ _ _ _ _)
      isplitl [H6]
      · unfold owns; iexists _; isplitr
        swap; · iexact H6
        ipureintro; exact View.read_writes_of_cover _ _ _ _ _ (coverA_6 c _ _ _ _ _ _ _ _ _ _ _ _ _ _ _ _ _ _ _ _ _ _)
      unfold owns; iexists _; isplitr
      swap; · iexact H7
      ipureintro; exact View.read_writes_of_cover _ _ _ _ _ (coverA_7 c _ _ _ _ _ _ _ _ _ _ _ _ _ _ _ _ _ _ _ _ _ _)
    · have ht : t.val ≠ 0 := fun h0 => h1 ((cond1_iff t).mpr h0)
      simp only [before0_3 m c t ht, before0_4 m c t ht, before0_5 m c t ht, before0_6 m c t ht, before0_7 m c t ht]
      rw [outsAt_B m c t h1 h2]
      unfold outB_3 outB_4 outB_5 outB_6 outB_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunB c (grid0.coords t) _ _ _ _ _ _ _ _ _ _ _ _ _ _ _ _ h1 h2 (iblk m c 0 t) (iblk m c 1 t) (iblk m c 2 t) _ _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, ⟨%e3, H3⟩, ⟨%e4, H4⟩, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverB_3 c _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (coverB_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (coverB_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (coverB_6 c _ _ _ _ _ _ _ _ _ _ _ _ _ _ _ _ _ _ _ _ _ _ _ _ _ _ _)
      unfold owns; iexists _; isplitr
      swap; · iexact H7
      ipureintro; exact View.read_writes_of_cover _ _ _ _ _ (coverB_7 c _ _ _ _ _ _ _ _ _ _ _ _ _ _ _ _ _ _ _ _ _ _ _ _ _ _ _)
  · have h1 : ¬k0_cond1 (grid0.coords t) = 1#1 := fun h1 => h2 (cond2_of_cond1 t h1)
    rw [Dat.leavesExact_idle (dats m 0 c) 3 t (idle0_3 _ h1 h2) (noFlush0_3 t h2),
      Dat.leavesExact_idle (dats m 0 c) 4 t (idle0_4 _ h1 h2) (noFlush0_4 t h2),
      Dat.leavesExact_idle (dats m 0 c) 5 t (idle0_5 _ h1 h2) (noFlush0_5 t h2),
      Dat.leavesExact_idle (dats m 0 c) 6 t (idle0_6 _ h1 h2) (noFlush0_6 t h2),
      Dat.leavesExact_idle (dats m 0 c) 7 t (idle0_7 _ h1 h2) (noFlush0_7 t h2)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRunC c (grid0.coords t) _ _ _ _ _ _ _ _ _ _ _ _ _ _ _ _ h1 h2 (iblk m c 0 t) (iblk m c 1 t) (iblk m c 2 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: every weakly fair execution of @main terminates with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Gen

end
-- ==== Proof.BodyRuns.lean ====
import proofs.«149199_j10763188043930_1_alg».proof.Proof.Gen.KernelIdeal.Frame
import proofs.«149199_j10763188043930_1_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The two branch conditions over the grid -/

/-- The first condition (both coordinates zero) holds at the first point only. -/
theorem cond1_iff : ∀ t : Fin cfg0.N, k0_cond1 (grid0.coords t) = 1#1 ↔ t.val = 0 :=
  (by decide +kernel : ∀ t : Fin grid0.N, k0_cond1 (grid0.coords t) = 1#1 ↔ t.val = 0)
/-- The second condition (row tile not above the column tile) holds at the first point. -/
theorem cond2_first : ∀ t : Fin cfg0.N, t.val = 0 → k0_cond2 (grid0.coords t) = 1#1 :=
  (by decide +kernel : ∀ t : Fin grid0.N, t.val = 0 → k0_cond2 (grid0.coords t) = 1#1)
/-- The second condition holds at the last point (the diagonal tile (15, 15)). -/
theorem cond2_last : ∀ t : Fin cfg0.N, t.val % 256 = 255 → k0_cond2 (grid0.coords t) = 1#1 :=
  (by decide +kernel : ∀ t : Fin grid0.N, t.val % 256 = 255 → k0_cond2 (grid0.coords t) = 1#1)
/-- Wherever the first condition holds, so does the second: the assignment (first, not second) meets no point. -/
theorem cond2_of_cond1 (t : Fin cfg0.N) (h : k0_cond1 (grid0.coords t) = 1#1) : k0_cond2 (grid0.coords t) = 1#1 :=
  cond2_first t ((cond1_iff t).mp h)

/-! ## Where the output windows are idle -/

/-- Two one-bit words both different from one: the Boolean the configuration's idle table computes. -/
theorem idle_bool (a b : BitVec 1) : (!(a == 1#1) && !(b == 1#1)) = true ↔ (¬a = 1#1 ∧ ¬b = 1#1) := by
  simp
/-- Output window 3 is live wherever the second condition holds. -/
theorem live0_3 (i : grid0.Coords) (h2 : k0_cond2 i = 1#1) : cfg0.idle 3 i = false := by
  rw [show cfg0.idle 3 i = (!(k0_cond1 i == 1#1) && !(k0_cond2 i == 1#1)) from rfl, Bool.eq_false_iff]
  exact fun h => ((idle_bool _ _).mp h).2 h2
/-- Output window 3 is idle wherever neither condition holds. -/
theorem idle0_3 (i : grid0.Coords) (h1 : ¬k0_cond1 i = 1#1) (h2 : ¬k0_cond2 i = 1#1) : cfg0.idle 3 i = true := by
  rw [show cfg0.idle 3 i = (!(k0_cond1 i == 1#1) && !(k0_cond2 i == 1#1)) from rfl]
  exact (idle_bool _ _).mpr ⟨h1, h2⟩
/-- Output window 3 is not written back where the second condition fails (it is written back at the last point only). -/
theorem noFlush0_3 (t : Fin cfg0.N) (h2 : ¬k0_cond2 (grid0.coords t) = 1#1) : (cfg0.win 3).flush t = false :=
  Bool.eq_false_iff.mpr fun h => h2 (cond2_last t ((flush0_3 t).mp h))
/-- Output window 4 is live wherever the second condition holds. -/
theorem live0_4 (i : grid0.Coords) (h2 : k0_cond2 i = 1#1) : cfg0.idle 4 i = false := by
  rw [show cfg0.idle 4 i = (!(k0_cond1 i == 1#1) && !(k0_cond2 i == 1#1)) from rfl, Bool.eq_false_iff]
  exact fun h => ((idle_bool _ _).mp h).2 h2
/-- Output window 4 is idle wherever neither condition holds. -/
theorem idle0_4 (i : grid0.Coords) (h1 : ¬k0_cond1 i = 1#1) (h2 : ¬k0_cond2 i = 1#1) : cfg0.idle 4 i = true := by
  rw [show cfg0.idle 4 i = (!(k0_cond1 i == 1#1) && !(k0_cond2 i == 1#1)) from rfl]
  exact (idle_bool _ _).mpr ⟨h1, h2⟩
/-- Output window 4 is not written back where the second condition fails (it is written back at the last point only). -/
theorem noFlush0_4 (t : Fin cfg0.N) (h2 : ¬k0_cond2 (grid0.coords t) = 1#1) : (cfg0.win 4).flush t = false :=
  Bool.eq_false_iff.mpr fun h => h2 (cond2_last t ((flush0_4 t).mp h))
/-- Output window 5 is live wherever the second condition holds. -/
theorem live0_5 (i : grid0.Coords) (h2 : k0_cond2 i = 1#1) : cfg0.idle 5 i = false := by
  rw [show cfg0.idle 5 i = (!(k0_cond1 i == 1#1) && !(k0_cond2 i == 1#1)) from rfl, Bool.eq_false_iff]
  exact fun h => ((idle_bool _ _).mp h).2 h2
/-- Output window 5 is idle wherever neither condition holds. -/
theorem idle0_5 (i : grid0.Coords) (h1 : ¬k0_cond1 i = 1#1) (h2 : ¬k0_cond2 i = 1#1) : cfg0.idle 5 i = true := by
  rw [show cfg0.idle 5 i = (!(k0_cond1 i == 1#1) && !(k0_cond2 i == 1#1)) from rfl]
  exact (idle_bool _ _).mpr ⟨h1, h2⟩
/-- Output window 5 is not written back where the second condition fails (it is written back at the last point only). -/
theorem noFlush0_5 (t : Fin cfg0.N) (h2 : ¬k0_cond2 (grid0.coords t) = 1#1) : (cfg0.win 5).flush t = false :=
  Bool.eq_false_iff.mpr fun h => h2 (cond2_last t ((flush0_5 t).mp h))
/-- Output window 6 is live wherever the second condition holds. -/
theorem live0_6 (i : grid0.Coords) (h2 : k0_cond2 i = 1#1) : cfg0.idle 6 i = false := by
  rw [show cfg0.idle 6 i = (!(k0_cond1 i == 1#1) && !(k0_cond2 i == 1#1)) from rfl, Bool.eq_false_iff]
  exact fun h => ((idle_bool _ _).mp h).2 h2
/-- Output window 6 is idle wherever neither condition holds. -/
theorem idle0_6 (i : grid0.Coords) (h1 : ¬k0_cond1 i = 1#1) (h2 : ¬k0_cond2 i = 1#1) : cfg0.idle 6 i = true := by
  rw [show cfg0.idle 6 i = (!(k0_cond1 i == 1#1) && !(k0_cond2 i == 1#1)) from rfl]
  exact (idle_bool _ _).mpr ⟨h1, h2⟩
/-- Output window 6 is not written back where the second condition fails (it is written back at the last point only). -/
theorem noFlush0_6 (t : Fin cfg0.N) (h2 : ¬k0_cond2 (grid0.coords t) = 1#1) : (cfg0.win 6).flush t = false :=
  Bool.eq_false_iff.mpr fun h => h2 (cond2_last t ((flush0_6 t).mp h))
/-- Output window 7 is live wherever the second condition holds. -/
theorem live0_7 (i : grid0.Coords) (h2 : k0_cond2 i = 1#1) : cfg0.idle 7 i = false := by
  rw [show cfg0.idle 7 i = (!(k0_cond1 i == 1#1) && !(k0_cond2 i == 1#1)) from rfl, Bool.eq_false_iff]
  exact fun h => ((idle_bool _ _).mp h).2 h2
/-- Output window 7 is idle wherever neither condition holds. -/
theorem idle0_7 (i : grid0.Coords) (h1 : ¬k0_cond1 i = 1#1) (h2 : ¬k0_cond2 i = 1#1) : cfg0.idle 7 i = true := by
  rw [show cfg0.idle 7 i = (!(k0_cond1 i == 1#1) && !(k0_cond2 i == 1#1)) from rfl]
  exact (idle_bool _ _).mpr ⟨h1, h2⟩
/-- Output window 7 is not written back where the second condition fails (it is written back at the last point only). -/
theorem noFlush0_7 (t : Fin cfg0.N) (h2 : ¬k0_cond2 (grid0.coords t) = 1#1) : (cfg0.win 7).flush t = false :=
  Bool.eq_false_iff.mpr fun h => h2 (cond2_last t ((flush0_7 t).mp h))

/-! ## The staging memrefs the body is called with -/

/-- One staging buffer of an output window, through which the outputs' contents are stated (any view of the shape would do). -/
abbrev VO : View sig .tc .vmem S1x1 .f32 := (Memref.whole cc0_stg3_0 : Memref sig .tc .vmem S1x1 .f32).view
/-- Window 0's current staging memref at point `t`, and its wholeness. -/
abbrev ms0_0 (t : Fin cfg0.N) : Memref sig .tc .vmem S8192x16 .f32 := win0_0.stage (cfg0.slots t 0)
abbrev hs0_0 (t : Fin cfg0.N) : (ms0_0 t).IsWhole := hstage0_0 ((cfg0.slots t 0).cast nbuf0_0)
/-- Window 1's current staging memref at point `t`, and its wholeness. -/
abbrev ms0_1 (t : Fin cfg0.N) : Memref sig .tc .vmem S8192x2 .f32 := win0_1.stage (cfg0.slots t 1)
abbrev hs0_1 (t : Fin cfg0.N) : (ms0_1 t).IsWhole := hstage0_1 ((cfg0.slots t 1).cast nbuf0_1)
/-- Window 2's current staging memref at point `t`, and its wholeness. -/
abbrev ms0_2 (t : Fin cfg0.N) : Memref sig .tc .vmem S8192x1 .f32 := win0_2.stage (cfg0.slots t 2)
abbrev hs0_2 (t : Fin cfg0.N) : (ms0_2 t).IsWhole := hstage0_2 ((cfg0.slots t 2).cast nbuf0_2)
/-- Window 3's current staging memref at point `t`, and its wholeness. -/
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- Window 4's current staging memref at point `t`, and its wholeness. -/
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- Window 5's current staging memref at point `t`, and its wholeness. -/
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
/-- Window 6's current staging memref at point `t`, and its wholeness. -/
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
/-- Window 7's current staging memref at point `t`, and its wholeness. -/
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)

end Cert.KernelIdeal.Gen

end
-- ==== Proof.BodyRunA.lean ====
import proofs.«149199_j10763188043930_1_alg».proof.Proof.BodyRuns

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT THE FIRST POINT (both conditions hold). On whole staging memrefs — the three inputs' at their contents, the five
    outputs' at anything — the body runs to the continuation holding the inputs' as they were and each output's buffer with the
    pieces its stores wrote (last first): the zero fill, then the first tile's sum added to it. The piece lists are the witness. -/
noncomputable def kernelRunA (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) :
    Σ' (L3 : List (View.Piece (Elt F) S1x1 .f32)), Σ' (L4 : List (View.Piece (Elt F) S1x1 .f32)), Σ' (L5 : List (View.Piece (Elt F) S1x1 .f32)), Σ' (L6 : List (View.Piece (Elt F) S1x1 .f32)), { L7 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__corr_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__corr_kernel_eq_skeleton]; unfold cc0__corr_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    iexists _; iexact H7

end Cert.KernelIdeal.Gen

end
-- ==== Proof.BodyRunB.lean ====
import proofs.«149199_j10763188043930_1_alg».proof.Proof.BodyRunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT A LATER POINT ON OR BELOW THE DIAGONAL (the first condition fails, the second holds). On whole staging memrefs —
    the three inputs' at their contents, the five outputs' at their running sums `xo·` — the body runs to the continuation holding
    the inputs' as they were and each output's buffer with the one piece its store wrote: the tile's sum added to the running sum.
    The piece lists are the witness. -/
noncomputable def kernelRunB (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) :
    Σ' (L3 : List (View.Piece (Elt F) S1x1 .f32)), Σ' (L4 : List (View.Piece (Elt F) S1x1 .f32)), Σ' (L5 : List (View.Piece (Elt F) S1x1 .f32)), Σ' (L6 : List (View.Piece (Elt F) S1x1 .f32)), { L7 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__corr_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__corr_kernel_eq_skeleton]; unfold cc0__corr_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6; obtain rfl := harg9.eq_unread hf7
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    iexists _; iexact H7

end Cert.KernelIdeal.Gen

end
-- ==== Proof.BodyRunC.lean ====
import proofs.«149199_j10763188043930_1_alg».proof.Proof.BodyRunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE BODY ABOVE THE DIAGONAL (neither condition holds): it does nothing. Every staging memref is handed back as it was. -/
theorem kernelRunC (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : ¬k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xo6 ∗ owns (c : Thread nD τ) arg9 fullShare xo7) -∗ K ⟨⟩))
          ⊢ wp frame (wpE (defs₀ (F := F)) Variants.none c none) E (cc0__corr_kernel i arg2 harg2 arg3 harg3 arg4 harg4 arg5 harg5 arg6 harg6 arg7 harg7 arg8 harg8 arg9 harg9) K := by
  simp only [cc0__corr_kernel_eq_skeleton]; unfold cc0__corr_kernel_skel
  iintro ⟨H0, H1, H2, H3, H4, H5, H6, H7, Hk⟩
  sl_exec (disch := first | exact h1 | exact h2)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Gen

end
-- ==== Proof.Body.lean ====
import proofs.«149199_j10763188043930_1_alg».proof.Proof.BodyRunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What each case leaves in the outputs -/

/-- What the five output staging buffers hold, in window order. -/
abbrev Outs (F : FTy → Type) [FloatOps F] : Type := Vec F S1x1 .f32 × Vec F S1x1 .f32 × Vec F S1x1 .f32 × Vec F S1x1 .f32 × Vec F S1x1 .f32

/-- The first point's pieces for output 3 tile its one-element block, so they cover it. -/
theorem coverA_3 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) (y : S1x1.Idx) :
    ∃ pc ∈ (kernelRunA c i arg2 harg2 arg3 harg3 arg4 harg4 arg5 harg5 arg6 harg6 arg7 harg7 arg8 harg8 arg9 harg9 h1 h2 x0 x1 x2).1, y ∈ pc.1.set :=
  View.cover_of_tiledL (kernelRunA c i arg2 harg2 arg3 harg3 arg4 harg4 arg5 harg5 arg6 harg6 arg7 harg7 arg8 harg8 arg9 harg9 h1 h2 x0 x1 x2).1 S1x1.size (by sl_kernel_rfl) y
/-- What the first point leaves in output 3's staging buffer: its pieces read back. -/
def outA_3 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) : Vec F S1x1 .f32 :=
  VO.read (Elt F) (VO.writes (Elt F) VO.junk (kernelRunA c i arg2 harg2 arg3 harg3 arg4 harg4 arg5 harg5 arg6 harg6 arg7 harg7 arg8 harg8 arg9 harg9 h1 h2 x0 x1 x2).1)
/-- A later point on or below the diagonal: its piece for output 3 is the whole one-element block. -/
theorem coverB_3 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) (y : S1x1.Idx) :
    ∃ pc ∈ (kernelRunB c i arg2 harg2 arg3 harg3 arg4 harg4 arg5 harg5 arg6 harg6 arg7 harg7 arg8 harg8 arg9 harg9 h1 h2 x0 x1 x2 xo3 xo4 xo5 xo6 xo7).1, y ∈ pc.1.set :=
  View.cover_of_tiledL (kernelRunB c i arg2 harg2 arg3 harg3 arg4 harg4 arg5 harg5 arg6 harg6 arg7 harg7 arg8 harg8 arg9 harg9 h1 h2 x0 x1 x2 xo3 xo4 xo5 xo6 xo7).1 S1x1.size (by sl_kernel_rfl) y
/-- What such a point leaves in output 3's staging buffer, over the running sums `xo·`: its piece read back. -/
def outB_3 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) : Vec F S1x1 .f32 :=
  VO.read (Elt F) (VO.writes (Elt F) VO.junk (kernelRunB c i arg2 harg2 arg3 harg3 arg4 harg4 arg5 harg5 arg6 harg6 arg7 harg7 arg8 harg8 arg9 harg9 h1 h2 x0 x1 x2 xo3 xo4 xo5 xo6 xo7).1)
/-- The first point's pieces for output 4 tile its one-element block, so they cover it. -/
theorem coverA_4 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) (y : S1x1.Idx) :
    ∃ pc ∈ (kernelRunA c i arg2 harg2 arg3 harg3 arg4 harg4 arg5 harg5 arg6 harg6 arg7 harg7 arg8 harg8 arg9 harg9 h1 h2 x0 x1 x2).2.1, y ∈ pc.1.set :=
  View.cover_of_tiledL (kernelRunA c i arg2 harg2 arg3 harg3 arg4 harg4 arg5 harg5 arg6 harg6 arg7 harg7 arg8 harg8 arg9 harg9 h1 h2 x0 x1 x2).2.1 S1x1.size (by sl_kernel_rfl) y
/-- What the first point leaves in output 4's staging buffer: its pieces read back. -/
def outA_4 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) : Vec F S1x1 .f32 :=
  VO.read (Elt F) (VO.writes (Elt F) VO.junk (kernelRunA c i arg2 harg2 arg3 harg3 arg4 harg4 arg5 harg5 arg6 harg6 arg7 harg7 arg8 harg8 arg9 harg9 h1 h2 x0 x1 x2).2.1)
/-- A later point on or below the diagonal: its piece for output 4 is the whole one-element block. -/
theorem coverB_4 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) (y : S1x1.Idx) :
    ∃ pc ∈ (kernelRunB c i arg2 harg2 arg3 harg3 arg4 harg4 arg5 harg5 arg6 harg6 arg7 harg7 arg8 harg8 arg9 harg9 h1 h2 x0 x1 x2 xo3 xo4 xo5 xo6 xo7).2.1, y ∈ pc.1.set :=
  View.cover_of_tiledL (kernelRunB c i arg2 harg2 arg3 harg3 arg4 harg4 arg5 harg5 arg6 harg6 arg7 harg7 arg8 harg8 arg9 harg9 h1 h2 x0 x1 x2 xo3 xo4 xo5 xo6 xo7).2.1 S1x1.size (by sl_kernel_rfl) y
/-- What such a point leaves in output 4's staging buffer, over the running sums `xo·`: its piece read back. -/
def outB_4 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) : Vec F S1x1 .f32 :=
  VO.read (Elt F) (VO.writes (Elt F) VO.junk (kernelRunB c i arg2 harg2 arg3 harg3 arg4 harg4 arg5 harg5 arg6 harg6 arg7 harg7 arg8 harg8 arg9 harg9 h1 h2 x0 x1 x2 xo3 xo4 xo5 xo6 xo7).2.1)
/-- The first point's pieces for output 5 tile its one-element block, so they cover it. -/
theorem coverA_5 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) (y : S1x1.Idx) :
    ∃ pc ∈ (kernelRunA c i arg2 harg2 arg3 harg3 arg4 harg4 arg5 harg5 arg6 harg6 arg7 harg7 arg8 harg8 arg9 harg9 h1 h2 x0 x1 x2).2.2.1, y ∈ pc.1.set :=
  View.cover_of_tiledL (kernelRunA c i arg2 harg2 arg3 harg3 arg4 harg4 arg5 harg5 arg6 harg6 arg7 harg7 arg8 harg8 arg9 harg9 h1 h2 x0 x1 x2).2.2.1 S1x1.size (by sl_kernel_rfl) y
/-- What the first point leaves in output 5's staging buffer: its pieces read back. -/
def outA_5 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) : Vec F S1x1 .f32 :=
  VO.read (Elt F) (VO.writes (Elt F) VO.junk (kernelRunA c i arg2 harg2 arg3 harg3 arg4 harg4 arg5 harg5 arg6 harg6 arg7 harg7 arg8 harg8 arg9 harg9 h1 h2 x0 x1 x2).2.2.1)
/-- A later point on or below the diagonal: its piece for output 5 is the whole one-element block. -/
theorem coverB_5 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) (y : S1x1.Idx) :
    ∃ pc ∈ (kernelRunB c i arg2 harg2 arg3 harg3 arg4 harg4 arg5 harg5 arg6 harg6 arg7 harg7 arg8 harg8 arg9 harg9 h1 h2 x0 x1 x2 xo3 xo4 xo5 xo6 xo7).2.2.1, y ∈ pc.1.set :=
  View.cover_of_tiledL (kernelRunB c i arg2 harg2 arg3 harg3 arg4 harg4 arg5 harg5 arg6 harg6 arg7 harg7 arg8 harg8 arg9 harg9 h1 h2 x0 x1 x2 xo3 xo4 xo5 xo6 xo7).2.2.1 S1x1.size (by sl_kernel_rfl) y
/-- What such a point leaves in output 5's staging buffer, over the running sums `xo·`: its piece read back. -/
def outB_5 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) : Vec F S1x1 .f32 :=
  VO.read (Elt F) (VO.writes (Elt F) VO.junk (kernelRunB c i arg2 harg2 arg3 harg3 arg4 harg4 arg5 harg5 arg6 harg6 arg7 harg7 arg8 harg8 arg9 harg9 h1 h2 x0 x1 x2 xo3 xo4 xo5 xo6 xo7).2.2.1)
/-- The first point's pieces for output 6 tile its one-element block, so they cover it. -/
theorem coverA_6 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) (y : S1x1.Idx) :
    ∃ pc ∈ (kernelRunA c i arg2 harg2 arg3 harg3 arg4 harg4 arg5 harg5 arg6 harg6 arg7 harg7 arg8 harg8 arg9 harg9 h1 h2 x0 x1 x2).2.2.2.1, y ∈ pc.1.set :=
  View.cover_of_tiledL (kernelRunA c i arg2 harg2 arg3 harg3 arg4 harg4 arg5 harg5 arg6 harg6 arg7 harg7 arg8 harg8 arg9 harg9 h1 h2 x0 x1 x2).2.2.2.1 S1x1.size (by sl_kernel_rfl) y
/-- What the first point leaves in output 6's staging buffer: its pieces read back. -/
def outA_6 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) : Vec F S1x1 .f32 :=
  VO.read (Elt F) (VO.writes (Elt F) VO.junk (kernelRunA c i arg2 harg2 arg3 harg3 arg4 harg4 arg5 harg5 arg6 harg6 arg7 harg7 arg8 harg8 arg9 harg9 h1 h2 x0 x1 x2).2.2.2.1)
/-- A later point on or below the diagonal: its piece for output 6 is the whole one-element block. -/
theorem coverB_6 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) (y : S1x1.Idx) :
    ∃ pc ∈ (kernelRunB c i arg2 harg2 arg3 harg3 arg4 harg4 arg5 harg5 arg6 harg6 arg7 harg7 arg8 harg8 arg9 harg9 h1 h2 x0 x1 x2 xo3 xo4 xo5 xo6 xo7).2.2.2.1, y ∈ pc.1.set :=
  View.cover_of_tiledL (kernelRunB c i arg2 harg2 arg3 harg3 arg4 harg4 arg5 harg5 arg6 harg6 arg7 harg7 arg8 harg8 arg9 harg9 h1 h2 x0 x1 x2 xo3 xo4 xo5 xo6 xo7).2.2.2.1 S1x1.size (by sl_kernel_rfl) y
/-- What such a point leaves in output 6's staging buffer, over the running sums `xo·`: its piece read back. -/
def outB_6 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) : Vec F S1x1 .f32 :=
  VO.read (Elt F) (VO.writes (Elt F) VO.junk (kernelRunB c i arg2 harg2 arg3 harg3 arg4 harg4 arg5 harg5 arg6 harg6 arg7 harg7 arg8 harg8 arg9 harg9 h1 h2 x0 x1 x2 xo3 xo4 xo5 xo6 xo7).2.2.2.1)
/-- The first point's pieces for output 7 tile its one-element block, so they cover it. -/
theorem coverA_7 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) (y : S1x1.Idx) :
    ∃ pc ∈ (kernelRunA c i arg2 harg2 arg3 harg3 arg4 harg4 arg5 harg5 arg6 harg6 arg7 harg7 arg8 harg8 arg9 harg9 h1 h2 x0 x1 x2).2.2.2.2.1, y ∈ pc.1.set :=
  View.cover_of_tiledL (kernelRunA c i arg2 harg2 arg3 harg3 arg4 harg4 arg5 harg5 arg6 harg6 arg7 harg7 arg8 harg8 arg9 harg9 h1 h2 x0 x1 x2).2.2.2.2.1 S1x1.size (by sl_kernel_rfl) y
/-- What the first point leaves in output 7's staging buffer: its pieces read back. -/
def outA_7 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) : Vec F S1x1 .f32 :=
  VO.read (Elt F) (VO.writes (Elt F) VO.junk (kernelRunA c i arg2 harg2 arg3 harg3 arg4 harg4 arg5 harg5 arg6 harg6 arg7 harg7 arg8 harg8 arg9 harg9 h1 h2 x0 x1 x2).2.2.2.2.1)
/-- A later point on or below the diagonal: its piece for output 7 is the whole one-element block. -/
theorem coverB_7 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) (y : S1x1.Idx) :
    ∃ pc ∈ (kernelRunB c i arg2 harg2 arg3 harg3 arg4 harg4 arg5 harg5 arg6 harg6 arg7 harg7 arg8 harg8 arg9 harg9 h1 h2 x0 x1 x2 xo3 xo4 xo5 xo6 xo7).2.2.2.2.1, y ∈ pc.1.set :=
  View.cover_of_tiledL (kernelRunB c i arg2 harg2 arg3 harg3 arg4 harg4 arg5 harg5 arg6 harg6 arg7 harg7 arg8 harg8 arg9 harg9 h1 h2 x0 x1 x2 xo3 xo4 xo5 xo6 xo7).2.2.2.2.1 S1x1.size (by sl_kernel_rfl) y
/-- What such a point leaves in output 7's staging buffer, over the running sums `xo·`: its piece read back. -/
def outB_7 (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) : Vec F S1x1 .f32 :=
  VO.read (Elt F) (VO.writes (Elt F) VO.junk (kernelRunB c i arg2 harg2 arg3 harg3 arg4 harg4 arg5 harg5 arg6 harg6 arg7 harg7 arg8 harg8 arg9 harg9 h1 h2 x0 x1 x2 xo3 xo4 xo5 xo6 xo7).2.2.2.2.1)

/-! ## What the outputs hold after each point -/

/-- THE ACCUMULATION. What the five outputs' staging buffers hold after the body at position `n`: at the first point the zero
    fill plus the first tile's sums; at a later point on or below the diagonal the tile's sums added to what the point before
    left; at a point above the diagonal what the point before left, unchanged. -/
def outsAt (c : Dev nD) : (n : ℕ) → n < cfg0.N → Outs F
  | 0, hn =>
    (outA_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((cond1_iff ⟨0, hn⟩).mpr rfl) (cond2_first ⟨0, hn⟩ rfl) (iblk m c 0 ⟨0, hn⟩) (iblk m c 1 ⟨0, hn⟩) (iblk m c 2 ⟨0, hn⟩),
     outA_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((cond1_iff ⟨0, hn⟩).mpr rfl) (cond2_first ⟨0, hn⟩ rfl) (iblk m c 0 ⟨0, hn⟩) (iblk m c 1 ⟨0, hn⟩) (iblk m c 2 ⟨0, hn⟩),
     outA_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((cond1_iff ⟨0, hn⟩).mpr rfl) (cond2_first ⟨0, hn⟩ rfl) (iblk m c 0 ⟨0, hn⟩) (iblk m c 1 ⟨0, hn⟩) (iblk m c 2 ⟨0, hn⟩),
     outA_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((cond1_iff ⟨0, hn⟩).mpr rfl) (cond2_first ⟨0, hn⟩ rfl) (iblk m c 0 ⟨0, hn⟩) (iblk m c 1 ⟨0, hn⟩) (iblk m c 2 ⟨0, hn⟩),
     outA_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((cond1_iff ⟨0, hn⟩).mpr rfl) (cond2_first ⟨0, hn⟩ rfl) (iblk m c 0 ⟨0, hn⟩) (iblk m c 1 ⟨0, hn⟩) (iblk m c 2 ⟨0, hn⟩))
  | n + 1, hn =>
    if h2 : k0_cond2 (grid0.coords ⟨n + 1, hn⟩) = 1#1 then
      (outB_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => Nat.succ_ne_zero n ((cond1_iff ⟨n + 1, hn⟩).mp h)) h2 (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
       outB_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => Nat.succ_ne_zero n ((cond1_iff ⟨n + 1, hn⟩).mp h)) h2 (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
       outB_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => Nat.succ_ne_zero n ((cond1_iff ⟨n + 1, hn⟩).mp h)) h2 (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
       outB_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => Nat.succ_ne_zero n ((cond1_iff ⟨n + 1, hn⟩).mp h)) h2 (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2,
       outB_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => Nat.succ_ne_zero n ((cond1_iff ⟨n + 1, hn⟩).mp h)) h2 (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2)
    else outsAt c n (Nat.lt_of_succ_lt hn)

/-- `outsAt` at the first point. -/
theorem outsAt_A (c : Dev nD) (t : Fin cfg0.N) (h1 : k0_cond1 (grid0.coords t) = 1#1) (h2 : k0_cond2 (grid0.coords t) = 1#1) :
    outsAt m c t.val t.isLt =
      (outA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t),
       outA_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t),
       outA_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t),
       outA_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t),
       outA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t)) := by
  have h0 : t.val = 0 := (cond1_iff t).mp h1
  obtain ⟨n, hn⟩ := t
  cases n with
  | zero => exact rfl
  | succ n => exact absurd h0 (Nat.succ_ne_zero n)

/-- `outsAt` at a later point on or below the diagonal: the tile's sums over what the point before left. -/
theorem outsAt_B (c : Dev nD) (t : Fin cfg0.N) (h1 : ¬k0_cond1 (grid0.coords t) = 1#1) (h2 : k0_cond2 (grid0.coords t) = 1#1) :
    outsAt m c t.val t.isLt =
      (outB_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
       outB_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
       outB_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
       outB_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2,
       outB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h1 h2 (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2) := by
  obtain ⟨n, hn⟩ := t
  cases n with
  | zero => exact absurd ((cond1_iff ⟨0, hn⟩).mpr rfl) h1
  | succ n => exact (dif_pos h2).trans rfl

/-- `outsAt` at a point above the diagonal: what the point before left. -/
theorem outsAt_C (c : Dev nD) (t : Fin cfg0.N) (h1 : ¬k0_cond1 (grid0.coords t) = 1#1) (h2 : ¬k0_cond2 (grid0.coords t) = 1#1) :
    outsAt m c t.val t.isLt = outsAt m c (t.val - 1) (Nat.lt_of_le_of_lt (Nat.sub_le _ _) t.isLt) := by
  obtain ⟨n, hn⟩ := t
  cases n with
  | zero => exact absurd ((cond1_iff ⟨0, hn⟩).mpr rfl) h1
  | succ n => exact (dif_neg h2).trans rfl

/-! ## The pipeline's proof data -/

/-- The proof data of the one pipeline on core `c`: the arrays as the region finds them; after the body at point `t` each
    input's buffer at its block and the outputs' at `outsAt`; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
    | ⟨4, _⟩ => (outsAt m c t.val t.isLt).2.1
    | ⟨5, _⟩ => (outsAt m c t.val t.isLt).2.2.1
    | ⟨6, _⟩ => (outsAt m c t.val t.isLt).2.2.2.1
    | ⟨7, _⟩ => (outsAt m c t.val t.isLt).2.2.2.2
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt m c t.val t.isLt).1 := by dsimp only [dats]
theorem after0_4 (c : Dev nD) (t : Fin cfg0.N) : (dats m 0 c).after 4 t = (outsAt m c t.val t.isLt).2.1 := by dsimp only [dats]
theorem after0_5 (c : Dev nD) (t : Fin cfg0.N) : (dats m 0 c).after 5 t = (outsAt m c t.val t.isLt).2.2.1 := by dsimp only [dats]
theorem after0_6 (c : Dev nD) (t : Fin cfg0.N) : (dats m 0 c).after 6 t = (outsAt m c t.val t.isLt).2.2.2.1 := by dsimp only [dats]
theorem after0_7 (c : Dev nD) (t : Fin cfg0.N) : (dats m 0 c).after 7 t = (outsAt m c t.val t.isLt).2.2.2.2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- AN ACCUMULATOR THROUGH IDLE POINTS. For proof data over this grid and an output window `w` written back at the last point
    only, uncut, idle exactly where neither condition holds, whose `after` at an idle point repeats the point before: at every
    point but the first the window's current staging buffer holds `after` of the point before — through a run of idle points
    the buffer is untouched, and `after` was defined to carry the value along. By induction on the point. -/
theorem before_through_idle {c : Dev nD} (dat : Dat τ (Elt F) Unit ℕ (UR sig nD τ) ℕ cfg0 c) (w : Fin cfg0.W)
    (hw : (cfg0.win w).isOut = true) (hfl : ∀ t : Fin cfg0.N, (cfg0.win w).flush t = true ↔ t.val % 256 = 255)
    (hclip : ∀ (i : cfg0.grid.Coords) a, (cfg0.win w).clip i a = none)
    (hlive : ∀ i, k0_cond2 i = 1#1 → cfg0.idle w i = false)
    (hrep : ∀ t : Fin cfg0.N, cfg0.idle w (grid0.coords t) = true → t.val ≠ 0 ∧ dat.after w t = dat.after w ⟨t.val - 1, (Nat.lt_of_le_of_lt (Nat.sub_le _ _) t.isLt)⟩) :
    ∀ (n : ℕ) (hn : n < cfg0.N) (hpos : n ≠ 0) (d), dat.before w ⟨n, hn⟩ d = dat.after w ⟨n - 1, Nat.lt_of_le_of_lt (Nat.sub_le _ _) hn⟩ := by
  intro n
  induction n with
  | zero => intro _ h; exact absurd rfl h
  | succ k ih =>
    intro hn _ d
    have hN : k + 1 < 256 := lt_of_lt_of_eq hn (show cfg0.N = 256 from N_0)
    have hk : k < cfg0.N := Nat.lt_of_succ_lt hn
    rw [dat.before_of_pos w ⟨k + 1, hn⟩ (Nat.succ_ne_zero k) ((cfg0.win w).fetch_out hw _)]
    have hnf : (cfg0.win w).flush ⟨k + 1 - 1, Nat.lt_of_le_of_lt (Nat.sub_le _ _) hn⟩ = false :=
      Bool.eq_false_iff.mpr fun h => by have := (hfl _).mp h; dsimp only at this; omega
    rw [hnf, if_neg Bool.false_ne_true]
    unfold Dat.left
    cases hi : cfg0.idle w (cfg0.grid.coords ⟨k + 1 - 1, Nat.lt_of_le_of_lt (Nat.sub_le _ _) hn⟩) with
    | false =>
      dsimp only
      unfold Dat.kept
      rw [Pipeline.fill_of_clip_none w _ (hclip _) d (dat.after w _), Window.fill_cut]
    | true =>
      dsimp only
      obtain ⟨hk0, hr⟩ := hrep ⟨k + 1 - 1, Nat.lt_of_le_of_lt (Nat.sub_le _ _) hn⟩ hi
      have hk0' : k ≠ 0 := by simpa using hk0
      have := ih hk hk0' d
      rw [hr]
      exact this

/-- At every point but the first, output 3's current staging buffer holds what `outsAt` says the point before left. -/
theorem before0_3 (c : Dev nD) (t : Fin cfg0.N) (ht : t.val ≠ 0) (d) :
    (dats m 0 c).before 3 t d = (outsAt m c (t.val - 1) (Nat.lt_of_le_of_lt (Nat.sub_le _ _) t.isLt)).1 := by
  have h := before_through_idle (dats m 0 c) 3 rfl flush0_3 (fun _ _ => rfl) live0_3
    (fun s hi => by
      have h2 : ¬k0_cond2 (grid0.coords s) = 1#1 := fun h2 => by rw [live0_3 _ h2] at hi; exact Bool.false_ne_true hi
      have h1 : ¬k0_cond1 (grid0.coords s) = 1#1 := fun h1 => h2 (cond2_of_cond1 s h1)
      refine ⟨fun h0 => h1 ((cond1_iff s).mpr h0), ?_⟩
      rw [after0_3, after0_3, outsAt_C m c s h1 h2])
    t.val t.isLt ht d
  rw [show t = ⟨t.val, t.isLt⟩ from rfl, h, after0_3]
/-- At every point but the first, output 4's current staging buffer holds what `outsAt` says the point before left. -/
theorem before0_4 (c : Dev nD) (t : Fin cfg0.N) (ht : t.val ≠ 0) (d) :
    (dats m 0 c).before 4 t d = (outsAt m c (t.val - 1) (Nat.lt_of_le_of_lt (Nat.sub_le _ _) t.isLt)).2.1 := by
  have h := before_through_idle (dats m 0 c) 4 rfl flush0_4 (fun _ _ => rfl) live0_4
    (fun s hi => by
      have h2 : ¬k0_cond2 (grid0.coords s) = 1#1 := fun h2 => by rw [live0_4 _ h2] at hi; exact Bool.false_ne_true hi
      have h1 : ¬k0_cond1 (grid0.coords s) = 1#1 := fun h1 => h2 (cond2_of_cond1 s h1)
      refine ⟨fun h0 => h1 ((cond1_iff s).mpr h0), ?_⟩
      rw [after0_4, after0_4, outsAt_C m c s h1 h2])
    t.val t.isLt ht d
  rw [show t = ⟨t.val, t.isLt⟩ from rfl, h, after0_4]
/-- At every point but the first, output 5's current staging buffer holds what `outsAt` says the point before left. -/
theorem before0_5 (c : Dev nD) (t : Fin cfg0.N) (ht : t.val ≠ 0) (d) :
    (dats m 0 c).before 5 t d = (outsAt m c (t.val - 1) (Nat.lt_of_le_of_lt (Nat.sub_le _ _) t.isLt)).2.2.1 := by
  have h := before_through_idle (dats m 0 c) 5 rfl flush0_5 (fun _ _ => rfl) live0_5
    (fun s hi => by
      have h2 : ¬k0_cond2 (grid0.coords s) = 1#1 := fun h2 => by rw [live0_5 _ h2] at hi; exact Bool.false_ne_true hi
      have h1 : ¬k0_cond1 (grid0.coords s) = 1#1 := fun h1 => h2 (cond2_of_cond1 s h1)
      refine ⟨fun h0 => h1 ((cond1_iff s).mpr h0), ?_⟩
      rw [after0_5, after0_5, outsAt_C m c s h1 h2])
    t.val t.isLt ht d
  rw [show t = ⟨t.val, t.isLt⟩ from rfl, h, after0_5]
/-- At every point but the first, output 6's current staging buffer holds what `outsAt` says the point before left. -/
theorem before0_6 (c : Dev nD) (t : Fin cfg0.N) (ht : t.val ≠ 0) (d) :
    (dats m 0 c).before 6 t d = (outsAt m c (t.val - 1) (Nat.lt_of_le_of_lt (Nat.sub_le _ _) t.isLt)).2.2.2.1 := by
  have h := before_through_idle (dats m 0 c) 6 rfl flush0_6 (fun _ _ => rfl) live0_6
    (fun s hi => by
      have h2 : ¬k0_cond2 (grid0.coords s) = 1#1 := fun h2 => by rw [live0_6 _ h2] at hi; exact Bool.false_ne_true hi
      have h1 : ¬k0_cond1 (grid0.coords s) = 1#1 := fun h1 => h2 (cond2_of_cond1 s h1)
      refine ⟨fun h0 => h1 ((cond1_iff s).mpr h0), ?_⟩
      rw [after0_6, after0_6, outsAt_C m c s h1 h2])
    t.val t.isLt ht d
  rw [show t = ⟨t.val, t.isLt⟩ from rfl, h, after0_6]
/-- At every point but the first, output 7's current staging buffer holds what `outsAt` says the point before left. -/
theorem before0_7 (c : Dev nD) (t : Fin cfg0.N) (ht : t.val ≠ 0) (d) :
    (dats m 0 c).before 7 t d = (outsAt m c (t.val - 1) (Nat.lt_of_le_of_lt (Nat.sub_le _ _) t.isLt)).2.2.2.2 := by
  have h := before_through_idle (dats m 0 c) 7 rfl flush0_7 (fun _ _ => rfl) live0_7
    (fun s hi => by
      have h2 : ¬k0_cond2 (grid0.coords s) = 1#1 := fun h2 => by rw [live0_7 _ h2] at hi; exact Bool.false_ne_true hi
      have h1 : ¬k0_cond1 (grid0.coords s) = 1#1 := fun h1 => h2 (cond2_of_cond1 s h1)
      refine ⟨fun h0 => h1 ((cond1_iff s).mpr h0), ?_⟩
      rw [after0_7, after0_7, outsAt_C m c s h1 h2])
    t.val t.isLt ht d
  rw [show t = ⟨t.val, t.isLt⟩ from rfl, h, after0_7]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns: each window's buffer at what the body leaves (at an idle point, what it found). -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point: the inputs' memrefs hold their blocks; the two conditions say which case the point is in; at a later
    point on or below the diagonal each output holds what the point before left; above the diagonal the outputs are idle and
    handed back as found; so the case's run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from rfl,
    show (dats m 0 c).leavesExact 1 t = owns (c : Thread nD τ) (ms0_1 t) fullShare ((dats m 0 c).after 1 t) from rfl,
    show (dats m 0 c).leavesExact 2 t = owns (c : Thread nD τ) (ms0_2 t) fullShare ((dats m 0 c).after 2 t) from rfl,
    after0_0, after0_1, after0_2]
  by_cases h2 : k0_cond2 (grid0.coords t) = 1#1
  · rw [show (dats m 0 c).leavesExact 3 t = owns (c : Thread nD τ) (ms0_3 t) fullShare ((dats m 0 c).after 3 t) from by
        unfold Dat.leavesExact; rw [live0_3 _ h2],
      show (dats m 0 c).leavesExact 4 t = owns (c : Thread nD τ) (ms0_4 t) fullShare ((dats m 0 c).after 4 t) from by
        unfold Dat.leavesExact; rw [live0_4 _ h2],
      show (dats m 0 c).leavesExact 5 t = owns (c : Thread nD τ) (ms0_5 t) fullShare ((dats m 0 c).after 5 t) from by
        unfold Dat.leavesExact; rw [live0_5 _ h2],
      show (dats m 0 c).leavesExact 6 t = owns (c : Thread nD τ) (ms0_6 t) fullShare ((dats m 0 c).after 6 t) from by
        unfold Dat.leavesExact; rw [live0_6 _ h2],
      show (dats m 0 c).leavesExact 7 t = owns (c : Thread nD τ) (ms0_7 t) fullShare ((dats m 0 c).after 7 t) from by
        unfold Dat.leavesExact; rw [live0_7 _ h2],
      after0_3, after0_4, after0_5, after0_6, after0_7]
    by_cases h1 : k0_cond1 (grid0.coords t) = 1#1
    · rw [outsAt_A m c t h1 h2]
      unfold outA_3 outA_4 outA_5 outA_6 outA_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunA c (grid0.coords t) _ _ _ _ _ _ _ _ _ _ _ _ _ _ _ _ h1 h2 (iblk m c 0 t) (iblk m c 1 t) (iblk m c 2 t)).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      iintro ⟨H0, H1, H2, ⟨%e3, H3⟩, ⟨%e4, H4⟩, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverA_3 c _ _ _ _ _ _ _ _ _ _ _ _ _ _ _ _ _ _ _ _ _ _)
      isplitl [H4]
      · unfold owns; iexists _; isplitr
        swap; · iexact H4
        ipureintro; exact View.read_writes_of_cover _ _ _ _ _ (coverA_4 c _ _ _ _ _ _ _ _ _ _ _ _ _ _ _ _ _ _ _ _ _ _)
      isplitl [H5]
      · unfold owns; iexists _; isplitr
        swap; · iexact H5
        ipureintro; exact View.read_writes_of_cover _ _ _ _ _ (coverA_5 c _ _ _ _ _ _ _ _ _ _ _ _ _ _ _ _ _ _ _ _ _ _)
      isplitl [H6]
      · unfold owns; iexists _; isplitr
        swap; · iexact H6
        ipureintro; exact View.read_writes_of_cover _ _ _ _ _ (coverA_6 c _ _ _ _ _ _ _ _ _ _ _ _ _ _ _ _ _ _ _ _ _ _)
      unfold owns; iexists _; isplitr
      swap; · iexact H7
      ipureintro; exact View.read_writes_of_cover _ _ _ _ _ (coverA_7 c _ _ _ _ _ _ _ _ _ _ _ _ _ _ _ _ _ _ _ _ _ _)
    · have ht : t.val ≠ 0 := fun h0 => h1 ((cond1_iff t).mpr h0)
      simp only [before0_3 m c t ht, before0_4 m c t ht, before0_5 m c t ht, before0_6 m c t ht, before0_7 m c t ht]
      rw [outsAt_B m c t h1 h2]
      unfold outB_3 outB_4 outB_5 outB_6 outB_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunB c (grid0.coords t) _ _ _ _ _ _ _ _ _ _ _ _ _ _ _ _ h1 h2 (iblk m c 0 t) (iblk m c 1 t) (iblk m c 2 t) _ _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, ⟨%e3, H3⟩, ⟨%e4, H4⟩, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverB_3 c _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (coverB_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (coverB_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (coverB_6 c _ _ _ _ _ _ _ _ _ _ _ _ _ _ _ _ _ _ _ _ _ _ _ _ _ _ _)
      unfold owns; iexists _; isplitr
      swap; · iexact H7
      ipureintro; exact View.read_writes_of_cover _ _ _ _ _ (coverB_7 c _ _ _ _ _ _ _ _ _ _ _ _ _ _ _ _ _ _ _ _ _ _ _ _ _ _ _)
  · have h1 : ¬k0_cond1 (grid0.coords t) = 1#1 := fun h1 => h2 (cond2_of_cond1 t h1)
    rw [Dat.leavesExact_idle (dats m 0 c) 3 t (idle0_3 _ h1 h2) (noFlush0_3 t h2),
      Dat.leavesExact_idle (dats m 0 c) 4 t (idle0_4 _ h1 h2) (noFlush0_4 t h2),
      Dat.leavesExact_idle (dats m 0 c) 5 t (idle0_5 _ h1 h2) (noFlush0_5 t h2),
      Dat.leavesExact_idle (dats m 0 c) 6 t (idle0_6 _ h1 h2) (noFlush0_6 t h2),
      Dat.leavesExact_idle (dats m 0 c) 7 t (idle0_7 _ h1 h2) (noFlush0_7 t h2)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRunC c (grid0.coords t) _ _ _ _ _ _ _ _ _ _ _ _ _ _ _ _ h1 h2 (iblk m c 0 t) (iblk m c 1 t) (iblk m c 2 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: every weakly fair execution of @main terminates with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Gen

end
-- ==== Proof.Final.lean ====
import proofs.«149199_j10763188043930_1_alg».proof.Proof.Body
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The result arrays after the region -/

/-- The grid has 256 points; 255 is the last. -/
theorem lastLt : 255 < cfg0.N := by rw [show cfg0.N = 256 from N_0]; decide
/-- The last point of the grid, the only one after which the outputs are written back. -/
abbrev tLast : Fin cfg0.N := ⟨255, lastLt⟩

/-- `outsAt` at a point whose position is 255, spelt at the numeral. -/
theorem outsAt_last (c : Dev nD) (t : Fin cfg0.N) (h : t.val = 255) : outsAt m c t.val t.isLt = outsAt m c 255 lastLt := by
  obtain ⟨n, hn⟩ := t
  dsimp only at h
  subst h
  rfl

/-- Window 3's index map is constantly (0, 0). -/
theorem index0_3 (t : Fin cfg0.N) : win0_3.index t = ![0, 0] := rfl
/-- so its block's offsets in the [1,1] result array are zero at every point. -/
theorem hz0_3 (t : Fin cfg0.N) : (fun a => win0_3.index t a * main_v31_0.ty.shape.size a) = fun _ => 0 :=
  funext fun a => by rw [index0_3 t]; fin_cases a <;> exact Nat.zero_mul _

/-- What output 3's staging buffer holds after the last point, as contents of the [1,1] result array `main_v31_0` (its one block is the array). -/
abbrev result3 (c : Dev nD) : Buf (Elt F) ((c : Thread nD τ).loc main_v31_0) := (outsAt m c 255 lastLt).1

set_option maxHeartbeats 400000 in
/-- The one write-back of window 3, after the last point, writes it: block (0, 0) of the [1,1] array read through zero offsets is the array. -/
theorem flushed_eq3 (c : Dev nD) (t : Fin cfg0.N) (hf : (cfg0.win 3).flush t = true) :
    (dats m 0 c).flushed 3 t = ((cfg0.win 3).blk t).view.read (Elt F) (result3 m c) := by
  have hN : cfg0.N = 256 := N_0
  have h255 : t.val = 255 := by have := (flush0_3 t).mp hf; have := t.isLt; omega
  show (cfg0.win 3).cut (grid0.coords t) ((dats m 0 c).after 3 t) = _
  rw [after0_3, outsAt_last m c t h255]
  exact (Memref.read_access_unit_zero (Elt F) main_v31_0 (hz0_3 t) (fun a => by rw [congrFun (hz0_3 t) a]; simp) (result3 m c)).symm

set_option maxHeartbeats 400000 in
/-- Every index of the [1,1] result array lies in window 3's block, at any point. -/
theorem mem_blk0_3 (c : Dev nD) (t : Fin cfg0.N) (i : ((cfg0.win 3).arr.view.loc (c.tc : Thread nD τ)).2.ty.Idx) :
    i ∈ ((cfg0.win 3).blk t).view.set := by
  show i ∈ ((View.whole main_v31_0).slice (win0_3.rect t)).set
  rw [View.set_slice_whole, Rect.mem_set_unit]
  intro a
  have h0 : (i 0 : Nat) < 1 := (i 0).isLt
  have h1 : (i 1 : Nat) < 1 := (i 1).isLt
  match a with
  | ⟨0, _⟩ => show win0_3.index t 0 * win0_3.size 0 ≤ (i 0 : Nat) ∧ (i 0 : Nat) < win0_3.index t 0 * win0_3.size 0 + win0_3.xsize (grid0.coords t) 0
              rw [index0_3 t, show win0_3.xsize (grid0.coords t) 0 = 1 from rfl]
              show 0 * win0_3.size 0 ≤ (i 0 : Nat) ∧ (i 0 : Nat) < 0 * win0_3.size 0 + 1
              rw [Nat.zero_mul]; omega
  | ⟨1, _⟩ => show win0_3.index t 1 * win0_3.size 1 ≤ (i 1 : Nat) ∧ (i 1 : Nat) < win0_3.index t 1 * win0_3.size 1 + win0_3.xsize (grid0.coords t) 1
              rw [index0_3 t, show win0_3.xsize (grid0.coords t) 1 = 1 from rfl]
              show 0 * win0_3.size 1 ≤ (i 1 : Nat) ∧ (i 1 : Nat) < 0 * win0_3.size 1 + 1
              rw [Nat.zero_mul]; omega

/-- So result array `main_v31_0` ends holding what output 3's buffer held after the last point. -/
theorem final0_3 (c : Dev nD) : (dats m 0 c).arrAt 3 cfg0.N = result3 m c :=
  (dats m 0 c).arrAt_eq_of_cover 3 (result3 m c) (flushed_eq3 m c) fun i =>
    ⟨tLast, (flush0_3 tLast).mpr rfl, mem_blk0_3 c tLast i⟩

/-- Window 4's index map is constantly (0, 0). -/
theorem index0_4 (t : Fin cfg0.N) : win0_4.index t = ![0, 0] := rfl
/-- so its block's offsets in the [1,1] result array are zero at every point. -/
theorem hz0_4 (t : Fin cfg0.N) : (fun a => win0_4.index t a * main_v31_1.ty.shape.size a) = fun _ => 0 :=
  funext fun a => by rw [index0_4 t]; fin_cases a <;> exact Nat.zero_mul _

/-- What output 4's staging buffer holds after the last point, as contents of the [1,1] result array `main_v31_1` (its one block is the array). -/
abbrev result4 (c : Dev nD) : Buf (Elt F) ((c : Thread nD τ).loc main_v31_1) := (outsAt m c 255 lastLt).2.1

set_option maxHeartbeats 400000 in
/-- The one write-back of window 4, after the last point, writes it: block (0, 0) of the [1,1] array read through zero offsets is the array. -/
theorem flushed_eq4 (c : Dev nD) (t : Fin cfg0.N) (hf : (cfg0.win 4).flush t = true) :
    (dats m 0 c).flushed 4 t = ((cfg0.win 4).blk t).view.read (Elt F) (result4 m c) := by
  have hN : cfg0.N = 256 := N_0
  have h255 : t.val = 255 := by have := (flush0_4 t).mp hf; have := t.isLt; omega
  show (cfg0.win 4).cut (grid0.coords t) ((dats m 0 c).after 4 t) = _
  rw [after0_4, outsAt_last m c t h255]
  exact (Memref.read_access_unit_zero (Elt F) main_v31_1 (hz0_4 t) (fun a => by rw [congrFun (hz0_4 t) a]; simp) (result4 m c)).symm

set_option maxHeartbeats 400000 in
/-- Every index of the [1,1] result array lies in window 4's block, at any point. -/
theorem mem_blk0_4 (c : Dev nD) (t : Fin cfg0.N) (i : ((cfg0.win 4).arr.view.loc (c.tc : Thread nD τ)).2.ty.Idx) :
    i ∈ ((cfg0.win 4).blk t).view.set := by
  show i ∈ ((View.whole main_v31_1).slice (win0_4.rect t)).set
  rw [View.set_slice_whole, Rect.mem_set_unit]
  intro a
  have h0 : (i 0 : Nat) < 1 := (i 0).isLt
  have h1 : (i 1 : Nat) < 1 := (i 1).isLt
  match a with
  | ⟨0, _⟩ => show win0_4.index t 0 * win0_4.size 0 ≤ (i 0 : Nat) ∧ (i 0 : Nat) < win0_4.index t 0 * win0_4.size 0 + win0_4.xsize (grid0.coords t) 0
              rw [index0_4 t, show win0_4.xsize (grid0.coords t) 0 = 1 from rfl]
              show 0 * win0_4.size 0 ≤ (i 0 : Nat) ∧ (i 0 : Nat) < 0 * win0_4.size 0 + 1
              rw [Nat.zero_mul]; omega
  | ⟨1, _⟩ => show win0_4.index t 1 * win0_4.size 1 ≤ (i 1 : Nat) ∧ (i 1 : Nat) < win0_4.index t 1 * win0_4.size 1 + win0_4.xsize (grid0.coords t) 1
              rw [index0_4 t, show win0_4.xsize (grid0.coords t) 1 = 1 from rfl]
              show 0 * win0_4.size 1 ≤ (i 1 : Nat) ∧ (i 1 : Nat) < 0 * win0_4.size 1 + 1
              rw [Nat.zero_mul]; omega

/-- So result array `main_v31_1` ends holding what output 4's buffer held after the last point. -/
theorem final0_4 (c : Dev nD) : (dats m 0 c).arrAt 4 cfg0.N = result4 m c :=
  (dats m 0 c).arrAt_eq_of_cover 4 (result4 m c) (flushed_eq4 m c) fun i =>
    ⟨tLast, (flush0_4 tLast).mpr rfl, mem_blk0_4 c tLast i⟩

/-- Window 5's index map is constantly (0, 0). -/
theorem index0_5 (t : Fin cfg0.N) : win0_5.index t = ![0, 0] := rfl
/-- so its block's offsets in the [1,1] result array are zero at every point. -/
theorem hz0_5 (t : Fin cfg0.N) : (fun a => win0_5.index t a * main_v31_2.ty.shape.size a) = fun _ => 0 :=
  funext fun a => by rw [index0_5 t]; fin_cases a <;> exact Nat.zero_mul _

/-- What output 5's staging buffer holds after the last point, as contents of the [1,1] result array `main_v31_2` (its one block is the array). -/
abbrev result5 (c : Dev nD) : Buf (Elt F) ((c : Thread nD τ).loc main_v31_2) := (outsAt m c 255 lastLt).2.2.1

set_option maxHeartbeats 400000 in
/-- The one write-back of window 5, after the last point, writes it: block (0, 0) of the [1,1] array read through zero offsets is the array. -/
theorem flushed_eq5 (c : Dev nD) (t : Fin cfg0.N) (hf : (cfg0.win 5).flush t = true) :
    (dats m 0 c).flushed 5 t = ((cfg0.win 5).blk t).view.read (Elt F) (result5 m c) := by
  have hN : cfg0.N = 256 := N_0
  have h255 : t.val = 255 := by have := (flush0_5 t).mp hf; have := t.isLt; omega
  show (cfg0.win 5).cut (grid0.coords t) ((dats m 0 c).after 5 t) = _
  rw [after0_5, outsAt_last m c t h255]
  exact (Memref.read_access_unit_zero (Elt F) main_v31_2 (hz0_5 t) (fun a => by rw [congrFun (hz0_5 t) a]; simp) (result5 m c)).symm

set_option maxHeartbeats 400000 in
/-- Every index of the [1,1] result array lies in window 5's block, at any point. -/
theorem mem_blk0_5 (c : Dev nD) (t : Fin cfg0.N) (i : ((cfg0.win 5).arr.view.loc (c.tc : Thread nD τ)).2.ty.Idx) :
    i ∈ ((cfg0.win 5).blk t).view.set := by
  show i ∈ ((View.whole main_v31_2).slice (win0_5.rect t)).set
  rw [View.set_slice_whole, Rect.mem_set_unit]
  intro a
  have h0 : (i 0 : Nat) < 1 := (i 0).isLt
  have h1 : (i 1 : Nat) < 1 := (i 1).isLt
  match a with
  | ⟨0, _⟩ => show win0_5.index t 0 * win0_5.size 0 ≤ (i 0 : Nat) ∧ (i 0 : Nat) < win0_5.index t 0 * win0_5.size 0 + win0_5.xsize (grid0.coords t) 0
              rw [index0_5 t, show win0_5.xsize (grid0.coords t) 0 = 1 from rfl]
              show 0 * win0_5.size 0 ≤ (i 0 : Nat) ∧ (i 0 : Nat) < 0 * win0_5.size 0 + 1
              rw [Nat.zero_mul]; omega
  | ⟨1, _⟩ => show win0_5.index t 1 * win0_5.size 1 ≤ (i 1 : Nat) ∧ (i 1 : Nat) < win0_5.index t 1 * win0_5.size 1 + win0_5.xsize (grid0.coords t) 1
              rw [index0_5 t, show win0_5.xsize (grid0.coords t) 1 = 1 from rfl]
              show 0 * win0_5.size 1 ≤ (i 1 : Nat) ∧ (i 1 : Nat) < 0 * win0_5.size 1 + 1
              rw [Nat.zero_mul]; omega

/-- So result array `main_v31_2` ends holding what output 5's buffer held after the last point. -/
theorem final0_5 (c : Dev nD) : (dats m 0 c).arrAt 5 cfg0.N = result5 m c :=
  (dats m 0 c).arrAt_eq_of_cover 5 (result5 m c) (flushed_eq5 m c) fun i =>
    ⟨tLast, (flush0_5 tLast).mpr rfl, mem_blk0_5 c tLast i⟩

/-- Window 6's index map is constantly (0, 0). -/
theorem index0_6 (t : Fin cfg0.N) : win0_6.index t = ![0, 0] := rfl
/-- so its block's offsets in the [1,1] result array are zero at every point. -/
theorem hz0_6 (t : Fin cfg0.N) : (fun a => win0_6.index t a * main_v31_3.ty.shape.size a) = fun _ => 0 :=
  funext fun a => by rw [index0_6 t]; fin_cases a <;> exact Nat.zero_mul _

/-- What output 6's staging buffer holds after the last point, as contents of the [1,1] result array `main_v31_3` (its one block is the array). -/
abbrev result6 (c : Dev nD) : Buf (Elt F) ((c : Thread nD τ).loc main_v31_3) := (outsAt m c 255 lastLt).2.2.2.1

set_option maxHeartbeats 400000 in
/-- The one write-back of window 6, after the last point, writes it: block (0, 0) of the [1,1] array read through zero offsets is the array. -/
theorem flushed_eq6 (c : Dev nD) (t : Fin cfg0.N) (hf : (cfg0.win 6).flush t = true) :
    (dats m 0 c).flushed 6 t = ((cfg0.win 6).blk t).view.read (Elt F) (result6 m c) := by
  have hN : cfg0.N = 256 := N_0
  have h255 : t.val = 255 := by have := (flush0_6 t).mp hf; have := t.isLt; omega
  show (cfg0.win 6).cut (grid0.coords t) ((dats m 0 c).after 6 t) = _
  rw [after0_6, outsAt_last m c t h255]
  exact (Memref.read_access_unit_zero (Elt F) main_v31_3 (hz0_6 t) (fun a => by rw [congrFun (hz0_6 t) a]; simp) (result6 m c)).symm

set_option maxHeartbeats 400000 in
/-- Every index of the [1,1] result array lies in window 6's block, at any point. -/
theorem mem_blk0_6 (c : Dev nD) (t : Fin cfg0.N) (i : ((cfg0.win 6).arr.view.loc (c.tc : Thread nD τ)).2.ty.Idx) :
    i ∈ ((cfg0.win 6).blk t).view.set := by
  show i ∈ ((View.whole main_v31_3).slice (win0_6.rect t)).set
  rw [View.set_slice_whole, Rect.mem_set_unit]
  intro a
  have h0 : (i 0 : Nat) < 1 := (i 0).isLt
  have h1 : (i 1 : Nat) < 1 := (i 1).isLt
  match a with
  | ⟨0, _⟩ => show win0_6.index t 0 * win0_6.size 0 ≤ (i 0 : Nat) ∧ (i 0 : Nat) < win0_6.index t 0 * win0_6.size 0 + win0_6.xsize (grid0.coords t) 0
              rw [index0_6 t, show win0_6.xsize (grid0.coords t) 0 = 1 from rfl]
              show 0 * win0_6.size 0 ≤ (i 0 : Nat) ∧ (i 0 : Nat) < 0 * win0_6.size 0 + 1
              rw [Nat.zero_mul]; omega
  | ⟨1, _⟩ => show win0_6.index t 1 * win0_6.size 1 ≤ (i 1 : Nat) ∧ (i 1 : Nat) < win0_6.index t 1 * win0_6.size 1 + win0_6.xsize (grid0.coords t) 1
              rw [index0_6 t, show win0_6.xsize (grid0.coords t) 1 = 1 from rfl]
              show 0 * win0_6.size 1 ≤ (i 1 : Nat) ∧ (i 1 : Nat) < 0 * win0_6.size 1 + 1
              rw [Nat.zero_mul]; omega

/-- So result array `main_v31_3` ends holding what output 6's buffer held after the last point. -/
theorem final0_6 (c : Dev nD) : (dats m 0 c).arrAt 6 cfg0.N = result6 m c :=
  (dats m 0 c).arrAt_eq_of_cover 6 (result6 m c) (flushed_eq6 m c) fun i =>
    ⟨tLast, (flush0_6 tLast).mpr rfl, mem_blk0_6 c tLast i⟩

/-- Window 7's index map is constantly (0, 0). -/
theorem index0_7 (t : Fin cfg0.N) : win0_7.index t = ![0, 0] := rfl
/-- so its block's offsets in the [1,1] result array are zero at every point. -/
theorem hz0_7 (t : Fin cfg0.N) : (fun a => win0_7.index t a * main_v31_4.ty.shape.size a) = fun _ => 0 :=
  funext fun a => by rw [index0_7 t]; fin_cases a <;> exact Nat.zero_mul _

/-- What output 7's staging buffer holds after the last point, as contents of the [1,1] result array `main_v31_4` (its one block is the array). -/
abbrev result7 (c : Dev nD) : Buf (Elt F) ((c : Thread nD τ).loc main_v31_4) := (outsAt m c 255 lastLt).2.2.2.2

set_option maxHeartbeats 400000 in
/-- The one write-back of window 7, after the last point, writes it: block (0, 0) of the [1,1] array read through zero offsets is the array. -/
theorem flushed_eq7 (c : Dev nD) (t : Fin cfg0.N) (hf : (cfg0.win 7).flush t = true) :
    (dats m 0 c).flushed 7 t = ((cfg0.win 7).blk t).view.read (Elt F) (result7 m c) := by
  have hN : cfg0.N = 256 := N_0
  have h255 : t.val = 255 := by have := (flush0_7 t).mp hf; have := t.isLt; omega
  show (cfg0.win 7).cut (grid0.coords t) ((dats m 0 c).after 7 t) = _
  rw [after0_7, outsAt_last m c t h255]
  exact (Memref.read_access_unit_zero (Elt F) main_v31_4 (hz0_7 t) (fun a => by rw [congrFun (hz0_7 t) a]; simp) (result7 m c)).symm

set_option maxHeartbeats 400000 in
/-- Every index of the [1,1] result array lies in window 7's block, at any point. -/
theorem mem_blk0_7 (c : Dev nD) (t : Fin cfg0.N) (i : ((cfg0.win 7).arr.view.loc (c.tc : Thread nD τ)).2.ty.Idx) :
    i ∈ ((cfg0.win 7).blk t).view.set := by
  show i ∈ ((View.whole main_v31_4).slice (win0_7.rect t)).set
  rw [View.set_slice_whole, Rect.mem_set_unit]
  intro a
  have h0 : (i 0 : Nat) < 1 := (i 0).isLt
  have h1 : (i 1 : Nat) < 1 := (i 1).isLt
  match a with
  | ⟨0, _⟩ => show win0_7.index t 0 * win0_7.size 0 ≤ (i 0 : Nat) ∧ (i 0 : Nat) < win0_7.index t 0 * win0_7.size 0 + win0_7.xsize (grid0.coords t) 0
              rw [index0_7 t, show win0_7.xsize (grid0.coords t) 0 = 1 from rfl]
              show 0 * win0_7.size 0 ≤ (i 0 : Nat) ∧ (i 0 : Nat) < 0 * win0_7.size 0 + 1
              rw [Nat.zero_mul]; omega
  | ⟨1, _⟩ => show win0_7.index t 1 * win0_7.size 1 ≤ (i 1 : Nat) ∧ (i 1 : Nat) < win0_7.index t 1 * win0_7.size 1 + win0_7.xsize (grid0.coords t) 1
              rw [index0_7 t, show win0_7.xsize (grid0.coords t) 1 = 1 from rfl]
              show 0 * win0_7.size 1 ≤ (i 1 : Nat) ∧ (i 1 : Nat) < 0 * win0_7.size 1 + 1
              rw [Nat.zero_mul]; omega

/-- So result array `main_v31_4` ends holding what output 7's buffer held after the last point. -/
theorem final0_7 (c : Dev nD) : (dats m 0 c).arrAt 7 cfg0.N = result7 m c :=
  (dats m 0 c).arrAt_eq_of_cover 7 (result7 m c) (flushed_eq7 m c) fun i =>
    ⟨tLast, (flush0_7 tLast).mpr rfl, mem_blk0_7 c tLast i⟩

end Cert.KernelIdeal.Gen

end
-- ==== Proof.Spec.lean ====
/-
  The mathematics of the certificate, with no program in sight.

  From 8192 samples the programs form two 8192 × 8192 similarity matrices: the response similarity
  `sim X r s = ∑ k < 16, X r k · X s k` of row-normalised features, and the distance similarity
  `dis C Q r s = 1 / (√(guard (max (Q r + Q s − 2 · ∑ k < 2, C r k · C s k) 0)) + 1)` of coordinates `C` with squared norms `Q`
  (`guard x` is `x` above the small threshold and the threshold otherwise). Over the pairs strictly below the diagonal
  (`s < r`) they take the Pearson correlation `ρ` of the two families and return `(1 − ρ) / 2`.
  `loss` is that number computed from centred values (the reference's way); `lossMoments` computes it from the five
  moment sums `∑a, ∑b, ∑a², ∑b², ∑ab` and the count (the kernel's way). Float words are kept as the words the programs
  spell (`Ideal.ofBits`): the same word on both sides is never evaluated.
-/
import Idealize.ShloMosaic.PureOps.Ideal
import Idealize.ShloMosaic.Lib.ValueIdx

noncomputable section

namespace Corr

open Idealize.ShloMosaic

/-- The pairs of samples. -/
abbrev Pair := Fin 8192 × Fin 8192

/-- Strictly below the diagonal: the column sample comes before the row sample. -/
abbrev below (p : Pair) : Prop := p.2 < p.1

/-- The words the programs spell for 0, 1, 2 and the guard's threshold. -/
abbrev w0 : EReal := Ideal.ofBits .f32 0x00000000#32
abbrev w1 : EReal := Ideal.ofBits .f32 0x3F800000#32
abbrev w2 : EReal := Ideal.ofBits .f32 0x40000000#32
abbrev wEps : EReal := Ideal.ofBits .f32 0x2B8CBCCC#32

/-- Response similarity of two samples: the inner product of their feature rows. -/
def sim (X : Fin 8192 → Fin 16 → EReal) (r s : Fin 8192) : EReal := ∑ k : Fin 16, X r k * X s k

/-- The guarded, clamped squared distance of two samples from their squared norms and inner product. -/
def sqd (C : Fin 8192 → Fin 2 → EReal) (Q : Fin 8192 → EReal) (r s : Fin 8192) : EReal :=
  max (Q r + Q s - w2 * ∑ k : Fin 2, C r k * C s k) w0

/-- Distance similarity of two samples: `1 / (√(guarded squared distance) + 1)`. -/
def dis (C : Fin 8192 → Fin 2 → EReal) (Q : Fin 8192 → EReal) (r s : Fin 8192) : EReal :=
  Ideal.div w1 (Ideal.sqrt (Scalar.select (Ideal.cmp .ogt (sqd C Q r s) wEps) (sqd C Q r s) wEps) + w1)

/-- The correlation from centred values, for families `a`, `b` over the pairs and a count `n`. -/
def rhoCentred (a b : Pair → EReal) (n : EReal) : EReal :=
  let am := Ideal.div (∑ p, (if below p then a p else 0)) n
  let bm := Ideal.div (∑ p, (if below p then b p else 0)) n
  let ac : Pair → EReal := fun p => if below p then a p - am else 0
  let bc : Pair → EReal := fun p => if below p then b p - bm else 0
  Ideal.div (∑ p, ac p * bc p) (Ideal.sqrt (∑ p, ac p * ac p) * Ideal.sqrt (∑ p, bc p * bc p))

/-- The correlation from the five moment sums and the count. -/
def rhoMoments (Sa Sb Sa2 Sb2 Sab n : EReal) : EReal :=
  let am := Ideal.div Sa n
  let bm := Ideal.div Sb n
  Ideal.div (Sab - n * am * bm) (Ideal.sqrt (Sa2 - n * am * am) * Ideal.sqrt (Sb2 - n * bm * bm))

/-- The reference's result. -/
def loss (X : Fin 8192 → Fin 16 → EReal) (C : Fin 8192 → Fin 2 → EReal) (Q : Fin 8192 → EReal) : EReal :=
  Ideal.div (w1 - rhoCentred (fun p => sim X p.1 p.2) (fun p => dis C Q p.1 p.2) (∑ p : Pair, (if below p then (1 : EReal) else 0))) w2

/-- The kernel's result, from the moment sums over the pairs below the diagonal and the count word. -/
def lossMoments (X : Fin 8192 → Fin 16 → EReal) (C : Fin 8192 → Fin 2 → EReal) (Q : Fin 8192 → EReal) (n : EReal) : EReal :=
  let a : Pair → EReal := fun p => sim X p.1 p.2
  let b : Pair → EReal := fun p => dis C Q p.1 p.2
  Ideal.div (w1 - rhoMoments (∑ p, (if below p then a p else 0)) (∑ p, (if below p then b p else 0))
    (∑ p, (if below p then a p * a p else 0)) (∑ p, (if below p then b p * b p else 0))
    (∑ p, (if below p then a p * b p else 0)) n) w2

end Corr

end
-- ==== Proof.Tail.lean ====
/-
  The kernel's host tail: from five moment sums to the loss.

  After its call the kernel holds five [1,1] arrays — the sums over the pairs below the diagonal of a, b, a², b² and
  a·b for the two similarity families a and b — and the count n of those pairs is a constant word. The operations
  that follow read each array as a scalar, form the means am = Σa / n and bm = Σb / n, the covariance
  Σab − n·am·bm, the two deviations √(Σa² − n·am·am) and √(Σb² − n·bm·bm), their quotient ρ, and return (1 − ρ) / 2.
  This module reads that straight line of operations back as one term over whatever the five buffers hold and
  identifies it with the specification's Corr.rhoMoments.
-/
import proofs.«149199_j10763188043930_1_alg».proof.Proof.Gen.KernelIdeal.Launch
import proofs.«149199_j10763188043930_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Tail

open Cert.KernelIdeal Cert.KernelIdeal.Gen Idealize.ShloMosaic Idealize.ShloMosaic.ValueIdx Idealize.ShloMosaic.StableHlo Idealize.ShloMosaic.TcCoe Idealize.SL.Sem

/-- A [1,1] array read through a reshape to a scalar is its one entry. -/
theorem cast_entry (x : S1x1.Idx → EReal) (i : S_.Idx) :
    shapeCast S_ x shapeCasts_S1x1_S_ i = x (ix2 0 0) :=
  shapeCast_apply x shapeCasts_S1x1_S_ i (ix2 0 0) (by
    have h1 := (S1x1.rowMajor (ix2 0 0)).isLt
    have h2 := (S_.rowMajor i).isLt
    have e1 : S1x1.numel = 1 := by decide
    have e2 : S_.numel = 1 := by decide
    omega)

/-- The specification's correlation from the moment sums, spelt out. -/
theorem rhoMoments_eq (Sa Sb Sa2 Sb2 Sab n : EReal) :
    Corr.rhoMoments Sa Sb Sa2 Sb2 Sab n
      = Ideal.div (Sab - n * Ideal.div Sa n * Ideal.div Sb n)
          (Ideal.sqrt (Sa2 - n * Ideal.div Sa n * Ideal.div Sa n) * Ideal.sqrt (Sb2 - n * Ideal.div Sb n * Ideal.div Sb n)) := rfl

/-- The host operations after the kernel's call compute, from the five [1,1] moment sums the call left and the count
    word, (1 − ρ) / 2 for the correlation ρ from the moments — whatever the buffers held before. -/
theorem tail_apply (W : Valuation τ sig (Elt Ideal)) (i : S_.Idx) :
    (StableHlo.after (hostOps1 : List (HloOp τ sig (Elt Ideal))) W (Proc.devRef .tc main_v53) : S_.Idx → EReal) i
      = Ideal.div (Corr.w1 - Corr.rhoMoments
          ((W (Proc.devRef .tc main_v31_0) : S1x1.Idx → EReal) (ix2 0 0))
          ((W (Proc.devRef .tc main_v31_1) : S1x1.Idx → EReal) (ix2 0 0))
          ((W (Proc.devRef .tc main_v31_2) : S1x1.Idx → EReal) (ix2 0 0))
          ((W (Proc.devRef .tc main_v31_3) : S1x1.Idx → EReal) (ix2 0 0))
          ((W (Proc.devRef .tc main_v31_4) : S1x1.Idx → EReal) (ix2 0 0))
          (Ideal.ofBits .f32 0x4BFFF800#32)) Corr.w2 := by
  after_results_simp
  simp only [Host.divf, Host.sqrt, subf, mulf, constant, Ideal.hostDivf_def, Ideal.subf_def, Ideal.mulf_def,
    Ideal.hostUnary_sqrt_def, Ideal.ofBits_def]
  show Ideal.div (Ideal.ofBits .f32 0x3F800000#32 - Ideal.div
      (shapeCast (s := S1x1) (α := EReal) S_ (W (Proc.devRef .tc main_v31_4)) shapeCasts_S1x1_S_ i
        - Ideal.ofBits .f32 0x4BFFF800#32
            * Ideal.div (shapeCast (s := S1x1) (α := EReal) S_ (W (Proc.devRef .tc main_v31_0)) shapeCasts_S1x1_S_ i) (Ideal.ofBits .f32 0x4BFFF800#32)
            * Ideal.div (shapeCast (s := S1x1) (α := EReal) S_ (W (Proc.devRef .tc main_v31_1)) shapeCasts_S1x1_S_ i) (Ideal.ofBits .f32 0x4BFFF800#32))
      (Ideal.sqrt
          (shapeCast (s := S1x1) (α := EReal) S_ (W (Proc.devRef .tc main_v31_2)) shapeCasts_S1x1_S_ i
            - Ideal.ofBits .f32 0x4BFFF800#32
                * Ideal.div (shapeCast (s := S1x1) (α := EReal) S_ (W (Proc.devRef .tc main_v31_0)) shapeCasts_S1x1_S_ i) (Ideal.ofBits .f32 0x4BFFF800#32)
                * Ideal.div (shapeCast (s := S1x1) (α := EReal) S_ (W (Proc.devRef .tc main_v31_0)) shapeCasts_S1x1_S_ i) (Ideal.ofBits .f32 0x4BFFF800#32))
        * Ideal.sqrt
          (shapeCast (s := S1x1) (α := EReal) S_ (W (Proc.devRef .tc main_v31_3)) shapeCasts_S1x1_S_ i
            - Ideal.ofBits .f32 0x4BFFF800#32
                * Ideal.div (shapeCast (s := S1x1) (α := EReal) S_ (W (Proc.devRef .tc main_v31_1)) shapeCasts_S1x1_S_ i) (Ideal.ofBits .f32 0x4BFFF800#32)
                * Ideal.div (shapeCast (s := S1x1) (α := EReal) S_ (W (Proc.devRef .tc main_v31_1)) shapeCasts_S1x1_S_ i) (Ideal.ofBits .f32 0x4BFFF800#32))))
    (Ideal.ofBits .f32 0x40000000#32) = _
  simp only [cast_entry]
  exact congrArg (fun t => Ideal.div (Corr.w1 - t) Corr.w2) (rhoMoments_eq _ _ _ _ _ _).symm

end Cert.KernelIdeal.Tail

end
-- ==== Proof.Values.lean ====
import proofs.«149199_j10763188043930_1_alg».proof.Proof.Body
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The values the cases leave, through the payloads -/

/-- The unit offsets `![0, 0]` are zero on every axis. -/
theorem hz : (![0, 0] : Fin 2 → Nat) = fun _ => 0 := funext fun a => by fin_cases a <;> rfl

/-- The row offset `512 · i₀` and the column offset `512 · i₁` of the tile, as 32-bit words. -/
abbrev rowOff (i : grid0.Coords) : BitVec 32 := Scalar.muli (BitVec.ofNat 32 (i 0).val) 512#32
abbrev colOff (i : grid0.Coords) : BitVec 32 := Scalar.muli (BitVec.ofNat 32 (i 1).val) 512#32

/-- The six 512-row slabs the body loads: rows `512·i₀ …` and `512·i₁ …` of each of the three inputs. -/
abbrev slab13 (i : grid0.Coords) (h2 : k0_cond2 i = 1#1) (x0 : Vec F S8192x16 .f32) : Vec F S512x16 .f32 :=
  View.ld x0 (Rect.unit (s := S8192x16) (k0_off1 i) S512x16.size (k0_off1_inb i h2))
abbrev slab16 (i : grid0.Coords) (h2 : k0_cond2 i = 1#1) (x0 : Vec F S8192x16 .f32) : Vec F S512x16 .f32 :=
  View.ld x0 (Rect.unit (s := S8192x16) (k0_off2 i) S512x16.size (k0_off2_inb i h2))
abbrev slab19 (i : grid0.Coords) (h2 : k0_cond2 i = 1#1) (x1 : Vec F S8192x2 .f32) : Vec F S512x2 .f32 :=
  View.ld x1 (Rect.unit (s := S8192x2) (k0_off3 i) S512x2.size (k0_off3_inb i h2))
abbrev slab22 (i : grid0.Coords) (h2 : k0_cond2 i = 1#1) (x1 : Vec F S8192x2 .f32) : Vec F S512x2 .f32 :=
  View.ld x1 (Rect.unit (s := S8192x2) (k0_off4 i) S512x2.size (k0_off4_inb i h2))
abbrev slab25 (i : grid0.Coords) (h2 : k0_cond2 i = 1#1) (x2 : Vec F S8192x1 .f32) : Vec F S512x1 .f32 :=
  View.ld x2 (Rect.unit (s := S8192x1) (k0_off5 i) S512x1.size (k0_off5_inb i h2))
abbrev slab28 (i : grid0.Coords) (h2 : k0_cond2 i = 1#1) (x2 : Vec F S8192x1 .f32) : Vec F S512x1 .f32 :=
  View.ld x2 (Rect.unit (s := S8192x1) (k0_off6 i) S512x1.size (k0_off6_inb i h2))

/-- The tile of feature products (row slab times the transposed column slab). -/
abbrev tileA (i : grid0.Coords) (h2 : k0_cond2 i = 1#1) (x0 : Vec F S8192x16 .f32) : FVec F S512x512 .f32 :=
  k0_pay8 (slab13 i h2 x0) (slab16 i h2 x0)
/-- The tile of inverse distances `1 / (1 + √max(‖pᵣ‖² + ‖p_c‖² − 2 pᵣ·p_c, ε))`. -/
abbrev tileB (i : grid0.Coords) (h2 : k0_cond2 i = 1#1) (x1 : Vec F S8192x2 .f32) (x2 : Vec F S8192x1 .f32) : FVec F S512x512 .f32 :=
  k0_pay9 (slab19 i h2 x1) (slab22 i h2 x1) (slab25 i h2 x2) (slab28 i h2 x2)

set_option maxHeartbeats 1000000 in
/-- At the first point output 3 ends at its tile sum added to the zero fill. -/
theorem outA_3_eq (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) :
    outA_3 c i arg2 harg2 arg3 harg3 arg4 harg4 arg5 harg5 arg6 harg6 arg7 harg7 arg8 harg8 arg9 harg9 h1 h2 x0 x1 x2 = k0_pay11 (rowOff i) (colOff i) (tileA i h2 x0) (k0_pay1 (F := F)) := by
  unfold outA_3
  rw [View.read_writes_eq_canon _ _ _ (coverA_3 c i arg2 harg2 arg3 harg3 arg4 harg4 arg5 harg5 arg6 harg6 arg7 harg7 arg8 harg8 arg9 harg9 h1 h2 x0 x1 x2)]
  unfold kernelRunA
  dsimp only
  sl_unfold_words
  rw [View.canon_cons_unit_zero (S := S1x1) hz, View.readCov_unit_zero (S := S1x1) _ hz]
  simp only [View.readAt_eq_ld, harg2.read_unread, harg3.read_unread, harg4.read_unread]
  rfl

set_option maxHeartbeats 1000000 in
/-- At a later point on or below the diagonal output 3 ends at its tile sum added to the running sum. -/
theorem outB_3_eq (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) :
    outB_3 c i arg2 harg2 arg3 harg3 arg4 harg4 arg5 harg5 arg6 harg6 arg7 harg7 arg8 harg8 arg9 harg9 h1 h2 x0 x1 x2 xo3 xo4 xo5 xo6 xo7 = k0_pay11 (rowOff i) (colOff i) (tileA i h2 x0) xo3 := by
  unfold outB_3
  rw [View.read_writes_eq_canon _ _ _ (coverB_3 c i arg2 harg2 arg3 harg3 arg4 harg4 arg5 harg5 arg6 harg6 arg7 harg7 arg8 harg8 arg9 harg9 h1 h2 x0 x1 x2 xo3 xo4 xo5 xo6 xo7)]
  unfold kernelRunB
  dsimp only
  sl_unfold_words
  rw [View.canon_unit_zero (S := S1x1) hz]
  simp only [View.readAt_eq_ld, harg2.read_unread, harg3.read_unread, harg4.read_unread, harg5.read_unread, View.ld_unit_zero (S := S1x1) hz]
  rfl

set_option maxHeartbeats 1000000 in
/-- At the first point output 4 ends at its tile sum added to the zero fill. -/
theorem outA_4_eq (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) :
    outA_4 c i arg2 harg2 arg3 harg3 arg4 harg4 arg5 harg5 arg6 harg6 arg7 harg7 arg8 harg8 arg9 harg9 h1 h2 x0 x1 x2 = k0_pay12 (rowOff i) (colOff i) (tileB i h2 x1 x2) (k0_pay2 (F := F)) := by
  unfold outA_4
  rw [View.read_writes_eq_canon _ _ _ (coverA_4 c i arg2 harg2 arg3 harg3 arg4 harg4 arg5 harg5 arg6 harg6 arg7 harg7 arg8 harg8 arg9 harg9 h1 h2 x0 x1 x2)]
  unfold kernelRunA
  dsimp only
  sl_unfold_words
  rw [View.canon_cons_unit_zero (S := S1x1) hz, View.readCov_unit_zero (S := S1x1) _ hz]
  simp only [View.readAt_eq_ld, harg2.read_unread, harg3.read_unread, harg4.read_unread]
  rfl

set_option maxHeartbeats 1000000 in
/-- At a later point on or below the diagonal output 4 ends at its tile sum added to the running sum. -/
theorem outB_4_eq (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) :
    outB_4 c i arg2 harg2 arg3 harg3 arg4 harg4 arg5 harg5 arg6 harg6 arg7 harg7 arg8 harg8 arg9 harg9 h1 h2 x0 x1 x2 xo3 xo4 xo5 xo6 xo7 = k0_pay12 (rowOff i) (colOff i) (tileB i h2 x1 x2) xo4 := by
  unfold outB_4
  rw [View.read_writes_eq_canon _ _ _ (coverB_4 c i arg2 harg2 arg3 harg3 arg4 harg4 arg5 harg5 arg6 harg6 arg7 harg7 arg8 harg8 arg9 harg9 h1 h2 x0 x1 x2 xo3 xo4 xo5 xo6 xo7)]
  unfold kernelRunB
  dsimp only
  sl_unfold_words
  rw [View.canon_unit_zero (S := S1x1) hz]
  simp only [View.readAt_eq_ld, harg2.read_unread, harg3.read_unread, harg4.read_unread, harg6.read_unread, View.ld_unit_zero (S := S1x1) hz]
  rfl

set_option maxHeartbeats 1000000 in
/-- At the first point output 5 ends at its tile sum added to the zero fill. -/
theorem outA_5_eq (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) :
    outA_5 c i arg2 harg2 arg3 harg3 arg4 harg4 arg5 harg5 arg6 harg6 arg7 harg7 arg8 harg8 arg9 harg9 h1 h2 x0 x1 x2 = k0_pay13 (rowOff i) (colOff i) (tileA i h2 x0) (k0_pay3 (F := F)) := by
  unfold outA_5
  rw [View.read_writes_eq_canon _ _ _ (coverA_5 c i arg2 harg2 arg3 harg3 arg4 harg4 arg5 harg5 arg6 harg6 arg7 harg7 arg8 harg8 arg9 harg9 h1 h2 x0 x1 x2)]
  unfold kernelRunA
  dsimp only
  sl_unfold_words
  rw [View.canon_cons_unit_zero (S := S1x1) hz, View.readCov_unit_zero (S := S1x1) _ hz]
  simp only [View.readAt_eq_ld, harg2.read_unread, harg3.read_unread, harg4.read_unread]
  rfl

set_option maxHeartbeats 1000000 in
/-- At a later point on or below the diagonal output 5 ends at its tile sum added to the running sum. -/
theorem outB_5_eq (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) :
    outB_5 c i arg2 harg2 arg3 harg3 arg4 harg4 arg5 harg5 arg6 harg6 arg7 harg7 arg8 harg8 arg9 harg9 h1 h2 x0 x1 x2 xo3 xo4 xo5 xo6 xo7 = k0_pay13 (rowOff i) (colOff i) (tileA i h2 x0) xo5 := by
  unfold outB_5
  rw [View.read_writes_eq_canon _ _ _ (coverB_5 c i arg2 harg2 arg3 harg3 arg4 harg4 arg5 harg5 arg6 harg6 arg7 harg7 arg8 harg8 arg9 harg9 h1 h2 x0 x1 x2 xo3 xo4 xo5 xo6 xo7)]
  unfold kernelRunB
  dsimp only
  sl_unfold_words
  rw [View.canon_unit_zero (S := S1x1) hz]
  simp only [View.readAt_eq_ld, harg2.read_unread, harg3.read_unread, harg4.read_unread, harg7.read_unread, View.ld_unit_zero (S := S1x1) hz]
  rfl

set_option maxHeartbeats 1000000 in
/-- At the first point output 6 ends at its tile sum added to the zero fill. -/
theorem outA_6_eq (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) :
    outA_6 c i arg2 harg2 arg3 harg3 arg4 harg4 arg5 harg5 arg6 harg6 arg7 harg7 arg8 harg8 arg9 harg9 h1 h2 x0 x1 x2 = k0_pay6 (tileB i h2 x1 x2) (k0_pay10 (F := F) (rowOff i) (colOff i)) (k0_pay4 (F := F)) := by
  unfold outA_6
  rw [View.read_writes_eq_canon _ _ _ (coverA_6 c i arg2 harg2 arg3 harg3 arg4 harg4 arg5 harg5 arg6 harg6 arg7 harg7 arg8 harg8 arg9 harg9 h1 h2 x0 x1 x2)]
  unfold kernelRunA
  dsimp only
  sl_unfold_words
  rw [View.canon_cons_unit_zero (S := S1x1) hz, View.readCov_unit_zero (S := S1x1) _ hz]
  simp only [View.readAt_eq_ld, harg2.read_unread, harg3.read_unread, harg4.read_unread]
  rfl

set_option maxHeartbeats 1000000 in
/-- At a later point on or below the diagonal output 6 ends at its tile sum added to the running sum. -/
theorem outB_6_eq (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) :
    outB_6 c i arg2 harg2 arg3 harg3 arg4 harg4 arg5 harg5 arg6 harg6 arg7 harg7 arg8 harg8 arg9 harg9 h1 h2 x0 x1 x2 xo3 xo4 xo5 xo6 xo7 = k0_pay6 (tileB i h2 x1 x2) (k0_pay10 (F := F) (rowOff i) (colOff i)) xo6 := by
  unfold outB_6
  rw [View.read_writes_eq_canon _ _ _ (coverB_6 c i arg2 harg2 arg3 harg3 arg4 harg4 arg5 harg5 arg6 harg6 arg7 harg7 arg8 harg8 arg9 harg9 h1 h2 x0 x1 x2 xo3 xo4 xo5 xo6 xo7)]
  unfold kernelRunB
  dsimp only
  sl_unfold_words
  rw [View.canon_unit_zero (S := S1x1) hz]
  simp only [View.readAt_eq_ld, harg2.read_unread, harg3.read_unread, harg4.read_unread, harg8.read_unread, View.ld_unit_zero (S := S1x1) hz]
  rfl

set_option maxHeartbeats 1000000 in
/-- At the first point output 7 ends at its tile sum added to the zero fill. -/
theorem outA_7_eq (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : k0_cond1 i = 1#1) (h2 : k0_cond2 i = 1#1)
    (x0 : Vec F S8192x16 .f32) (x1 : Vec F S8192x2 .f32) (x2 : Vec F S8192x1 .f32) :
    outA_7 c i arg2 harg2 arg3 harg3 arg4 harg4 arg5 harg5 arg6 harg6 arg7 harg7 arg8 harg8 arg9 harg9 h1 h2 x0 x1 x2 = k0_pay7 (tileA i h2 x0) (tileB i h2 x1 x2) (k0_pay10 (F := F) (rowOff i) (colOff i)) (k0_pay5 (F := F)) := by
  unfold outA_7
  rw [View.read_writes_eq_canon _ _ _ (coverA_7 c i arg2 harg2 arg3 harg3 arg4 harg4 arg5 harg5 arg6 harg6 arg7 harg7 arg8 harg8 arg9 harg9 h1 h2 x0 x1 x2)]
  unfold kernelRunA
  dsimp only
  sl_unfold_words
  rw [View.canon_cons_unit_zero (S := S1x1) hz, View.readCov_unit_zero (S := S1x1) _ hz]
  simp only [View.readAt_eq_ld, harg2.read_unread, harg3.read_unread, harg4.read_unread]
  rfl

set_option maxHeartbeats 1000000 in
/-- At a later point on or below the diagonal output 7 ends at its tile sum added to the running sum. -/
theorem outB_7_eq (c : Dev nD) (i : grid0.Coords) (arg2 : Memref sig .tc .vmem S8192x16 .f32) (harg2 : arg2.IsWhole) (arg3 : Memref sig .tc .vmem S8192x2 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (h1 : ¬k0_cond1 i = 1#1) (h2 : k0_cond2 i = 1#1)
    (x0 : Vec F S8192x16 .f32) (x1 : Vec F S8192x2 .f32) (x2 : Vec F S8192x1 .f32) (xo3 : Vec F S1x1 .f32) (xo4 : Vec F S1x1 .f32) (xo5 : Vec F S1x1 .f32) (xo6 : Vec F S1x1 .f32) (xo7 : Vec F S1x1 .f32) :
    outB_7 c i arg2 harg2 arg3 harg3 arg4 harg4 arg5 harg5 arg6 harg6 arg7 harg7 arg8 harg8 arg9 harg9 h1 h2 x0 x1 x2 xo3 xo4 xo5 xo6 xo7 = k0_pay7 (tileA i h2 x0) (tileB i h2 x1 x2) (k0_pay10 (F := F) (rowOff i) (colOff i)) xo7 := by
  unfold outB_7
  rw [View.read_writes_eq_canon _ _ _ (coverB_7 c i arg2 harg2 arg3 harg3 arg4 harg4 arg5 harg5 arg6 harg6 arg7 harg7 arg8 harg8 arg9 harg9 h1 h2 x0 x1 x2 xo3 xo4 xo5 xo6 xo7)]
  unfold kernelRunB
  dsimp only
  sl_unfold_words
  rw [View.canon_unit_zero (S := S1x1) hz]
  simp only [View.readAt_eq_ld, harg2.read_unread, harg3.read_unread, harg4.read_unread, harg9.read_unread, View.ld_unit_zero (S := S1x1) hz]
  rfl

end Cert.KernelIdeal.Gen

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.Tile.lean ====
/-
  One tile of the kernel, read at the ideal instance.

  At a grid point the kernel loads two slabs of 512 feature rows, two slabs of 512 coordinate rows and two slabs of 512
  squared norms — the row samples and the column samples of the tile — and forms, entry by entry, the response
  similarity (the inner product of the two feature rows), the distance similarity, and a 0/1 mask that is 1 exactly
  where the row sample's number exceeds the column sample's; each of the five outputs then gains the sum over the
  tile of one masked product. Here each of these values is read at an index as a plain formula of the loaded slabs.
-/
import proofs.«149199_j10763188043930_1_alg».proof.Proof.Gen.KernelIdeal.Skeleton
import proofs.«149199_j10763188043930_1_alg».proof.Proof.LibPlainDot
import proofs.«149199_j10763188043930_1_alg».proof.Proof.LibTileLayout
import proofs.«149199_j10763188043930_1_alg».proof.Proof.Spec
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx
open scoped BigOperators

/-- The response-similarity tile at (p, q): the inner product of row slab's row p and the column slab's row q. -/
theorem simTile_apply (v13 v16 : FVec Ideal S512x16 .f32) (p q : Fin 512) :
    k0_pay8 (F := Ideal) v13 v16 (ix2 p q) = ∑ k : Fin 16, v13 (ix2 p k) * v16 (ix2 q k) := by
  unfold k0_pay8
  simp only [shapeCast_self]
  refine (Cert.LibPlainDot.matmul_zero_apply dot_S512x16_S16x512_S512x512_1_0_0_1_n_n ⟨rfl, rfl, rfl, rfl, rfl, rfl⟩ none _ _ p q).trans ?_
  exact Finset.sum_congr rfl fun k _ => congrArg (v13 (ix2 p k) * ·) (transpose_ix2_apply v16 _ k q)

/-- The guarded squared distance of the tile's entry (p, q) from the slabs. -/
def sqdTile (v19 v22 : FVec Ideal S512x2 .f32) (v25 v28 : FVec Ideal S512x1 .f32) (p q : Fin 512) : EReal :=
  max (v25 (ix2 p (0 : Fin 1)) + v28 (ix2 q (0 : Fin 1)) - Corr.w2 * ∑ k : Fin 2, v19 (ix2 p k) * v22 (ix2 q k)) Corr.w0

/-- The distance-similarity tile at (p, q). -/
theorem disTile_apply (v19 v22 : FVec Ideal S512x2 .f32) (v25 v28 : FVec Ideal S512x1 .f32) (p q : Fin 512) :
    k0_pay9 (F := Ideal) v19 v22 v25 v28 (ix2 p q)
      = Ideal.div Corr.w1 (Ideal.sqrt (Scalar.select (Ideal.cmp .ogt (sqdTile v19 v22 v25 v28 p q) Corr.wEps)
          (sqdTile v19 v22 v25 v28 p q) Corr.wEps) + Corr.w1) := by
  unfold k0_pay9 sqdTile
  simp only [shapeCast_self]
  have hm : matmul (F := Ideal) dot_S512x2_S2x512_S512x512_1_0_0_1_n_n none v19 (transpose S2x512 [1, 0] v22 transposes_S512x2_p1_0_S2x512)
      (constant (F := Ideal) S512x512 .f32 0x00000000#32) (ix2 p q) = ∑ k : Fin 2, v19 (ix2 p k) * v22 (ix2 q k) := by
    refine (Cert.LibPlainDot.matmul_zero_apply dot_S512x2_S2x512_S512x512_1_0_0_1_n_n ⟨rfl, rfl, rfl, rfl, rfl, rfl⟩ none _ _ p q).trans ?_
    exact Finset.sum_congr rfl fun k _ => congrArg (v19 (ix2 p k) * ·) (transpose_ix2_apply v22 _ k q)
  have hr : broadcastTo S512x512 (transpose S1x512 [1, 0] v28 transposes_S512x1_p1_0_S1x512) broadcasts_S1x512_S512x512 (ix2 p q)
      = v28 (ix2 q (0 : Fin 1)) :=
    (broadcastTo_1b_ab_apply _ _ p q).trans (transpose_ix2_apply v28 _ (0 : Fin 1) q)
  have hc : broadcastTo S512x512 v25 broadcasts_S512x1_S512x512 (ix2 p q) = v25 (ix2 p (0 : Fin 1)) :=
    Cert.TileLayout.broadcastTo_a1_ab_apply v25 _ p q
  simp only [divf_apply, addf_apply, subf_apply, mulf_apply, maximumf_apply, broadcast_apply, select_apply, cmpf_apply,
    Idealize.ShloMosaic.sqrt, hm, hr, hc]
  rfl

/-! ## The mask -/

/-- A sample number below 8192, written as a 32-bit word, reads signed as itself. -/
theorem toInt_small (n : Nat) (h : n < 8192) : (BitVec.ofNat 32 n).toInt = (n : Int) := by
  rw [BitVec.toInt_eq_toNat_of_lt (by simp [BitVec.toNat_ofNat]; omega)]
  simp [BitVec.toNat_ofNat]; omega

/-- Entry `p` of slab `a`: the words `p + a * 512` add up to the sample number `512 a + p` without wrapping. -/
theorem word_sum (a p : Nat) (ha : a < 16) (hp : p < 512) :
    IntOp.addi (BitVec.ofNat 32 p) (Scalar.muli (BitVec.ofNat 32 a) 512#32) = BitVec.ofNat 32 (512 * a + p) := by
  apply BitVec.eq_of_toNat_eq
  simp [IntOp.addi, Scalar.muli, IntOp.muli, BitVec.toNat_add, BitVec.toNat_mul, BitVec.toNat_ofNat]
  omega

/-- The signed comparison of two sample numbers is the comparison of the numbers. -/
theorem sgt_small (x y : Nat) (hx : x < 8192) (hy : y < 8192) :
    IntOp.cmpi .sgt (BitVec.ofNat 32 x) (BitVec.ofNat 32 y) = if y < x then 1#1 else 0#1 := by
  unfold IntOp.cmpi
  simp only [BitVec.slt, toInt_small x hx, toInt_small y hy]
  by_cases h : y < x <;> simp [h]

/-- A truth bit widened to a word reads signed as 1 or 0. -/
theorem bit_toInt (c : Prop) [Decidable c] : (((if c then 1#1 else 0#1).setWidth 32).toInt : Int) = if c then 1 else 0 := by
  by_cases h : c <;> simp [h]

/-- The tile's mask at (p, q), for the tile of block row `a` and block column `b`: 1 where the row sample's number
    exceeds the column sample's, else 0. -/
theorem mask_apply (a b : Fin 16) (p q : Fin 512) :
    k0_pay10 (F := Ideal) (Scalar.muli (BitVec.ofNat 32 a.val) 512#32) (Scalar.muli (BitVec.ofNat 32 b.val) 512#32) (ix2 p q)
      = if 512 * b.val + q.val < 512 * a.val + p.val then (1 : EReal) else 0 := by
  unfold k0_pay10
  show (((((IntOp.cmpi .sgt
      (IntOp.addi (iota .tc S512x512 32 [0] iota_S512x512_d0_w32 (ix2 p q)) (Scalar.muli (BitVec.ofNat 32 a.val) 512#32))
      (IntOp.addi (iota .tc S512x512 32 [1] iota_S512x512_d1_w32 (ix2 p q)) (Scalar.muli (BitVec.ofNat 32 b.val) 512#32))).setWidth 32).toInt : ℝ)) : EReal) = _
  rw [iota_single_apply, iota_single_apply]
  show (((((IntOp.cmpi .sgt (IntOp.addi (BitVec.ofNat 32 p.val) _) (IntOp.addi (BitVec.ofNat 32 q.val) _)).setWidth 32).toInt : ℝ)) : EReal) = _
  rw [word_sum a.val p.val a.isLt p.isLt, word_sum b.val q.val b.isLt q.isLt,
    sgt_small _ _ (by have := a.isLt; have := p.isLt; omega) (by have := b.isLt; have := q.isLt; omega), bit_toInt]
  by_cases h : 512 * b.val + q.val < 512 * a.val + p.val <;> simp [h]

/-! ## The sum over a tile -/

/-- The kernel's whole-tile sum: a 512 × 512 array viewed as [1, 512, 512], summed along its two long axes from a
    zero word, its one entry spread over a [1, 1] block and added to an old block, holds at the block's index the old
    entry plus the sum of all the array's entries. -/
theorem tileSum_apply (v : FVec Ideal S512x512 .f32) (old : FVec Ideal S1x1 .f32) (j : S1x1.Idx) :
    addf old (broadcast S1x1 (extractAt ![0, 0, 0] (shapeCast S1x1x1 (multiReduction .add [1, 2] S1
      (shapeCast S1x512x512 v shapeCasts_S512x512_S1x512x512) 0x00000000#32 reduces_S1x512x512_S1 (.inl rfl) rfl)
        shapeCasts_S1_S1x1x1) inpos_S1x1x1_p0_0_0)) j
      = old j + ∑ p : Fin 512, ∑ q : Fin 512, v (ix2 p q) := by
  show old j + multiReduction .add [1, 2] S1 (shapeCast S1x512x512 v shapeCasts_S512x512_S1x512x512) 0x00000000#32
    reduces_S1x512x512_S1 (.inl rfl) rfl _ = _
  refine congrArg (old j + ·) ?_
  refine (Ideal.multiReduction_add_total _ _ reduces_S1x512x512_S1 (fun b => ?_) _ _ _).trans ?_
  · match b with
    | ⟨0, _⟩ => rfl
  · rw [← sum_idx2]
    exact Equiv.sum_comp (Shape.reshapeEquiv _) v

/-- Output 0's new block: the old block plus the tile's sum of similarity × mask. -/
theorem accA_eq (v9 v11 : BitVec 32) (v31 : FVec Ideal S512x512 .f32) (old : FVec Ideal S1x1 .f32) :
    k0_pay11 (F := Ideal) v9 v11 v31 old
      = fun j => old j + ∑ p : Fin 512, ∑ q : Fin 512, v31 (ix2 p q) * k0_pay10 (F := Ideal) v9 v11 (ix2 p q) := by
  unfold k0_pay11
  simp only [shapeCast_self]
  exact funext fun j => tileSum_apply _ _ j

/-- Output 1's new block: the old block plus the tile's sum of distance similarity × mask. -/
theorem accB_eq (v9 v11 : BitVec 32) (v51 : FVec Ideal S512x512 .f32) (old : FVec Ideal S1x1 .f32) :
    k0_pay12 (F := Ideal) v9 v11 v51 old
      = fun j => old j + ∑ p : Fin 512, ∑ q : Fin 512, v51 (ix2 p q) * k0_pay10 (F := Ideal) v9 v11 (ix2 p q) := by
  unfold k0_pay12
  simp only [shapeCast_self]
  exact funext fun j => tileSum_apply _ _ j

/-- Output 2's new block: the old block plus the tile's sum of similarity² × mask. -/
theorem accA2_eq (v9 v11 : BitVec 32) (v31 : FVec Ideal S512x512 .f32) (old : FVec Ideal S1x1 .f32) :
    k0_pay13 (F := Ideal) v9 v11 v31 old
      = fun j => old j + ∑ p : Fin 512, ∑ q : Fin 512, v31 (ix2 p q) * v31 (ix2 p q) * k0_pay10 (F := Ideal) v9 v11 (ix2 p q) := by
  unfold k0_pay13
  simp only [shapeCast_self]
  exact funext fun j => tileSum_apply _ _ j

/-- Output 3's new block: the old block plus the tile's sum of distance similarity² × mask. -/
theorem accB2_eq (v51 v60 : FVec Ideal S512x512 .f32) (old : FVec Ideal S1x1 .f32) :
    k0_pay6 (F := Ideal) v51 v60 old
      = fun j => old j + ∑ p : Fin 512, ∑ q : Fin 512, v51 (ix2 p q) * v51 (ix2 p q) * v60 (ix2 p q) := by
  unfold k0_pay6
  simp only [shapeCast_self]
  exact funext fun j => tileSum_apply _ _ j

/-- Output 4's new block: the old block plus the tile's sum of similarity × distance similarity × mask. -/
theorem accAB_eq (v31 v51 v60 : FVec Ideal S512x512 .f32) (old : FVec Ideal S1x1 .f32) :
    k0_pay7 (F := Ideal) v31 v51 v60 old
      = fun j => old j + ∑ p : Fin 512, ∑ q : Fin 512, v31 (ix2 p q) * v51 (ix2 p q) * v60 (ix2 p q) := by
  unfold k0_pay7
  simp only [shapeCast_self]
  exact funext fun j => tileSum_apply _ _ j

/-- The zero block the first point stores. -/
theorem zero_apply (j : S1x1.Idx) : k0_pay1 (F := Ideal) j = 0 := by
  show Ideal.ofBits .f32 0x00000000#32 = 0
  exact Ideal.ofBits_zero_f32

end Cert.KernelIdeal.Tile

end
-- ==== Proof.LibTiles.lean ====
import Mathlib.Algebra.BigOperators.Fin
import Mathlib.Algebra.BigOperators.Intervals
import Mathlib.Logic.Equiv.Fin.Basic

/-!
# Tiled sums over a square matrix

An `8192 × 8192` matrix is cut into a `16 × 16` grid of tiles, each `512 × 512`.
Entry `p` of slab `i` is sample number `512 * i + p`. The sum of all entries strictly
below the matrix diagonal can be computed tile by tile, visiting only the tiles on or
below the block diagonal (block row `i ≥` block column `j`) and, inside each visited
tile, summing the entries strictly below the matrix diagonal: a tile strictly above the
block diagonal holds no entry below the matrix diagonal. All of this is reindexing of a
finite sum in a commutative additive monoid.

Also: a running accumulator over a walk of `N` points that adds `f t` exactly at the
points `t` satisfying a condition equals the conditional partial sum; and the sum over
`256` points numbered row-major on a `16 × 16` grid is the double sum over the grid.
-/

namespace LibTiles

open Finset

/-- The number of entry p of slab i among the 8192 samples. -/
def samp (i : Fin 16) (p : Fin 512) : Fin 8192 := ⟨512 * i.val + p.val, by omega⟩

/-- Sample numbering is the standard bijection between (slab, entry) pairs and samples. -/
def sampEquiv : Fin 16 × Fin 512 ≃ Fin 8192 := finProdFinEquiv

theorem sampEquiv_apply (x : Fin 16 × Fin 512) : sampEquiv x = samp x.1 x.2 := by
  apply Fin.ext
  change x.2.val + 512 * x.1.val = 512 * x.1.val + x.2.val
  omega

/-- Summing any function of a pair of samples over all tiles and all positions inside a
tile is summing it over all pairs of samples. -/
theorem sum_grid {M : Type*} [AddCommMonoid M] (F : Fin 8192 → Fin 8192 → M) :
    ∑ i : Fin 16, ∑ j : Fin 16, ∑ p : Fin 512, ∑ q : Fin 512, F (samp i p) (samp j q)
      = ∑ pr : Fin 8192 × Fin 8192, F pr.1 pr.2 := by
  calc ∑ i : Fin 16, ∑ j : Fin 16, ∑ p : Fin 512, ∑ q : Fin 512, F (samp i p) (samp j q)
      = ∑ i : Fin 16, ∑ p : Fin 512, ∑ j : Fin 16, ∑ q : Fin 512, F (samp i p) (samp j q) :=
        Finset.sum_congr rfl fun i _ => Finset.sum_comm
    _ = ∑ x : Fin 16 × Fin 512, ∑ y : Fin 16 × Fin 512, F (samp x.1 x.2) (samp y.1 y.2) := by
        simp only [Fintype.sum_prod_type]
    _ = ∑ x : Fin 16 × Fin 512, ∑ y : Fin 16 × Fin 512, F (sampEquiv x) (sampEquiv y) := by
        simp only [sampEquiv_apply]
    _ = ∑ a : Fin 8192, ∑ y : Fin 16 × Fin 512, F a (sampEquiv y) :=
        Equiv.sum_comp sampEquiv (fun a => ∑ y : Fin 16 × Fin 512, F a (sampEquiv y))
    _ = ∑ a : Fin 8192, ∑ b : Fin 8192, F a b :=
        Finset.sum_congr rfl fun a _ => Equiv.sum_comp sampEquiv (fun b => F a b)
    _ = ∑ pr : Fin 8192 × Fin 8192, F pr.1 pr.2 := (Fintype.sum_prod_type' F).symm

/-- A tile strictly above the block diagonal holds no entry below the matrix diagonal. -/
theorem not_below_of_block_above {i j : Fin 16} (h : ¬ j ≤ i) (p q : Fin 512) :
    ¬ samp j q < samp i p := by
  have h' : i.val < j.val := by
    rw [Fin.le_def] at h
    omega
  rw [Fin.lt_def]
  simp only [samp]
  omega

theorem sum_tiles {M : Type*} [AddCommMonoid M] (g : Fin 8192 → Fin 8192 → M) :
    ∑ i : Fin 16, ∑ j : Fin 16, (if j ≤ i then ∑ p : Fin 512, ∑ q : Fin 512, (if samp j q < samp i p then g (samp i p) (samp j q) else 0) else 0)
      = ∑ pr : Fin 8192 × Fin 8192, (if pr.2 < pr.1 then g pr.1 pr.2 else 0) := by
  have key : ∀ i j : Fin 16,
      (if j ≤ i then ∑ p : Fin 512, ∑ q : Fin 512,
          (if samp j q < samp i p then g (samp i p) (samp j q) else 0) else 0)
        = ∑ p : Fin 512, ∑ q : Fin 512,
          (if samp j q < samp i p then g (samp i p) (samp j q) else 0) := by
    intro i j
    by_cases h : j ≤ i
    · rw [if_pos h]
    · rw [if_neg h]
      symm
      refine Finset.sum_eq_zero fun p _ => Finset.sum_eq_zero fun q _ => ?_
      rw [if_neg (not_below_of_block_above h p q)]
  simp only [key]
  exact sum_grid (fun a b => if b < a then g a b else 0)

theorem fold_points (N : ℕ) (c : ℕ → Prop) [DecidablePred c] {M : Type*} [AddCommMonoid M] (f acc : ℕ → M) (hc0 : c 0) (h0 : acc 0 = f 0)
    (hs : ∀ n, n + 1 < N → acc (n + 1) = if c (n + 1) then acc n + f (n + 1) else acc n) :
    ∀ n, n < N → acc n = ∑ t ∈ Finset.range (n + 1), (if c t then f t else 0) := by
  intro n
  induction n with
  | zero =>
    intro _
    simp [h0, hc0]
  | succ k ih =>
    intro hk
    rw [Finset.sum_range_succ, ← ih (by omega), hs k hk]
    split_ifs <;> simp

theorem sum_points {M : Type*} [AddCommMonoid M] (f : ℕ → ℕ → M) :
    ∑ t ∈ Finset.range 256, f (t / 16) (t % 16) = ∑ i : Fin 16, ∑ j : Fin 16, f i.val j.val := by
  rw [Finset.sum_range, ← Fintype.sum_prod_type']
  refine (Fintype.sum_equiv (finProdFinEquiv (m := 16) (n := 16)) _ _ ?_).symm
  rintro ⟨i, j⟩
  have hi : (j.val + 16 * i.val) / 16 = i.val := by omega
  have hj : (j.val + 16 * i.val) % 16 = j.val := by omega
  simp only [finProdFinEquiv_apply_val, hi, hj]

end LibTiles
-- ==== Proof.Grid.lean ====
import proofs.«149199_j10763188043930_1_alg».proof.Proof.LibTiles
import proofs.«149199_j10763188043930_1_alg».proof.Proof.Spec

/-!
# The walk over the grid of tiles

The `8192 × 8192` pairs are cut into a `16 × 16` grid of `512 × 512` tiles. `tile g i j` is the sum
of `g` over the entries of tile `(i, j)` strictly below the matrix diagonal, written with a `0/1`
factor. A running sum that visits the `256` grid points `t = 16 i + j` in order and adds the tile's
sum exactly at the points with `j ≤ i` ends at the sum of `g` over all pairs strictly below the
diagonal (`acc_total`).
-/

noncomputable section

namespace Corr.Grid

open Idealize.ShloMosaic

/-- The masked sum of tile `(i, j)`: entries strictly below the matrix diagonal, by a `0/1` factor. -/
def tile (g : Fin 8192 → Fin 8192 → EReal) (i j : Fin 16) : EReal :=
  ∑ p : Fin 512, ∑ q : Fin 512, g (LibTiles.samp i p) (LibTiles.samp j q)
    * (if 512 * j.val + q.val < 512 * i.val + p.val then (1 : EReal) else 0)

/-- Block row of grid point `t`. -/
def row (t : ℕ) : Fin 16 := ⟨t / 16 % 16, Nat.mod_lt _ (by norm_num)⟩

/-- Block column of grid point `t`. -/
def col (t : ℕ) : Fin 16 := ⟨t % 16, Nat.mod_lt _ (by norm_num)⟩

/-- The `0/1` factor is the condition "the column sample comes before the row sample". -/
theorem tile_eq (g : Fin 8192 → Fin 8192 → EReal) (i j : Fin 16) :
    tile g i j = ∑ p : Fin 512, ∑ q : Fin 512,
      (if LibTiles.samp j q < LibTiles.samp i p then g (LibTiles.samp i p) (LibTiles.samp j q)
        else 0) := by
  unfold tile
  refine Finset.sum_congr rfl fun p _ => Finset.sum_congr rfl fun q _ => ?_
  have h : (LibTiles.samp j q < LibTiles.samp i p)
      ↔ (512 * j.val + q.val < 512 * i.val + p.val) := by
    rw [Fin.lt_def]; rfl
  rw [mul_ite, mul_one, mul_zero]
  exact (if_congr h rfl rfl).symm

theorem row_eq (t : ℕ) : row t = col (t / 16) := rfl

theorem col_mod (t : ℕ) : col (t % 16) = col t := by
  apply Fin.ext
  show t % 16 % 16 = t % 16
  exact Nat.mod_mod _ _

theorem col_val (i : Fin 16) : col i.val = i := by
  apply Fin.ext
  show i.val % 16 = i.val
  exact Nat.mod_eq_of_lt i.isLt

/-- A grid point's term, with the block row and column read off `t / 16` and `t % 16`. -/
theorem point_eq (g : Fin 8192 → Fin 8192 → EReal) (t : ℕ) :
    (if col t ≤ row t then tile g (row t) (col t) else 0)
      = (if col (t % 16) ≤ col (t / 16) then tile g (col (t / 16)) (col (t % 16)) else 0) := by
  rw [col_mod]
  rfl

/-- The running sum over the `256` grid points, adding a tile's masked sum at the points on or below
the block diagonal, ends at the sum over all pairs strictly below the diagonal. -/
theorem acc_total (g : Fin 8192 → Fin 8192 → EReal) (acc : ℕ → EReal)
    (h0 : acc 0 = 0 + tile g (row 0) (col 0))
    (hs : ∀ n, n + 1 < 256 → acc (n + 1)
      = if col (n + 1) ≤ row (n + 1) then acc n + tile g (row (n + 1)) (col (n + 1)) else acc n) :
    acc 255 = ∑ pr : Corr.Pair, (if Corr.below pr then g pr.1 pr.2 else 0) := by
  have hfold := LibTiles.fold_points 256 (fun t => col t ≤ row t)
    (fun t => tile g (row t) (col t)) acc (by decide) (by rw [h0, zero_add]) hs 255 (by norm_num)
  have h1 : ∑ t ∈ Finset.range (255 + 1), (if col t ≤ row t then tile g (row t) (col t) else 0)
      = ∑ t ∈ Finset.range 256, (if col (t % 16) ≤ col (t / 16)
          then tile g (col (t / 16)) (col (t % 16)) else 0) :=
    Finset.sum_congr rfl fun t _ => point_eq g t
  have h2 : ∑ t ∈ Finset.range 256, (if col (t % 16) ≤ col (t / 16)
        then tile g (col (t / 16)) (col (t % 16)) else 0)
      = ∑ i : Fin 16, ∑ j : Fin 16,
          (if col j.val ≤ col i.val then tile g (col i.val) (col j.val) else 0) :=
    LibTiles.sum_points (fun a b : ℕ => if col b ≤ col a then tile g (col a) (col b) else 0)
  rw [hfold, h1, h2]
  simp only [col_val, tile_eq]
  exact LibTiles.sum_tiles g

end Corr.Grid

end
-- ==== Proof.KSum.lean ====
/-
  A tile's five masked sums, as the specification's tile sums.

  At the grid point of block row `i` and block column `j` the kernel's six slabs are rows `512 i …` and `512 j …` of
  the three arrays it was handed: the features `X`, the coordinates `C` and the squared-norm column `Qc`. So the
  response similarity of the tile's entry (p, q) is that of samples `512 i + p` and `512 j + q`, likewise the distance
  similarity, and the mask is 1 exactly where the column sample comes before the row sample.
-/
import proofs.«149199_j10763188043930_1_alg».proof.Proof.Tile
import proofs.«149199_j10763188043930_1_alg».proof.Proof.Grid

noncomputable section

namespace Cert.KernelIdeal.KSum

open Cert.KernelIdeal Cert.KernelIdeal.Gen Cert.KernelIdeal.Tile Idealize.ShloMosaic Idealize.ShloMosaic.ValueIdx
open scoped BigOperators

variable (X : S8192x16.Idx → EReal) (C : S8192x2.Idx → EReal) (Qc : S8192x1.Idx → EReal)

/-- The features, coordinates and squared norms by sample and lane. -/
abbrev fX : Fin 8192 → Fin 16 → EReal := fun r k => X (ix2 r k)
abbrev fC : Fin 8192 → Fin 2 → EReal := fun r k => C (ix2 r k)
abbrev fQ : Fin 8192 → EReal := fun r => Qc (ix2 r (0 : Fin 1))

variable (i j : Fin 16)
variable (x13 x16 : FVec Ideal S512x16 .f32) (x19 x22 : FVec Ideal S512x2 .f32) (x25 x28 : FVec Ideal S512x1 .f32)

/-- The point's two mask words: the first sample of the row slab and of the column slab. -/
abbrev wi : BitVec 32 := Scalar.muli (BitVec.ofNat 32 i.val) 512#32
abbrev wj : BitVec 32 := Scalar.muli (BitVec.ofNat 32 j.val) 512#32

section
variable (h13 : ∀ p k, x13 (ix2 p k) = X (ix2 (LibTiles.samp i p) k)) (h16 : ∀ q k, x16 (ix2 q k) = X (ix2 (LibTiles.samp j q) k))
variable (h19 : ∀ p k, x19 (ix2 p k) = C (ix2 (LibTiles.samp i p) k)) (h22 : ∀ q k, x22 (ix2 q k) = C (ix2 (LibTiles.samp j q) k))
variable (h25 : ∀ p, x25 (ix2 p (0 : Fin 1)) = Qc (ix2 (LibTiles.samp i p) (0 : Fin 1)))
variable (h28 : ∀ q, x28 (ix2 q (0 : Fin 1)) = Qc (ix2 (LibTiles.samp j q) (0 : Fin 1)))

include h13 h16 in
/-- The tile's response similarity is the samples'. -/
theorem sim_entry (p q : Fin 512) :
    k0_pay8 (F := Ideal) x13 x16 (ix2 p q) = Corr.sim (fX X) (LibTiles.samp i p) (LibTiles.samp j q) := by
  rw [simTile_apply]
  exact Finset.sum_congr rfl fun k _ => by rw [h13, h16]

include h19 h22 h25 h28 in
/-- The tile's distance similarity is the samples'. -/
theorem dis_entry (p q : Fin 512) :
    k0_pay9 (F := Ideal) x19 x22 x25 x28 (ix2 p q) = Corr.dis (fC C) (fQ Qc) (LibTiles.samp i p) (LibTiles.samp j q) := by
  rw [disTile_apply]
  have hs : sqdTile x19 x22 x25 x28 p q = Corr.sqd (fC C) (fQ Qc) (LibTiles.samp i p) (LibTiles.samp j q) := by
    have hsum : ∑ k : Fin 2, x19 (ix2 p k) * x22 (ix2 q k)
        = ∑ k : Fin 2, fC C (LibTiles.samp i p) k * fC C (LibTiles.samp j q) k :=
      Finset.sum_congr rfl fun k _ => by rw [h19, h22]
    unfold sqdTile Corr.sqd
    rw [h25, h28, hsum]
  rw [hs]
  rfl

include h13 h16 in
/-- Output 0's gain at the point: the tile sum of the response similarity. -/
theorem gainA :
    ∑ p : Fin 512, ∑ q : Fin 512, k0_pay8 (F := Ideal) x13 x16 (ix2 p q) * k0_pay10 (F := Ideal) (wi i) (wj j) (ix2 p q)
      = Corr.Grid.tile (fun r s => Corr.sim (fX X) r s) i j := by
  unfold Corr.Grid.tile
  refine Finset.sum_congr rfl fun p _ => Finset.sum_congr rfl fun q _ => ?_
  rw [sim_entry X i j x13 x16 h13 h16, mask_apply]

include h19 h22 h25 h28 in
/-- Output 1's gain at the point: the tile sum of the distance similarity. -/
theorem gainB :
    ∑ p : Fin 512, ∑ q : Fin 512, k0_pay9 (F := Ideal) x19 x22 x25 x28 (ix2 p q) * k0_pay10 (F := Ideal) (wi i) (wj j) (ix2 p q)
      = Corr.Grid.tile (fun r s => Corr.dis (fC C) (fQ Qc) r s) i j := by
  unfold Corr.Grid.tile
  refine Finset.sum_congr rfl fun p _ => Finset.sum_congr rfl fun q _ => ?_
  rw [dis_entry C Qc i j x19 x22 x25 x28 h19 h22 h25 h28, mask_apply]

include h13 h16 in
/-- Output 2's gain at the point: the tile sum of the squared response similarity. -/
theorem gainA2 :
    ∑ p : Fin 512, ∑ q : Fin 512, k0_pay8 (F := Ideal) x13 x16 (ix2 p q) * k0_pay8 (F := Ideal) x13 x16 (ix2 p q)
        * k0_pay10 (F := Ideal) (wi i) (wj j) (ix2 p q)
      = Corr.Grid.tile (fun r s => Corr.sim (fX X) r s * Corr.sim (fX X) r s) i j := by
  unfold Corr.Grid.tile
  refine Finset.sum_congr rfl fun p _ => Finset.sum_congr rfl fun q _ => ?_
  rw [sim_entry X i j x13 x16 h13 h16, mask_apply]

include h19 h22 h25 h28 in
/-- Output 3's gain at the point: the tile sum of the squared distance similarity. -/
theorem gainB2 :
    ∑ p : Fin 512, ∑ q : Fin 512, k0_pay9 (F := Ideal) x19 x22 x25 x28 (ix2 p q) * k0_pay9 (F := Ideal) x19 x22 x25 x28 (ix2 p q)
        * k0_pay10 (F := Ideal) (wi i) (wj j) (ix2 p q)
      = Corr.Grid.tile (fun r s => Corr.dis (fC C) (fQ Qc) r s * Corr.dis (fC C) (fQ Qc) r s) i j := by
  unfold Corr.Grid.tile
  refine Finset.sum_congr rfl fun p _ => Finset.sum_congr rfl fun q _ => ?_
  rw [dis_entry C Qc i j x19 x22 x25 x28 h19 h22 h25 h28, mask_apply]

include h13 h16 h19 h22 h25 h28 in
/-- Output 4's gain at the point: the tile sum of the product of the two similarities. -/
theorem gainAB :
    ∑ p : Fin 512, ∑ q : Fin 512, k0_pay8 (F := Ideal) x13 x16 (ix2 p q) * k0_pay9 (F := Ideal) x19 x22 x25 x28 (ix2 p q)
        * k0_pay10 (F := Ideal) (wi i) (wj j) (ix2 p q)
      = Corr.Grid.tile (fun r s => Corr.sim (fX X) r s * Corr.dis (fC C) (fQ Qc) r s) i j := by
  unfold Corr.Grid.tile
  refine Finset.sum_congr rfl fun p _ => Finset.sum_congr rfl fun q _ => ?_
  rw [sim_entry X i j x13 x16 h13 h16, dis_entry C Qc i j x19 x22 x25 x28 h19 h22 h25 h28, mask_apply]

end

end Cert.KernelIdeal.KSum

end
-- ==== Proof.KAcc.lean ====
/-
  What the kernel's five outputs hold after the last grid point, at the ideal instance.

  The call's three operands are whole arrays `X` (features), `C` (coordinates) and `Qc` (squared norms, a column); every
  window block is the whole array. At the point `t = 16 i + j` the six slabs the body loads are rows `512 i …` and
  `512 j …` of them. The first point stores zero and adds the first tile's masked sums; a later point with `j ≤ i` adds
  its tile's; the others leave the outputs alone. Hence after the last point each output's one entry is the sum, over all
  pairs of samples below the diagonal, of the corresponding product of similarities.
-/
import proofs.«149199_j10763188043930_1_alg».proof.Proof.Values
import proofs.«149199_j10763188043930_1_alg».proof.Proof.KSum

noncomputable section

namespace Cert.KernelIdeal.KAcc

open Cert.KernelIdeal Cert.KernelIdeal.Gen Idealize.ShloMosaic Idealize.ShloMosaic.ValueIdx Idealize.ShloMosaic.TcCoe
open Idealize.SL.Sem
open Idealize.ShloMosaic.Pipeline (Dat Cfg Window)
open scoped BigOperators

variable (m : (ℓ : Loc nD τ sig) → Buf (Elt Ideal) ℓ) (c : Dev nD)

/-- The three arrays the call reads, as the region finds them. -/
abbrev AX : S8192x16.Idx → EReal := V m c (Pipeline.arrRef spec0 0)
abbrev AC : S8192x2.Idx → EReal := V m c (Pipeline.arrRef spec0 1)
abbrev AQ : S8192x1.Idx → EReal := V m c (Pipeline.arrRef spec0 2)

/-! ## The grid -/

/-- The point `t` is block row `t / 16`, block column `t % 16`. -/
theorem coords_val : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The body's second branch is taken exactly on or below the block diagonal. -/
theorem cond2_iff : ∀ t : Fin cfg0.N, k0_cond2 (grid0.coords t) = 1#1 ↔ t.val % 16 ≤ t.val / 16 % 16 :=
  (by decide +kernel : ∀ t : Fin grid0.N, k0_cond2 (grid0.coords t) = 1#1 ↔ t.val % 16 ≤ t.val / 16 % 16)

/-- Every input window's block is block (0, 0): the whole array. -/
theorem blk_idx : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0))

/-- The block row and block column of a point, as numbers below 16. -/
def pi (t : Fin cfg0.N) : Fin 16 := ⟨(grid0.coords t 0).val, (grid0.coords t 0).isLt⟩
def pj (t : Fin cfg0.N) : Fin 16 := ⟨(grid0.coords t 1).val, (grid0.coords t 1).isLt⟩

theorem pi_eq (t : Fin cfg0.N) : pi t = Corr.Grid.row t.val := by
  have hN : t.val < 256 := lt_of_lt_of_eq t.isLt (show cfg0.N = 256 from N_0)
  apply Fin.ext
  show (grid0.coords t 0).val = t.val / 16 % 16
  rw [(coords_val t).1]; omega

theorem pj_eq (t : Fin cfg0.N) : pj t = Corr.Grid.col t.val := by
  apply Fin.ext
  show (grid0.coords t 1).val = t.val % 16
  exact (coords_val t).2

theorem cond2_grid (t : Fin cfg0.N) : k0_cond2 (grid0.coords t) = 1#1 ↔ Corr.Grid.col t.val ≤ Corr.Grid.row t.val :=
  cond2_iff t

/-! ## The blocks and the slabs -/

/-- Window 0's block at any point is the whole feature array. -/
theorem iblk0_apply (t : Fin cfg0.N) (y : S8192x16.Idx) : (iblk m c 0 t : S8192x16.Idx → EReal) y = AX m c y := by
  unfold iblk
  rw [View.read_apply]
  show V m c (Pipeline.arrRef spec0 0) _ = V m c (Pipeline.arrRef spec0 0) y
  refine congrArg (V m c (Pipeline.arrRef spec0 0)) (funext fun a => Fin.ext ?_)
  match a with
  | ⟨0, _⟩ => show win0_0.index t 0 * 8192 + 1 * (y 0).val = (y 0).val; rw [(blk_idx t).1.1]; omega
  | ⟨1, _⟩ => show win0_0.index t 1 * 16 + 1 * (y 1).val = (y 1).val; rw [(blk_idx t).1.2]; omega

/-- Window 1's block at any point is the whole coordinate array. -/
theorem iblk1_apply (t : Fin cfg0.N) (y : S8192x2.Idx) : (iblk m c 1 t : S8192x2.Idx → EReal) y = AC m c y := by
  unfold iblk
  rw [View.read_apply]
  show V m c (Pipeline.arrRef spec0 1) _ = V m c (Pipeline.arrRef spec0 1) y
  refine congrArg (V m c (Pipeline.arrRef spec0 1)) (funext fun a => Fin.ext ?_)
  match a with
  | ⟨0, _⟩ => show win0_1.index t 0 * 8192 + 1 * (y 0).val = (y 0).val; rw [(blk_idx t).2.1.1]; omega
  | ⟨1, _⟩ => show win0_1.index t 1 * 2 + 1 * (y 1).val = (y 1).val; rw [(blk_idx t).2.1.2]; omega

/-- Window 2's block at any point is the whole squared-norm column. -/
theorem iblk2_apply (t : Fin cfg0.N) (y : S8192x1.Idx) : (iblk m c 2 t : S8192x1.Idx → EReal) y = AQ m c y := by
  unfold iblk
  rw [View.read_apply]
  show V m c (Pipeline.arrRef spec0 2) _ = V m c (Pipeline.arrRef spec0 2) y
  refine congrArg (V m c (Pipeline.arrRef spec0 2)) (funext fun a => Fin.ext ?_)
  match a with
  | ⟨0, _⟩ => show win0_2.index t 0 * 8192 + 1 * (y 0).val = (y 0).val; rw [(blk_idx t).2.2.1]; omega
  | ⟨1, _⟩ => show win0_2.index t 1 * 1 + 1 * (y 1).val = (y 1).val; rw [(blk_idx t).2.2.2]; omega

variable (t : Fin cfg0.N) (h2 : k0_cond2 (grid0.coords t) = 1#1)

/-- The row slab of the features: rows `512 i …`. -/
theorem slab13_rows (p : Fin 512) (k : Fin 16) :
    slab13 (grid0.coords t) h2 (iblk m c 0 t) (ix2 p k) = AX m c (ix2 (LibTiles.samp (pi t) p) k) := by
  show (iblk m c 0 t : S8192x16.Idx → EReal) _ = _
  rw [iblk0_apply]
  refine congrArg (AX m c) (funext fun a => Fin.ext ?_)
  match a with
  | ⟨0, _⟩ => show k0_off1 (grid0.coords t) 0 + 1 * p.val = 512 * (grid0.coords t 0).val + p.val; rw [k0_off1_eq]; show 512 * (grid0.coords t 0).val + 1 * p.val = _; omega
  | ⟨1, _⟩ => show k0_off1 (grid0.coords t) 1 + 1 * k.val = k.val; rw [k0_off1_eq]; show 0 + 1 * k.val = k.val; omega

/-- The column slab of the features: rows `512 j …`. -/
theorem slab16_rows (q : Fin 512) (k : Fin 16) :
    slab16 (grid0.coords t) h2 (iblk m c 0 t) (ix2 q k) = AX m c (ix2 (LibTiles.samp (pj t) q) k) := by
  show (iblk m c 0 t : S8192x16.Idx → EReal) _ = _
  rw [iblk0_apply]
  refine congrArg (AX m c) (funext fun a => Fin.ext ?_)
  match a with
  | ⟨0, _⟩ => show k0_off2 (grid0.coords t) 0 + 1 * q.val = 512 * (grid0.coords t 1).val + q.val; rw [k0_off2_eq]; show 512 * (grid0.coords t 1).val + 1 * q.val = _; omega
  | ⟨1, _⟩ => show k0_off2 (grid0.coords t) 1 + 1 * k.val = k.val; rw [k0_off2_eq]; show 0 + 1 * k.val = k.val; omega

/-- The row slab of the coordinates. -/
theorem slab19_rows (p : Fin 512) (k : Fin 2) :
    slab19 (grid0.coords t) h2 (iblk m c 1 t) (ix2 p k) = AC m c (ix2 (LibTiles.samp (pi t) p) k) := by
  show (iblk m c 1 t : S8192x2.Idx → EReal) _ = _
  rw [iblk1_apply]
  refine congrArg (AC m c) (funext fun a => Fin.ext ?_)
  match a with
  | ⟨0, _⟩ => show k0_off3 (grid0.coords t) 0 + 1 * p.val = 512 * (grid0.coords t 0).val + p.val; rw [k0_off3_eq]; show 512 * (grid0.coords t 0).val + 1 * p.val = _; omega
  | ⟨1, _⟩ => show k0_off3 (grid0.coords t) 1 + 1 * k.val = k.val; rw [k0_off3_eq]; show 0 + 1 * k.val = k.val; omega

/-- The column slab of the coordinates. -/
theorem slab22_rows (q : Fin 512) (k : Fin 2) :
    slab22 (grid0.coords t) h2 (iblk m c 1 t) (ix2 q k) = AC m c (ix2 (LibTiles.samp (pj t) q) k) := by
  show (iblk m c 1 t : S8192x2.Idx → EReal) _ = _
  rw [iblk1_apply]
  refine congrArg (AC m c) (funext fun a => Fin.ext ?_)
  match a with
  | ⟨0, _⟩ => show k0_off4 (grid0.coords t) 0 + 1 * q.val = 512 * (grid0.coords t 1).val + q.val; rw [k0_off4_eq]; show 512 * (grid0.coords t 1).val + 1 * q.val = _; omega
  | ⟨1, _⟩ => show k0_off4 (grid0.coords t) 1 + 1 * k.val = k.val; rw [k0_off4_eq]; show 0 + 1 * k.val = k.val; omega

/-- The row slab of the squared norms. -/
theorem slab25_rows (p : Fin 512) :
    slab25 (grid0.coords t) h2 (iblk m c 2 t) (ix2 p (0 : Fin 1)) = AQ m c (ix2 (LibTiles.samp (pi t) p) (0 : Fin 1)) := by
  show (iblk m c 2 t : S8192x1.Idx → EReal) _ = _
  rw [iblk2_apply]
  refine congrArg (AQ m c) (funext fun a => Fin.ext ?_)
  match a with
  | ⟨0, _⟩ => show k0_off5 (grid0.coords t) 0 + 1 * p.val = 512 * (grid0.coords t 0).val + p.val; rw [k0_off5_eq]; show 512 * (grid0.coords t 0).val + 1 * p.val = _; omega
  | ⟨1, _⟩ => show k0_off5 (grid0.coords t) 1 + 1 * 0 = 0; rw [k0_off5_eq]; rfl

/-- The column slab of the squared norms. -/
theorem slab28_rows (q : Fin 512) :
    slab28 (grid0.coords t) h2 (iblk m c 2 t) (ix2 q (0 : Fin 1)) = AQ m c (ix2 (LibTiles.samp (pj t) q) (0 : Fin 1)) := by
  show (iblk m c 2 t : S8192x1.Idx → EReal) _ = _
  rw [iblk2_apply]
  refine congrArg (AQ m c) (funext fun a => Fin.ext ?_)
  match a with
  | ⟨0, _⟩ => show k0_off6 (grid0.coords t) 0 + 1 * q.val = 512 * (grid0.coords t 1).val + q.val; rw [k0_off6_eq]; show 512 * (grid0.coords t 1).val + 1 * q.val = _; omega
  | ⟨1, _⟩ => show k0_off6 (grid0.coords t) 1 + 1 * 0 = 0; rw [k0_off6_eq]; rfl

/-! ## One grid point -/

/-- The five families summed: the two similarities, their squares and their product, by pair of samples. -/
abbrev gA : Fin 8192 → Fin 8192 → EReal := fun r s => Corr.sim (KSum.fX (AX m c)) r s
abbrev gB : Fin 8192 → Fin 8192 → EReal := fun r s => Corr.dis (KSum.fC (AC m c)) (KSum.fQ (AQ m c)) r s
abbrev gA2 : Fin 8192 → Fin 8192 → EReal := fun r s => gA m c r s * gA m c r s
abbrev gB2 : Fin 8192 → Fin 8192 → EReal := fun r s => gB m c r s * gB m c r s
abbrev gAB : Fin 8192 → Fin 8192 → EReal := fun r s => gA m c r s * gB m c r s

/-- The zero block the first point stores into output 0. -/
theorem zero1 (j : S1x1.Idx) : k0_pay1 (F := Ideal) j = 0 := by
  show Ideal.ofBits .f32 0x00000000#32 = 0
  exact Ideal.ofBits_zero_f32
/-- The zero block the first point stores into output 1. -/
theorem zero2 (j : S1x1.Idx) : k0_pay2 (F := Ideal) j = 0 := by
  show Ideal.ofBits .f32 0x00000000#32 = 0
  exact Ideal.ofBits_zero_f32
/-- The zero block the first point stores into output 2. -/
theorem zero3 (j : S1x1.Idx) : k0_pay3 (F := Ideal) j = 0 := by
  show Ideal.ofBits .f32 0x00000000#32 = 0
  exact Ideal.ofBits_zero_f32
/-- The zero block the first point stores into output 3. -/
theorem zero4 (j : S1x1.Idx) : k0_pay4 (F := Ideal) j = 0 := by
  show Ideal.ofBits .f32 0x00000000#32 = 0
  exact Ideal.ofBits_zero_f32
/-- The zero block the first point stores into output 4. -/
theorem zero5 (j : S1x1.Idx) : k0_pay5 (F := Ideal) j = 0 := by
  show Ideal.ofBits .f32 0x00000000#32 = 0
  exact Ideal.ofBits_zero_f32

include h2 in
/-- At the first point output 0 ends at zero plus the first tile's masked sum of the response similarity. -/
theorem pointA_0 (h1 : k0_cond1 (grid0.coords t) = 1#1) (j : S1x1.Idx) :
    (outsAt m c t.val t.isLt).1 j = 0 + Corr.Grid.tile (gA m c) (pi t) (pj t) := by
  rw [outsAt_A m c t h1 h2]
  dsimp only
  rw [outA_3_eq, Tile.accA_eq]
  show k0_pay1 (F := Ideal) j + _ = _
  rw [zero1]
  exact congrArg (0 + ·) (KSum.gainA (AX m c) (pi t) (pj t) _ _ (slab13_rows m c t h2) (slab16_rows m c t h2))

include h2 in
/-- At a later point on or below the block diagonal output 0 gains the tile's masked sum of the response similarity. -/
theorem pointB_0 (h1 : ¬k0_cond1 (grid0.coords t) = 1#1) (j : S1x1.Idx) :
    (outsAt m c t.val t.isLt).1 j
      = (outsAt m c (t.val - 1) (Nat.lt_of_le_of_lt (Nat.sub_le _ _) t.isLt)).1 j + Corr.Grid.tile (gA m c) (pi t) (pj t) := by
  rw [outsAt_B m c t h1 h2]
  dsimp only
  rw [outB_3_eq, Tile.accA_eq]
  exact congrArg (_ + ·) (KSum.gainA (AX m c) (pi t) (pj t) _ _ (slab13_rows m c t h2) (slab16_rows m c t h2))

include h2 in
/-- At the first point output 1 ends at zero plus the first tile's masked sum of the distance similarity. -/
theorem pointA_1 (h1 : k0_cond1 (grid0.coords t) = 1#1) (j : S1x1.Idx) :
    (outsAt m c t.val t.isLt).2.1 j = 0 + Corr.Grid.tile (gB m c) (pi t) (pj t) := by
  rw [outsAt_A m c t h1 h2]
  dsimp only
  rw [outA_4_eq, Tile.accB_eq]
  show k0_pay2 (F := Ideal) j + _ = _
  rw [zero2]
  exact congrArg (0 + ·) (KSum.gainB (AC m c) (AQ m c) (pi t) (pj t) _ _ _ _ (slab19_rows m c t h2) (slab22_rows m c t h2) (slab25_rows m c t h2) (slab28_rows m c t h2))

include h2 in
/-- At a later point on or below the block diagonal output 1 gains the tile's masked sum of the distance similarity. -/
theorem pointB_1 (h1 : ¬k0_cond1 (grid0.coords t) = 1#1) (j : S1x1.Idx) :
    (outsAt m c t.val t.isLt).2.1 j
      = (outsAt m c (t.val - 1) (Nat.lt_of_le_of_lt (Nat.sub_le _ _) t.isLt)).2.1 j + Corr.Grid.tile (gB m c) (pi t) (pj t) := by
  rw [outsAt_B m c t h1 h2]
  dsimp only
  rw [outB_4_eq, Tile.accB_eq]
  exact congrArg (_ + ·) (KSum.gainB (AC m c) (AQ m c) (pi t) (pj t) _ _ _ _ (slab19_rows m c t h2) (slab22_rows m c t h2) (slab25_rows m c t h2) (slab28_rows m c t h2))

include h2 in
/-- At the first point output 2 ends at zero plus the first tile's masked sum of the squared response similarity. -/
theorem pointA_2 (h1 : k0_cond1 (grid0.coords t) = 1#1) (j : S1x1.Idx) :
    (outsAt m c t.val t.isLt).2.2.1 j = 0 + Corr.Grid.tile (gA2 m c) (pi t) (pj t) := by
  rw [outsAt_A m c t h1 h2]
  dsimp only
  rw [outA_5_eq, Tile.accA2_eq]
  show k0_pay3 (F := Ideal) j + _ = _
  rw [zero3]
  exact congrArg (0 + ·) (KSum.gainA2 (AX m c) (pi t) (pj t) _ _ (slab13_rows m c t h2) (slab16_rows m c t h2))

include h2 in
/-- At a later point on or below the block diagonal output 2 gains the tile's masked sum of the squared response similarity. -/
theorem pointB_2 (h1 : ¬k0_cond1 (grid0.coords t) = 1#1) (j : S1x1.Idx) :
    (outsAt m c t.val t.isLt).2.2.1 j
      = (outsAt m c (t.val - 1) (Nat.lt_of_le_of_lt (Nat.sub_le _ _) t.isLt)).2.2.1 j + Corr.Grid.tile (gA2 m c) (pi t) (pj t) := by
  rw [outsAt_B m c t h1 h2]
  dsimp only
  rw [outB_5_eq, Tile.accA2_eq]
  exact congrArg (_ + ·) (KSum.gainA2 (AX m c) (pi t) (pj t) _ _ (slab13_rows m c t h2) (slab16_rows m c t h2))

include h2 in
/-- At the first point output 3 ends at zero plus the first tile's masked sum of the squared distance similarity. -/
theorem pointA_3 (h1 : k0_cond1 (grid0.coords t) = 1#1) (j : S1x1.Idx) :
    (outsAt m c t.val t.isLt).2.2.2.1 j = 0 + Corr.Grid.tile (gB2 m c) (pi t) (pj t) := by
  rw [outsAt_A m c t h1 h2]
  dsimp only
  rw [outA_6_eq, Tile.accB2_eq]
  show k0_pay4 (F := Ideal) j + _ = _
  rw [zero4]
  exact congrArg (0 + ·) (KSum.gainB2 (AC m c) (AQ m c) (pi t) (pj t) _ _ _ _ (slab19_rows m c t h2) (slab22_rows m c t h2) (slab25_rows m c t h2) (slab28_rows m c t h2))

include h2 in
/-- At a later point on or below the block diagonal output 3 gains the tile's masked sum of the squared distance similarity. -/
theorem pointB_3 (h1 : ¬k0_cond1 (grid0.coords t) = 1#1) (j : S1x1.Idx) :
    (outsAt m c t.val t.isLt).2.2.2.1 j
      = (outsAt m c (t.val - 1) (Nat.lt_of_le_of_lt (Nat.sub_le _ _) t.isLt)).2.2.2.1 j + Corr.Grid.tile (gB2 m c) (pi t) (pj t) := by
  rw [outsAt_B m c t h1 h2]
  dsimp only
  rw [outB_6_eq, Tile.accB2_eq]
  exact congrArg (_ + ·) (KSum.gainB2 (AC m c) (AQ m c) (pi t) (pj t) _ _ _ _ (slab19_rows m c t h2) (slab22_rows m c t h2) (slab25_rows m c t h2) (slab28_rows m c t h2))

include h2 in
/-- At the first point output 4 ends at zero plus the first tile's masked sum of the product of the two similarities. -/
theorem pointA_4 (h1 : k0_cond1 (grid0.coords t) = 1#1) (j : S1x1.Idx) :
    (outsAt m c t.val t.isLt).2.2.2.2 j = 0 + Corr.Grid.tile (gAB m c) (pi t) (pj t) := by
  rw [outsAt_A m c t h1 h2]
  dsimp only
  rw [outA_7_eq, Tile.accAB_eq]
  show k0_pay5 (F := Ideal) j + _ = _
  rw [zero5]
  exact congrArg (0 + ·) (KSum.gainAB (AX m c) (AC m c) (AQ m c) (pi t) (pj t) _ _ _ _ _ _ (slab13_rows m c t h2) (slab16_rows m c t h2) (slab19_rows m c t h2) (slab22_rows m c t h2) (slab25_rows m c t h2) (slab28_rows m c t h2))

include h2 in
/-- At a later point on or below the block diagonal output 4 gains the tile's masked sum of the product of the two similarities. -/
theorem pointB_4 (h1 : ¬k0_cond1 (grid0.coords t) = 1#1) (j : S1x1.Idx) :
    (outsAt m c t.val t.isLt).2.2.2.2 j
      = (outsAt m c (t.val - 1) (Nat.lt_of_le_of_lt (Nat.sub_le _ _) t.isLt)).2.2.2.2 j + Corr.Grid.tile (gAB m c) (pi t) (pj t) := by
  rw [outsAt_B m c t h1 h2]
  dsimp only
  rw [outB_7_eq, Tile.accAB_eq]
  exact congrArg (_ + ·) (KSum.gainAB (AX m c) (AC m c) (AQ m c) (pi t) (pj t) _ _ _ _ _ _ (slab13_rows m c t h2) (slab16_rows m c t h2) (slab19_rows m c t h2) (slab22_rows m c t h2) (slab25_rows m c t h2) (slab28_rows m c t h2))

/-! ## All the points -/

omit t h2 in
/-- A running sum that starts at zero plus the first tile's sum, gains a tile's sum at each later point on or below the
    block diagonal and is kept at the others ends at the sum over all pairs below the diagonal. -/
theorem total_of (pr : Outs Ideal → Vec Ideal S1x1 .f32) (g : Fin 8192 → Fin 8192 → EReal)
    (hA : ∀ (t : Fin cfg0.N) (h2 : k0_cond2 (grid0.coords t) = 1#1) (h1 : k0_cond1 (grid0.coords t) = 1#1) (j : S1x1.Idx),
      pr (outsAt m c t.val t.isLt) j = 0 + Corr.Grid.tile g (pi t) (pj t))
    (hB : ∀ (t : Fin cfg0.N) (h2 : k0_cond2 (grid0.coords t) = 1#1) (h1 : ¬k0_cond1 (grid0.coords t) = 1#1) (j : S1x1.Idx),
      pr (outsAt m c t.val t.isLt) j
        = pr (outsAt m c (t.val - 1) (Nat.lt_of_le_of_lt (Nat.sub_le _ _) t.isLt)) j + Corr.Grid.tile g (pi t) (pj t))
    (h255 : 255 < cfg0.N) (j : S1x1.Idx) :
    pr (outsAt m c 255 h255) j = ∑ p : Corr.Pair, (if Corr.below p then g p.1 p.2 else 0) := by
  have hN : cfg0.N = 256 := N_0
  let acc : ℕ → EReal := fun n => if hn : n < cfg0.N then pr (outsAt m c n hn) j else 0
  have h0 : acc 0 = 0 + Corr.Grid.tile g (Corr.Grid.row 0) (Corr.Grid.col 0) := by
    have h0N : 0 < cfg0.N := by omega
    show (if hn : 0 < cfg0.N then pr (outsAt m c 0 hn) j else 0) = _
    rw [dif_pos h0N]
    have h1 := (cond1_iff (⟨0, h0N⟩ : Fin cfg0.N)).mpr rfl
    have h2 := cond2_first (⟨0, h0N⟩ : Fin cfg0.N) rfl
    rw [← pi_eq (⟨0, h0N⟩ : Fin cfg0.N), ← pj_eq (⟨0, h0N⟩ : Fin cfg0.N)]
    exact hA ⟨0, h0N⟩ h2 h1 j
  have hs : ∀ n, n + 1 < 256 → acc (n + 1) = if Corr.Grid.col (n + 1) ≤ Corr.Grid.row (n + 1)
      then acc n + Corr.Grid.tile g (Corr.Grid.row (n + 1)) (Corr.Grid.col (n + 1)) else acc n := by
    intro n hn
    have hn1 : n + 1 < cfg0.N := by omega
    have hn0 : n < cfg0.N := by omega
    show (if h : n + 1 < cfg0.N then pr (outsAt m c (n + 1) h) j else 0) = if _ then (if h : n < cfg0.N then pr (outsAt m c n h) j else 0) + _ else (if h : n < cfg0.N then pr (outsAt m c n h) j else 0)
    rw [dif_pos hn1, dif_pos hn0]
    have h1 : ¬k0_cond1 (grid0.coords (⟨n + 1, hn1⟩ : Fin cfg0.N)) = 1#1 := fun h =>
      Nat.succ_ne_zero n ((cond1_iff (⟨n + 1, hn1⟩ : Fin cfg0.N)).mp h)
    by_cases h2 : k0_cond2 (grid0.coords (⟨n + 1, hn1⟩ : Fin cfg0.N)) = 1#1
    · rw [if_pos ((cond2_grid (⟨n + 1, hn1⟩ : Fin cfg0.N)).mp h2), ← pi_eq (⟨n + 1, hn1⟩ : Fin cfg0.N), ← pj_eq (⟨n + 1, hn1⟩ : Fin cfg0.N)]
      exact hB ⟨n + 1, hn1⟩ h2 h1 j
    · rw [if_neg (fun h => h2 ((cond2_grid (⟨n + 1, hn1⟩ : Fin cfg0.N)).mpr h))]
      exact congrArg (fun o => pr o j) (outsAt_C m c ⟨n + 1, hn1⟩ h1 h2)
  have := Corr.Grid.acc_total g acc h0 hs
  show pr (outsAt m c 255 h255) j = _
  rw [← this]
  show _ = (if hn : 255 < cfg0.N then pr (outsAt m c 255 hn) j else 0)
  rw [dif_pos h255]

omit t h2 in
/-- After the last point output 0's entry is the sum over the pairs below the diagonal of the response similarity. -/
theorem total_0 (h255 : 255 < cfg0.N) (j : S1x1.Idx) :
    (outsAt m c 255 h255).1 j = ∑ p : Corr.Pair, (if Corr.below p then gA m c p.1 p.2 else 0) :=
  total_of m c (fun o => o.1) (gA m c) (fun t h2 h1 j => pointA_0 m c t h2 h1 j) (fun t h2 h1 j => pointB_0 m c t h2 h1 j) h255 j

omit t h2 in
/-- After the last point output 1's entry is the sum over the pairs below the diagonal of the distance similarity. -/
theorem total_1 (h255 : 255 < cfg0.N) (j : S1x1.Idx) :
    (outsAt m c 255 h255).2.1 j = ∑ p : Corr.Pair, (if Corr.below p then gB m c p.1 p.2 else 0) :=
  total_of m c (fun o => o.2.1) (gB m c) (fun t h2 h1 j => pointA_1 m c t h2 h1 j) (fun t h2 h1 j => pointB_1 m c t h2 h1 j) h255 j

omit t h2 in
/-- After the last point output 2's entry is the sum over the pairs below the diagonal of the squared response similarity. -/
theorem total_2 (h255 : 255 < cfg0.N) (j : S1x1.Idx) :
    (outsAt m c 255 h255).2.2.1 j = ∑ p : Corr.Pair, (if Corr.below p then gA2 m c p.1 p.2 else 0) :=
  total_of m c (fun o => o.2.2.1) (gA2 m c) (fun t h2 h1 j => pointA_2 m c t h2 h1 j) (fun t h2 h1 j => pointB_2 m c t h2 h1 j) h255 j

omit t h2 in
/-- After the last point output 3's entry is the sum over the pairs below the diagonal of the squared distance similarity. -/
theorem total_3 (h255 : 255 < cfg0.N) (j : S1x1.Idx) :
    (outsAt m c 255 h255).2.2.2.1 j = ∑ p : Corr.Pair, (if Corr.below p then gB2 m c p.1 p.2 else 0) :=
  total_of m c (fun o => o.2.2.2.1) (gB2 m c) (fun t h2 h1 j => pointA_3 m c t h2 h1 j) (fun t h2 h1 j => pointB_3 m c t h2 h1 j) h255 j

omit t h2 in
/-- After the last point output 4's entry is the sum over the pairs below the diagonal of the product of the two similarities. -/
theorem total_4 (h255 : 255 < cfg0.N) (j : S1x1.Idx) :
    (outsAt m c 255 h255).2.2.2.2 j = ∑ p : Corr.Pair, (if Corr.below p then gAB m c p.1 p.2 else 0) :=
  total_of m c (fun o => o.2.2.2.2) (gAB m c) (fun t h2 h1 j => pointA_4 m c t h2 h1 j) (fun t h2 h1 j => pointB_4 m c t h2 h1 j) h255 j

end Cert.KernelIdeal.KAcc

end
-- ==== Proof.Prefix.lean ====
/-
  What the kernel call is handed. Before the call the kernel's program gathers the sampled feature columns and
  coordinate rows, centres and normalises each sample's features, and sums each sample's squared coordinates: the
  same operations, on the same arguments, as the reference's first lines. So the three arrays the call reads are the
  reference's stages: the row-normalised features, the gathered coordinates, and the squared norms stood up as a column.
-/
import proofs.«149199_j10763188043930_1_alg».proof.Proof.Gen.KernelIdeal.Frame
import proofs.«149199_j10763188043930_1_alg».proof.Proof.ReadP
import Idealize.ShloMosaic.Lib.StableHlo.Run

noncomputable section

namespace Cert.KernelIdeal.Prefix

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

set_option maxRecDepth 65536 in
set_option maxHeartbeats 16000000 in
/-- The call's first operand is the reference's row-normalised feature array of the same arguments. -/
theorem V_feat (c : Dev nD) :
    (V m c main_v27 : S8192x16.Idx → EReal)
      = Cert.ReferenceIdeal.ReadP.val_main_v49 (F := Ideal) (m ((c : Thread nD τ).loc main_arg0)) (m ((c : Thread nD τ).loc main_arg2)) := by
  dsimp only [V, V0]
  simp only [hostOps0, List.flatten_cons, List.flatten_nil, List.append_nil]
  after_results_simp
  rfl

set_option maxRecDepth 65536 in
set_option maxHeartbeats 16000000 in
/-- The call's second operand is the reference's gathered coordinate array. -/
theorem V_coord (c : Dev nD) :
    (V m c main_v14 : S8192x2.Idx → EReal)
      = Cert.ReferenceIdeal.ReadP.val_main_v14 (F := Ideal) (m ((c : Thread nD τ).loc main_arg1)) (m ((c : Thread nD τ).loc main_arg2)) := by
  dsimp only [V, V0]
  simp only [hostOps0, List.flatten_cons, List.flatten_nil, List.append_nil]
  after_results_simp
  rfl

set_option maxRecDepth 65536 in
set_option maxHeartbeats 16000000 in
/-- The call's third operand is the reference's squared norms as a column. -/
theorem V_sqn (c : Dev nD) :
    (V m c main_v30 : S8192x1.Idx → EReal)
      = Cert.ReferenceIdeal.ReadP.val_main_v17 (F := Ideal) (m ((c : Thread nD τ).loc main_arg1)) (m ((c : Thread nD τ).loc main_arg2)) := by
  dsimp only [V, V0]
  simp only [hostOps0, List.flatten_cons, List.flatten_nil, List.append_nil]
  after_results_simp
  rfl

end Cert.KernelIdeal.Prefix

end
-- ==== Proof.LibPearson.lean ====
import Idealize.ShloMosaic.PureOps.Ideal
import Mathlib.Algebra.BigOperators.Intervals

/-!
# A Pearson correlation from moment sums, on the extended reals

Two families `a` (extended reals) and `b` (positive reals) over a masked index set of
positive size `cnt`. `pearson_eq`: the correlation computed from the five moment sums
`Σa, Σb, Σa², Σb², Σab` equals the correlation computed from the centred values, for every
`a` — infinite entries included. `card_strict_lower`: the number of pairs `(r, s)` with
`s < r < 8192`.
-/

noncomputable section

namespace LibPearson

open Idealize.ShloMosaic

section Basics
variable {ι : Type*}

/-- The coercion of a finite real sum is the sum of the coercions. -/
theorem coe_sum (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum whose terms are (on `s`) coercions of reals is the coercion of the real sum. -/
theorem sum_coe_congr (s : Finset ι) (f : ι → EReal) (g : ι → ℝ)
    (h : ∀ i ∈ s, f i = (g i : EReal)) :
    ∑ i ∈ s, f i = ((∑ i ∈ s, g i : ℝ) : EReal) := by
  rw [Finset.sum_congr rfl h, coe_sum]

/-- A finite sum with a `⊥` term is `⊥`. -/
theorem sum_eq_bot (s : Finset ι) (f : ι → EReal) (h : ∃ i ∈ s, f i = ⊥) :
    ∑ i ∈ s, f i = ⊥ := by
  classical
  obtain ⟨i, hi, hf⟩ := h
  rw [← Finset.add_sum_erase s f hi, hf, EReal.bot_add]

/-- A finite sum with no `⊥` term is not `⊥`. -/
theorem sum_ne_bot (s : Finset ι) (f : ι → EReal) (h : ∀ i ∈ s, f i ≠ ⊥) :
    ∑ i ∈ s, f i ≠ ⊥ := by
  classical
  induction s using Finset.induction_on with
  | empty => simp
  | insert i s hi ih =>
    rw [Finset.sum_insert hi]
    intro hbot
    rcases EReal.add_eq_bot_iff.mp hbot with h1 | h1
    · exact h i (Finset.mem_insert_self i s) h1
    · exact ih (fun j hj => h j (Finset.mem_insert_of_mem hj)) h1

/-- A finite sum with no `⊥` term and a `⊤` term is `⊤`. -/
theorem sum_eq_top (s : Finset ι) (f : ι → EReal) (hnb : ∀ i ∈ s, f i ≠ ⊥)
    (h : ∃ i ∈ s, f i = ⊤) : ∑ i ∈ s, f i = ⊤ := by
  classical
  obtain ⟨i, hi, hf⟩ := h
  rw [← Finset.add_sum_erase s f hi, hf]
  exact EReal.top_add_of_ne_bot
    (sum_ne_bot _ _ (fun j hj => hnb j (Finset.mem_of_mem_erase hj)))

/-- An infinity times a positive real is itself. -/
theorem inf_mul_pos {T : EReal} (hT : T = ⊥ ∨ T = ⊤) {r : ℝ} (hr : 0 < r) :
    T * (r : EReal) = T := by
  rcases hT with rfl | rfl
  · exact EReal.bot_mul_of_pos (EReal.coe_pos.mpr hr)
  · exact EReal.top_mul_of_pos (EReal.coe_pos.mpr hr)

theorem pos_mul_inf {T : EReal} (hT : T = ⊥ ∨ T = ⊤) {r : ℝ} (hr : 0 < r) :
    (r : EReal) * T = T := by
  rw [mul_comm]; exact inf_mul_pos hT hr

/-- The square of an infinity is `⊤`. -/
theorem inf_mul_self {T : EReal} (hT : T = ⊥ ∨ T = ⊤) : T * T = ⊤ := by
  rcases hT with rfl | rfl
  · exact EReal.bot_mul_bot
  · exact EReal.top_mul_top

/-- An infinity minus itself is `⊥` (`⊤ + ⊥ = ⊥`). -/
theorem inf_sub_self {T : EReal} (hT : T = ⊥ ∨ T = ⊤) : T - T = ⊥ := by
  rcases hT with rfl | rfl
  · exact EReal.bot_sub _
  · exact EReal.sub_top _

/-- Anything minus an infinity is an infinity. -/
theorem sub_inf {T : EReal} (hT : T = ⊥ ∨ T = ⊤) (z : EReal) : z - T = ⊥ ∨ z - T = ⊤ := by
  rcases hT with rfl | rfl
  · by_cases hz : z = ⊥
    · left; rw [hz]; exact EReal.bot_sub _
    · right; exact EReal.sub_bot hz
  · left; exact EReal.sub_top z

/-- A square is never `⊥`. -/
theorem mul_self_ne_bot (z : EReal) : z * z ≠ ⊥ := by
  induction z using EReal.rec with
  | bot => rw [EReal.bot_mul_bot]; exact top_ne_bot
  | coe r => rw [← EReal.coe_mul]; exact EReal.coe_ne_bot _
  | top => rw [EReal.top_mul_top]; exact top_ne_bot

/-- A non-`⊥` value times a positive real is not `⊥`. -/
theorem mul_pos_ne_bot {z : EReal} (hz : z ≠ ⊥) {r : ℝ} (hr : 0 < r) : z * (r : EReal) ≠ ⊥ := by
  induction z using EReal.rec with
  | bot => exact absurd rfl hz
  | coe x => rw [← EReal.coe_mul]; exact EReal.coe_ne_bot _
  | top => rw [EReal.top_mul_of_pos (EReal.coe_pos.mpr hr)]; exact top_ne_bot

/-- The centred second moment from the raw moments (reals). -/
theorem real_cov (s : Finset ι) (x y : ι → ℝ) (n : ℝ) (hn : n = (s.card : ℝ)) (hn0 : n ≠ 0) :
    ∑ i ∈ s, (x i - (∑ j ∈ s, x j) * (1 / n)) * (y i - (∑ j ∈ s, y j) * (1 / n))
      = ∑ i ∈ s, x i * y i - n * ((∑ j ∈ s, x j) * (1 / n)) * ((∑ j ∈ s, y j) * (1 / n)) := by
  have h1 : ∀ i, (x i - (∑ j ∈ s, x j) * (1 / n)) * (y i - (∑ j ∈ s, y j) * (1 / n))
      = x i * y i - x i * ((∑ j ∈ s, y j) * (1 / n)) - ((∑ j ∈ s, x j) * (1 / n)) * y i
        + ((∑ j ∈ s, x j) * (1 / n)) * ((∑ j ∈ s, y j) * (1 / n)) := fun i => by ring
  simp only [h1, Finset.sum_add_distrib, Finset.sum_sub_distrib, ← Finset.sum_mul,
    ← Finset.mul_sum, Finset.sum_const, nsmul_eq_mul, ← hn]
  field_simp
  ring

end Basics

section Core
variable {ι : Type*}

/-- The statement over a finite index set `s`: `am`, `bm` stand for the two means. -/
def PearsonEq (s : Finset ι) (a : ι → EReal) (b : ι → ℝ) (cnt : ℝ) (am bm : EReal) : Prop :=
  Ideal.div (∑ i ∈ s, a i * (b i : EReal) - (cnt : EReal) * am * bm)
      (Ideal.sqrt (∑ i ∈ s, a i * a i - (cnt : EReal) * am * am)
        * Ideal.sqrt (∑ i ∈ s, (b i : EReal) * (b i : EReal) - (cnt : EReal) * bm * bm))
    = Ideal.div (∑ i ∈ s, (a i - am) * ((b i : EReal) - bm))
      (Ideal.sqrt (∑ i ∈ s, (a i - am) * (a i - am))
        * Ideal.sqrt (∑ i ∈ s, ((b i : EReal) - bm) * ((b i : EReal) - bm)))

/-- The mean of real values: division by the nonzero real count. -/
theorem mean_coe (s : Finset ι) (x : ι → ℝ) (cnt : ℝ) (hne : cnt ≠ 0) :
    Ideal.div (∑ i ∈ s, (x i : EReal)) (cnt : EReal)
      = (((∑ j ∈ s, x j) * (1 / cnt) : ℝ) : EReal) := by
  rw [← coe_sum, Ideal.div_coe hne, ← EReal.coe_mul]

/-- The moment form of a centred product sum, real values: it is the coercion of the centred sum. -/
theorem cov_kernel_coe (s : Finset ι) (x y : ι → ℝ) (cnt : ℝ) (hcnt : cnt = (s.card : ℝ))
    (hne : cnt ≠ 0) :
    ∑ i ∈ s, (x i : EReal) * (y i : EReal)
        - (cnt : EReal) * (((∑ j ∈ s, x j) * (1 / cnt) : ℝ) : EReal)
          * (((∑ j ∈ s, y j) * (1 / cnt) : ℝ) : EReal)
      = ((∑ i ∈ s, (x i - (∑ j ∈ s, x j) * (1 / cnt)) * (y i - (∑ j ∈ s, y j) * (1 / cnt)) : ℝ) : EReal) := by
  rw [sum_coe_congr s _ (fun i => x i * y i) (fun i _ => (EReal.coe_mul _ _).symm),
    ← EReal.coe_mul, ← EReal.coe_mul, ← EReal.coe_sub, real_cov s x y cnt hcnt hne]

/-- The centred product sum of real values is the coercion of the real one. -/
theorem cov_ref_coe (s : Finset ι) (x y : ι → ℝ) (mx my : ℝ) :
    ∑ i ∈ s, ((x i : EReal) - (mx : EReal)) * ((y i : EReal) - (my : EReal))
      = ((∑ i ∈ s, (x i - mx) * (y i - my) : ℝ) : EReal) :=
  sum_coe_congr s _ _ (fun i _ => by rw [← EReal.coe_sub, ← EReal.coe_sub, ← EReal.coe_mul])

/-- Case 1: every `a i` on `s` is real. Both sides are the same expression of three reals. -/
theorem case1 (s : Finset ι) (a : ι → EReal) (b : ι → ℝ) (cnt : ℝ) (hcnt : cnt = (s.card : ℝ))
    (hne : cnt ≠ 0) (am bm : EReal) (ham : am = Ideal.div (∑ i ∈ s, a i) (cnt : EReal))
    (hbm : bm = Ideal.div (∑ i ∈ s, (b i : EReal)) (cnt : EReal))
    (x : ι → ℝ) (ha : ∀ i ∈ s, a i = (x i : EReal)) : PearsonEq s a b cnt am bm := by
  have e1 : ∑ i ∈ s, a i = ∑ i ∈ s, (x i : EReal) := Finset.sum_congr rfl ha
  have e2 : ∑ i ∈ s, a i * (b i : EReal) = ∑ i ∈ s, (x i : EReal) * (b i : EReal) :=
    Finset.sum_congr rfl (fun i hi => by rw [ha i hi])
  have e3 : ∑ i ∈ s, a i * a i = ∑ i ∈ s, (x i : EReal) * (x i : EReal) :=
    Finset.sum_congr rfl (fun i hi => by rw [ha i hi])
  have e4 : ∀ m m' : EReal, ∑ i ∈ s, (a i - m) * ((b i : EReal) - m')
      = ∑ i ∈ s, ((x i : EReal) - m) * ((b i : EReal) - m') :=
    fun m m' => Finset.sum_congr rfl (fun i hi => by rw [ha i hi])
  have e5 : ∀ m : EReal, ∑ i ∈ s, (a i - m) * (a i - m)
      = ∑ i ∈ s, ((x i : EReal) - m) * ((x i : EReal) - m) :=
    fun m => Finset.sum_congr rfl (fun i hi => by rw [ha i hi])
  have ham' : am = (((∑ j ∈ s, x j) * (1 / cnt) : ℝ) : EReal) := by
    rw [ham, e1, mean_coe s x cnt hne]
  have hbm' : bm = (((∑ j ∈ s, b j) * (1 / cnt) : ℝ) : EReal) := by
    rw [hbm, mean_coe s b cnt hne]
  unfold PearsonEq
  rw [e2, e3, e4, e5, ham', hbm', cov_kernel_coe s x b cnt hcnt hne,
    cov_kernel_coe s x x cnt hcnt hne, cov_kernel_coe s b b cnt hcnt hne,
    cov_ref_coe, cov_ref_coe, cov_ref_coe]

/-- Case 2: the sums `Σa`, `Σab` are one infinity `T` and `Σa²` is `⊤`. With `σ²` the centred
second moment of `b`: both sides are `0` when `σ² > 0` and `⊥` when `σ² = 0`. -/
theorem case2 (s : Finset ι) (hs : s.Nonempty) (a : ι → EReal) (b : ι → ℝ)
    (hb : ∀ i ∈ s, 0 < b i) (cnt : ℝ) (hcnt : cnt = (s.card : ℝ)) (hpos : 0 < cnt)
    (am bm : EReal) (ham : am = Ideal.div (∑ i ∈ s, a i) (cnt : EReal))
    (hbm : bm = Ideal.div (∑ i ∈ s, (b i : EReal)) (cnt : EReal))
    (T : EReal) (hT : T = ⊥ ∨ T = ⊤) (hSa : ∑ i ∈ s, a i = T)
    (hSab : ∑ i ∈ s, a i * (b i : EReal) = T) (hSa2 : ∑ i ∈ s, a i * a i = ⊤) :
    PearsonEq s a b cnt am bm := by
  have hne : cnt ≠ 0 := ne_of_gt hpos
  have hinv : 0 < 1 / cnt := one_div_pos.mpr hpos
  have ham' : am = T := by rw [ham, hSa, Ideal.div_coe hne, inf_mul_pos hT hinv]
  obtain ⟨my, hmy⟩ : ∃ my : ℝ, my = (∑ j ∈ s, b j) * (1 / cnt) := ⟨_, rfl⟩
  have hbm' : bm = (my : EReal) := by rw [hbm, mean_coe s b cnt hne, hmy]
  have hmypos : 0 < my := by rw [hmy]; exact mul_pos (Finset.sum_pos hb hs) hinv
  obtain ⟨σ2, hσ2⟩ : ∃ σ2 : ℝ, σ2 = ∑ i ∈ s, (b i - my) * (b i - my) := ⟨_, rfl⟩
  have hσ : 0 ≤ σ2 := by rw [hσ2]; exact Finset.sum_nonneg (fun i _ => mul_self_nonneg _)
  have hCam : (cnt : EReal) * am = T := by rw [ham', pos_mul_inf hT hpos]
  have hnum : ∑ i ∈ s, a i * (b i : EReal) - (cnt : EReal) * am * bm = ⊥ := by
    rw [hSab, hCam, hbm', inf_mul_pos hT hmypos, inf_sub_self hT]
  have hva : ∑ i ∈ s, a i * a i - (cnt : EReal) * am * am = ⊥ := by
    rw [hSa2, hCam, ham', inf_mul_self hT]; exact EReal.sub_top _
  have hvb : ∑ i ∈ s, (b i : EReal) * (b i : EReal) - (cnt : EReal) * bm * bm = (σ2 : EReal) := by
    rw [hbm', hσ2, hmy]; exact cov_kernel_coe s b b cnt hcnt hne
  have hvar : ∑ i ∈ s, (a i - am) * (a i - am) = ⊤ := by
    rw [ham']
    apply sum_eq_top
    · intro i _; exact mul_self_ne_bot _
    · obtain ⟨i, hi⟩ := hs
      exact ⟨i, hi, inf_mul_self (sub_inf hT (a i))⟩
  have hvbr : ∑ i ∈ s, ((b i : EReal) - bm) * ((b i : EReal) - bm) = (σ2 : EReal) := by
    rw [hbm', hσ2]; exact cov_ref_coe s b b my my
  unfold PearsonEq
  rw [hnum, hva, hvb, hvar, hvbr, Ideal.sqrt_bot, Ideal.sqrt_top, Ideal.sqrt_coe,
    if_neg (not_lt.mpr hσ)]
  rcases hσ.eq_or_lt with h0 | hp
  · have hN : ∑ i ∈ s, (a i - am) * ((b i : EReal) - bm) = 0 := by
      apply Finset.sum_eq_zero
      intro i hi
      have h1 : (b i - my) * (b i - my) = 0 :=
        (Finset.sum_eq_zero_iff_of_nonneg (fun i _ => mul_self_nonneg _)).mp
          (hσ2.symm.trans h0.symm) i hi
      have hbi : b i - my = 0 := mul_self_eq_zero.mp h1
      rw [hbm', ← EReal.coe_sub, hbi, EReal.coe_zero, mul_zero]
    rw [hN, ← h0, Real.sqrt_zero, EReal.coe_zero, mul_zero, mul_zero]
    simp [Ideal.div]
  · have hsq : 0 < Real.sqrt σ2 := Real.sqrt_pos.mpr hp
    rw [inf_mul_pos (Or.inl rfl) hsq, inf_mul_pos (Or.inr rfl) hsq]
    simp [Ideal.div]

/-- The statement over a finite index set, for every `a`. -/
theorem pearson_core (s : Finset ι) (a : ι → EReal) (b : ι → ℝ) (hb : ∀ i ∈ s, 0 < b i)
    (cnt : ℝ) (hcnt : cnt = (s.card : ℝ)) (hpos : 0 < cnt)
    (am bm : EReal) (ham : am = Ideal.div (∑ i ∈ s, a i) (cnt : EReal))
    (hbm : bm = Ideal.div (∑ i ∈ s, (b i : EReal)) (cnt : EReal)) :
    PearsonEq s a b cnt am bm := by
  classical
  have hne : cnt ≠ 0 := ne_of_gt hpos
  have hs : s.Nonempty := by
    rw [← Finset.card_pos]
    have h : (0 : ℝ) < (s.card : ℝ) := hcnt ▸ hpos
    exact_mod_cast h
  by_cases hfin : ∀ i ∈ s, a i ≠ ⊥ ∧ a i ≠ ⊤
  · exact case1 s a b cnt hcnt hne am bm ham hbm (fun i => (a i).toReal)
      (fun i hi => (EReal.coe_toReal (hfin i hi).2 (hfin i hi).1).symm)
  · push Not at hfin
    obtain ⟨i1, hi1, h1⟩ := hfin
    by_cases hbot : ∃ i ∈ s, a i = ⊥
    · obtain ⟨i0, hi0, h0⟩ := hbot
      apply case2 s hs a b hb cnt hcnt hpos am bm ham hbm ⊥ (Or.inl rfl)
      · exact sum_eq_bot _ _ ⟨i0, hi0, h0⟩
      · exact sum_eq_bot _ _ ⟨i0, hi0, by
          rw [h0]; exact EReal.bot_mul_of_pos (EReal.coe_pos.mpr (hb i0 hi0))⟩
      · exact sum_eq_top _ _ (fun i _ => mul_self_ne_bot _)
          ⟨i0, hi0, by rw [h0]; exact EReal.bot_mul_bot⟩
    · push Not at hbot
      have h1' : a i1 = ⊤ := h1 (hbot i1 hi1)
      apply case2 s hs a b hb cnt hcnt hpos am bm ham hbm ⊤ (Or.inr rfl)
      · exact sum_eq_top _ _ hbot ⟨i1, hi1, h1'⟩
      · exact sum_eq_top _ _ (fun i hi => mul_pos_ne_bot (hbot i hi) (hb i hi))
          ⟨i1, hi1, by rw [h1']; exact EReal.top_mul_of_pos (EReal.coe_pos.mpr (hb i1 hi1))⟩
      · exact sum_eq_top _ _ (fun i _ => mul_self_ne_bot _)
          ⟨i1, hi1, by rw [h1']; exact EReal.top_mul_top⟩

end Core

section Main

theorem ite_mul_ite (p : Prop) [Decidable p] (u v : EReal) :
    (if p then u else 0) * (if p then v else 0) = if p then u * v else 0 := by
  split_ifs <;> simp

theorem pearson_eq {ι : Type*} [Fintype ι] (μ : ι → Prop) [DecidablePred μ] (a : ι → EReal) (b : ι → ℝ) (hb : ∀ i, 0 < b i) (cnt : ℝ) (hcnt : cnt = ((Finset.univ.filter μ).card : ℝ)) (hpos : 0 < cnt) :
    let C : EReal := (cnt : EReal)
    let Sa := ∑ i, (if μ i then a i else 0)
    let Sb := ∑ i, (if μ i then (b i : EReal) else 0)
    let Sa2 := ∑ i, (if μ i then a i * a i else 0)
    let Sb2 := ∑ i, (if μ i then (b i : EReal) * (b i : EReal) else 0)
    let Sab := ∑ i, (if μ i then a i * (b i : EReal) else 0)
    let am := Ideal.div Sa C
    let bm := Ideal.div Sb C
    let ac : ι → EReal := fun i => if μ i then a i - am else 0
    let bc : ι → EReal := fun i => if μ i then (b i : EReal) - bm else 0
    Ideal.div (Sab - C * am * bm) (Ideal.sqrt (Sa2 - C * am * am) * Ideal.sqrt (Sb2 - C * bm * bm))
      = Ideal.div (∑ i, ac i * bc i) (Ideal.sqrt (∑ i, ac i * ac i) * Ideal.sqrt (∑ i, bc i * bc i)) := by
  have key := pearson_core (Finset.univ.filter μ) a b (fun i _ => hb i) cnt hcnt hpos
    (Ideal.div (∑ i ∈ Finset.univ.filter μ, a i) (cnt : EReal))
    (Ideal.div (∑ i ∈ Finset.univ.filter μ, (b i : EReal)) (cnt : EReal)) rfl rfl
  unfold PearsonEq at key
  simp only [Finset.sum_filter] at key
  dsimp only
  simp only [ite_mul_ite]
  exact key

end Main

section Card

/-- The number of pairs `(r, s)` with `s < r < n`, doubled: `Σ_{r<n} r = n(n-1)/2`. -/
theorem card_strict_lower_gen (n : ℕ) :
    (Finset.univ.filter (fun p : Fin n × Fin n => p.2 < p.1)).card * 2 = n * (n - 1) := by
  rw [Finset.card_filter, Fintype.sum_prod_type]
  have h : ∀ x : Fin n, (∑ y : Fin n, if y < x then 1 else 0) = (x : ℕ) := by
    intro x
    rw [← Finset.card_filter]
    have h2 : Finset.univ.filter (fun y : Fin n => y < x) = Finset.Iio x := by
      ext y; simp
    rw [h2, Fin.card_Iio]
  simp only [h]
  rw [Fin.sum_univ_eq_sum_range (fun k => k) n, Finset.sum_range_id_mul_two]

theorem card_strict_lower :
    (Finset.univ.filter (fun p : Fin 8192 × Fin 8192 => p.2 < p.1)).card = 33550336 := by
  have h := card_strict_lower_gen 8192
  omega

end Card

end LibPearson
-- ==== Proof.Bridge.lean ====
import proofs.«149199_j10763188043930_1_alg».proof.Proof.Spec
import proofs.«149199_j10763188043930_1_alg».proof.Proof.LibPearson

/-!
# The bridge: the moment form of the loss is the centred form

The words the programs spell denote `0`, `1`, `2`, a positive real threshold and the pair count
`33550336 = 8192 · 8191 / 2`. With real coordinates and squared norms the distance similarity `dis`
is a positive real; the count of pairs below the diagonal is that same `33550336`; hence, for
ARBITRARY responses `X` (infinite entries included), the loss computed from the five moment sums
equals the loss computed from centred values (`loss_eq`), by the Pearson identity on the extended
reals.
-/

noncomputable section

namespace Corr

open Idealize.ShloMosaic

/-! ## The words -/

theorem w0_eq : w0 = 0 := by
  simp [w0, Ideal.ofBits, Ideal.ieee]

theorem w1_eq : w1 = 1 := by
  simp [w1, Ideal.ofBits, Ideal.ieee, -EReal.coe_mul]; norm_num

theorem w2_eq_coe : w2 = ((2 : ℝ) : EReal) := by
  simp [w2, Ideal.ofBits, Ideal.ieee, -EReal.coe_mul]; norm_num

theorem w2_eq : w2 = 2 := by
  rw [w2_eq_coe]; norm_cast

/-- The guard's threshold is the positive real `9223372 · 2⁻⁶³`. -/
theorem wEps_eq_dyadic : wEps = ((9223372 * (2 : ℝ) ^ (-63 : ℤ) : ℝ) : EReal) := by
  simp [wEps, Ideal.ofBits, Ideal.ieee, -EReal.coe_mul]

theorem wEps_eq : ∃ e : ℝ, 0 < e ∧ wEps = (e : EReal) :=
  ⟨9223372 * (2 : ℝ) ^ (-63 : ℤ), by positivity, wEps_eq_dyadic⟩

/-- The count word denotes `33550336`. -/
theorem wCount_eq : Ideal.ofBits .f32 0x4BFFF800#32 = ((33550336 : ℝ) : EReal) := by
  simp [Ideal.ofBits, Ideal.ieee, -EReal.coe_mul]; norm_num

/-! ## The distance similarity is a positive real -/

/-- The guard: a select on "greater than the threshold", on reals, is the larger-or-threshold real. -/
theorem select_ogt_coe (z e : ℝ) :
    Scalar.select (Ideal.cmp .ogt (z : EReal) (e : EReal)) (z : EReal) (e : EReal)
      = ((if e < z then z else e : ℝ) : EReal) := by
  unfold Scalar.select Ideal.cmp
  by_cases h : e < z
  · simp [h]
  · simp [h]

/-- The clamped squared distance is a nonnegative real. -/
theorem sqd_real (C : Fin 8192 → Fin 2 → EReal) (Q : Fin 8192 → EReal)
    (hC : ∀ r k, ∃ x : ℝ, C r k = (x : EReal)) (hQ : ∀ r, ∃ x : ℝ, Q r = (x : EReal))
    (r s : Fin 8192) : ∃ z : ℝ, 0 ≤ z ∧ sqd C Q r s = (z : EReal) := by
  choose c hc using hC
  choose q hq using hQ
  refine ⟨max (q r + q s - 2 * ∑ k : Fin 2, c r k * c s k) 0, le_max_right _ _, ?_⟩
  unfold sqd
  rw [w0_eq, w2_eq_coe, hq r, hq s,
    LibPearson.sum_coe_congr Finset.univ (fun k => C r k * C s k) (fun k => c r k * c s k)
      (fun k _ => by rw [hc r k, hc s k, EReal.coe_mul]),
    ← EReal.coe_add, ← EReal.coe_mul, ← EReal.coe_sub, ← EReal.coe_zero]
  exact (EReal.coe_strictMono.monotone.map_max).symm

theorem dis_pos (C : Fin 8192 → Fin 2 → EReal) (Q : Fin 8192 → EReal)
    (hC : ∀ r k, ∃ x : ℝ, C r k = (x : EReal)) (hQ : ∀ r, ∃ x : ℝ, Q r = (x : EReal))
    (r s : Fin 8192) : ∃ y : ℝ, 0 < y ∧ Corr.dis C Q r s = (y : EReal) := by
  obtain ⟨z, hz0, hz⟩ := sqd_real C Q hC hQ r s
  obtain ⟨e, he0, he⟩ := wEps_eq
  have hg : 0 < (if e < z then z else e : ℝ) := by
    split_ifs with h
    · exact lt_trans he0 h
    · exact he0
  have hden : 0 < Real.sqrt (if e < z then z else e : ℝ) + 1 :=
    add_pos_of_nonneg_of_pos (Real.sqrt_nonneg _) one_pos
  refine ⟨1 / (Real.sqrt (if e < z then z else e : ℝ) + 1), one_div_pos.mpr hden, ?_⟩
  unfold dis
  rw [hz, he, select_ogt_coe, Ideal.sqrt_coe, if_neg (not_lt.mpr hg.le), w1_eq,
    ← EReal.coe_one, ← EReal.coe_add, Ideal.div_coe (ne_of_gt hden), ← EReal.coe_mul, one_mul]

/-! ## The count -/

theorem count_eq :
    ∑ p : Pair, (if below p then (1 : EReal) else 0) = ((33550336 : ℝ) : EReal) := by
  have h : ∀ p : Pair, (if below p then (1 : EReal) else 0)
      = (((if below p then 1 else 0 : ℝ)) : EReal) := by
    intro p; split_ifs <;> simp
  simp only [h]
  rw [← LibPearson.coe_sum, Finset.sum_boole, LibPearson.card_strict_lower]
  norm_num

/-! ## The bridge -/

theorem loss_eq (X : Fin 8192 → Fin 16 → EReal) (C : Fin 8192 → Fin 2 → EReal)
    (Q : Fin 8192 → EReal) (hC : ∀ r k, ∃ x : ℝ, C r k = (x : EReal))
    (hQ : ∀ r, ∃ x : ℝ, Q r = (x : EReal)) :
    Corr.lossMoments X C Q (Ideal.ofBits .f32 0x4BFFF800#32) = Corr.loss X C Q := by
  choose b hbpos hbeq using fun p : Pair => dis_pos C Q hC hQ p.1 p.2
  have hcnt : (33550336 : ℝ) = ((Finset.univ.filter below).card : ℝ) := by
    have h := LibPearson.card_strict_lower
    rw [h]; norm_num
  have key := LibPearson.pearson_eq below (fun p : Pair => sim X p.1 p.2) b hbpos 33550336 hcnt
    (by norm_num)
  unfold lossMoments loss rhoMoments rhoCentred
  rw [count_eq, wCount_eq]
  simp only [hbeq]
  exact congrArg (fun t => Ideal.div (w1 - t) w2) key

end Corr

end
-- ==== Proof.Finite.lean ====
import proofs.«149199_j10763188043930_1_alg».proof.Defs
import proofs.«149199_j10763188043930_1_alg».proof.Proof.Gen.KernelIdeal
import proofs.«149199_j10763188043930_1_alg».proof.Proof.Gen.Pre_finite_inputs
import Idealize.ShloMosaic.Lib.ReduceAll
import Idealize.ShloMosaic.Lib.ValueIdx
import Idealize.ShloMosaic.PureOps.Ideal.Laws

/-!
# The inputs are real numbers

The precondition says that every entry of the feature array and every entry of the
coordinate array has absolute value strictly below `+∞`. An extended real `x` with
`max x (-x) < ⊤` is neither `⊥` nor `⊤`, so it is (the image of) a real number.
-/

noncomputable section

namespace Cert.KernelIdeal.Finite

open Idealize.ShloMosaic Idealize.SL.Sem

/-- The result of a reduction over all axes has a single index. -/
instance : Subsingleton Cert.Pre_finite_inputs.S_.Idx := ⟨fun a b => funext fun d => d.elim0⟩

/-- A Boolean as a one-bit word is 1 exactly when it is true. -/
theorem ofBool_eq_one (b : Bool) : BitVec.ofBool b = 1#1 ↔ b = true := by cases b <;> decide

/-- The comparison `a < b` of extended reals, as a one-bit word, is 1 exactly when `a < b`. -/
theorem cmp_olt_eq_one (a b : EReal) : Ideal.cmp .olt a b = 1#1 ↔ a < b := by
  unfold Ideal.cmp
  rw [ofBool_eq_one]
  exact decide_eq_true_iff

/-- The single-precision pattern of `+∞` denotes the top extended real. -/
theorem ofBits_inf : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | top => simp at h
  | coe r => exact ⟨r, rfl⟩

/-- An extended real whose absolute value compares below the pattern of `+∞` is a real number. -/
theorem real_of_cmp (x : EReal)
    (h : Ideal.cmp .olt (max x (-x)) (Ideal.ofBits .f32 0x7F800000#32) = 1#1) : ∃ r : ℝ, x = (r : EReal) := by
  rw [ofBits_inf, cmp_olt_eq_one] at h
  exact real_of_abs_lt_top x h

/-- A gather only selects entries of its operand: if every entry of the operand is a real number,
so is every entry of the gathered array. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx (d.operandIdx j idx)

/-- Every entry of the coordinate array is a real number. -/
theorem coords_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) (i : Cert.KernelIdeal.S65536x2.Idx) :
    ∃ x : ℝ, m ((c.tc : Thread Cert.KernelIdeal.nD Cert.KernelIdeal.τ).loc Cert.KernelIdeal.main_arg1) i = (x : EReal) := by
  have h0 := congrFun (h c) ValueIdx.ix0
  dsimp only [Cert.Pre_finite_inputs.fn] at h0
  obtain ⟨_, h2⟩ := IntOp.andi_eq_one.1 h0
  have h3 := Host.reduce_andi_all _ _ _ _ _ h2 i
  exact real_of_cmp (m ((c.tc : Thread Cert.KernelIdeal.nD Cert.KernelIdeal.τ).loc Cert.KernelIdeal.main_arg1) i) h3

/-- Every entry of the feature array is a real number. -/
theorem feats_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) (i : Cert.KernelIdeal.S16x64x32x32.Idx) :
    ∃ x : ℝ, m ((c.tc : Thread Cert.KernelIdeal.nD Cert.KernelIdeal.τ).loc Cert.KernelIdeal.main_arg0) i = (x : EReal) := by
  have h0 := congrFun (h c) ValueIdx.ix0
  dsimp only [Cert.Pre_finite_inputs.fn] at h0
  obtain ⟨h1, _⟩ := IntOp.andi_eq_one.1 h0
  have h3 := Host.reduce_andi_all _ _ _ _ _ h1 i
  exact real_of_cmp (m ((c.tc : Thread Cert.KernelIdeal.nD Cert.KernelIdeal.τ).loc Cert.KernelIdeal.main_arg0) i) h3

end Cert.KernelIdeal.Finite

end
-- ==== Proof.FiniteStages.lean ====
import proofs.«149199_j10763188043930_1_alg».proof.Proof.ReadP
import Idealize.ShloMosaic.Lib.ValueIdx
import Idealize.ShloMosaic.PureOps.Ideal.Laws

/-!
# The first stages of the reference are real numbers

If every entry of the coordinate array is a real number then so is every gathered
coordinate (a gather only selects entries of its operand), and so is every squared norm
of a gathered coordinate pair: it is `0 + (a * a + b * b)` for the two real coordinates
`a`, `b` of the pair.
-/

noncomputable section

namespace Cert.ReferenceIdeal.FiniteStages

open Cert.ReferenceIdeal Cert.ReferenceIdeal.Gen Cert.ReferenceIdeal.ReadP Idealize.ShloMosaic Idealize.ShloMosaic.ValueIdx

/-- Every gathered coordinate is a real number: a gather only selects entries of its operand. -/
theorem coord_real (x1 : (⟨S65536x2, .f32⟩ : BufTy).Contents (Elt Ideal)) (x2 : (⟨S8192, .i32⟩ : BufTy).Contents (Elt Ideal))
    (h1 : ∀ i : S65536x2.Idx, ∃ x : ℝ, x1 i = (x : EReal)) (r : Fin 8192) (k : Fin 2) :
    ∃ x : ℝ, val_main_v14 (F := Ideal) x1 x2 (ix2 r k) = (x : EReal) :=
  h1 (gather_S65536x2_S8192x1_S8192x2_1_0_n_n_0_1_12.operandIdx (ix2 r k) (val_main_v13 (F := Ideal) x2))

/-- Every squared norm of a gathered coordinate pair is a real number. -/
theorem sqn_real (x1 : (⟨S65536x2, .f32⟩ : BufTy).Contents (Elt Ideal)) (x2 : (⟨S8192, .i32⟩ : BufTy).Contents (Elt Ideal))
    (h1 : ∀ i : S65536x2.Idx, ∃ x : ℝ, x1 i = (x : EReal)) (r : Fin 8192) :
    ∃ x : ℝ, val_main_v16 (F := Ideal) x1 x2 (ix1 r) = (x : EReal) := by
  have e : ∀ k : Fin 2, idx_main_v16 (ix1 r) k = ix2 r k := by
    intro k
    funext a
    apply Fin.ext
    match a with
    | ⟨0, _⟩ => rfl
    | ⟨1, _⟩ => rfl
  obtain ⟨a, ha⟩ := coord_real x1 x2 h1 r 0
  obtain ⟨b, hb⟩ := coord_real x1 x2 h1 r 1
  refine ⟨a * a + b * b, ?_⟩
  rw [val_main_v16_apply, val_main_cst_apply, Fin.sum_univ_two, val_main_v15_apply, val_main_v15_apply,
    e 0, e 1, ha, hb, EReal.coe_add, EReal.coe_mul, EReal.coe_mul]
  show Ideal.ofBits .f32 0x00000000#32 + ((a : EReal) * a + (b : EReal) * b) = _
  rw [Ideal.ofBits_zero_f32, zero_add]

end Cert.ReferenceIdeal.FiniteStages

end
-- ==== Proof.RefIs.lean ====
/-
  The reference program's result is the specification's loss.

  The reference forms three small arrays from its arguments — the row-normalised features (8192 samples × 16 lanes),
  the gathered coordinates (8192 × 2) and their squared norms (8192) — and everything after them is the
  specification's mathematics: the response similarity of two samples is the inner product of their feature rows,
  the distance similarity is 1 / (√(guarded, clamped squared distance) + 1), the mask is the strict lower triangle,
  and the result is (1 − ρ) / 2 for the correlation ρ of the two families over the masked pairs, computed from
  centred values. This module reads the reference one operation at a time at an index and identifies each stage
  with the corresponding piece of Corr.loss.
-/
import proofs.«149199_j10763188043930_1_alg».proof.Proof.ReadP
import proofs.«149199_j10763188043930_1_alg».proof.Proof.Spec
import Idealize.ShloMosaic.Lib.ValueIdx
import Idealize.ShloMosaic.PureOps.Ideal.Laws

noncomputable section

namespace Cert.ReferenceIdeal.RefIs

open Cert.ReferenceIdeal Cert.ReferenceIdeal.Gen Cert.ReferenceIdeal.ReadP Idealize.ShloMosaic Idealize.ShloMosaic.ValueIdx

variable (x0 : (⟨S16x64x32x32, .f32⟩ : BufTy).Contents (Elt Ideal))
  (x1 : (⟨S65536x2, .f32⟩ : BufTy).Contents (Elt Ideal))
  (x2 : (⟨S8192, .i32⟩ : BufTy).Contents (Elt Ideal))

/-- The row-normalised features, as a function of sample and lane. -/
def feat : Fin 8192 → Fin 16 → EReal := fun r k => val_main_v49 (F := Ideal) x0 x2 (ix2 r k)
/-- The gathered coordinates, as a function of sample and axis. -/
def coord : Fin 8192 → Fin 2 → EReal := fun r k => val_main_v14 (F := Ideal) x1 x2 (ix2 r k)
/-- The squared norms of the gathered coordinates, as a function of the sample. -/
def sqn : Fin 8192 → EReal := fun r => val_main_v16 (F := Ideal) x1 x2 (ix1 r)

/-! ## The two similarity matrices at an entry -/

/-- The response similarity at (r, s) is the inner product of the feature rows of r and s. -/
theorem sim_entry (r s : Fin 8192) :
    val_main_v51 (F := Ideal) x0 x2 (ix2 r s) = Corr.sim (feat x0 x2) r s := by
  rw [val_main_v51_apply]
  unfold Corr.sim feat
  refine Finset.sum_congr rfl fun k _ => ?_
  rw [val_main_v50_apply]
  have e1 : lidx_main_v51 (ix2 r s) k = ix2 r k :=
    funext fun a => Fin.ext (by match a with | ⟨0, _⟩ => rfl | ⟨1, _⟩ => rfl)
  have e2 : idx_main_v50 (ridx_main_v51 (ix2 r s) k) = ix2 s k :=
    funext fun a => Fin.ext (by match a with | ⟨0, _⟩ => rfl | ⟨1, _⟩ => rfl)
  rw [e1, e2]

/-- The squared norm broadcast along the rows reads the row sample's. -/
theorem sqn_row (r s : Fin 8192) : val_main_v19 (F := Ideal) x1 x2 (ix2 r s) = sqn x1 x2 r := by
  rw [val_main_v19_apply, val_main_v17_apply]
  unfold sqn
  exact congrArg (val_main_v16 (F := Ideal) x1 x2) (funext fun a => Fin.ext (by match a with | ⟨0, _⟩ => rfl))

/-- The squared norm broadcast along the columns reads the column sample's. -/
theorem sqn_col (r s : Fin 8192) : val_main_v20 (F := Ideal) x1 x2 (ix2 r s) = sqn x1 x2 s := by
  rw [val_main_v20_apply, val_main_v18_apply]
  unfold sqn
  exact congrArg (val_main_v16 (F := Ideal) x1 x2) (funext fun a => Fin.ext (by match a with | ⟨0, _⟩ => rfl))

/-- The coordinates' inner product at (r, s). -/
theorem coord_dot (r s : Fin 8192) :
    val_main_v23 (F := Ideal) x1 x2 (ix2 r s) = ∑ k : Fin 2, coord x1 x2 r k * coord x1 x2 s k := by
  rw [val_main_v23_apply]
  unfold coord
  refine Finset.sum_congr rfl fun k _ => ?_
  rw [val_main_v22_apply]
  have e1 : lidx_main_v23 (ix2 r s) k = ix2 r k :=
    funext fun a => Fin.ext (by match a with | ⟨0, _⟩ => rfl | ⟨1, _⟩ => rfl)
  have e2 : idx_main_v22 (ridx_main_v23 (ix2 r s) k) = ix2 s k :=
    funext fun a => Fin.ext (by match a with | ⟨0, _⟩ => rfl | ⟨1, _⟩ => rfl)
  rw [e1, e2]

/-- The clamped squared distance at (r, s). -/
theorem sqd_entry (r s : Fin 8192) :
    val_main_v28 (F := Ideal) x1 x2 (ix2 r s) = Corr.sqd (coord x1 x2) (sqn x1 x2) r s := by
  rw [val_main_v28_apply, val_main_v26_apply, val_main_v21_apply, val_main_v25_apply, val_main_v24_apply,
    val_main_v27_apply, sqn_row, sqn_col, coord_dot]
  rfl

/-- The distance similarity at (r, s). -/
theorem dis_entry (r s : Fin 8192) :
    val_main_v36 (F := Ideal) x1 x2 (ix2 r s) = Corr.dis (coord x1 x2) (sqn x1 x2) r s := by
  rw [val_main_v36_apply, val_main_v35_apply, val_main_v34_apply, val_main_v33_apply, val_main_v32_apply,
    val_main_v31_apply, val_main_call0_v1_apply, val_main_v30_apply, val_main_v29_apply, sqd_entry]
  rfl

/-! ## The mask: the strict lower triangle -/

/-- A sample number as a 32-bit word is itself as a signed integer. -/
theorem toInt_small (n : Nat) (h : n < 8192) : (BitVec.ofNat 32 n).toInt = (n : Int) := by
  rw [BitVec.toInt_ofNat', Int.bmod_def]
  split <;> omega

/-- "row − 1 ≥ column" as signed 32-bit words is "column < row" for sample numbers. -/
theorem mask_bit (r s : Fin 8192) :
    IntOp.cmpi .sge (IntOp.addi (BitVec.ofNat 32 r.val) 4294967295#32) (BitVec.ofNat 32 s.val)
      = if s < r then 1#1 else 0#1 := by
  have hr := r.isLt
  have hs := s.isLt
  have hx : (BitVec.ofNat 32 r.val + 4294967295#32).toInt = (r.val : Int) - 1 := by
    rw [BitVec.toInt_add, toInt_small _ hr]
    have : (4294967295#32 : BitVec 32).toInt = -1 := by decide
    rw [this, Int.bmod_def]
    split <;> omega
  show BitVec.ofBool ((BitVec.ofNat 32 s.val).sle (BitVec.ofNat 32 r.val + 4294967295#32)) = _
  rw [BitVec.sle_eq_decide, hx, toInt_small _ hs]
  by_cases h : s < r
  · rw [if_pos h, decide_eq_true (by have := Fin.lt_def.mp h; omega)]; rfl
  · rw [if_neg h, decide_eq_false (by have := Fin.lt_def.not.mp h; omega)]; rfl

/-- The mask at (r, s) is set exactly when s comes before r. -/
theorem mask_entry (r s : Fin 8192) :
    val_main_v53 (F := Ideal) (ix2 r s) = if s < r then 1#1 else 0#1 := by
  rw [val_main_v53_apply, val_main_call1_v4_apply, val_main_call1_v2_apply, val_main_call1_v0_apply,
    val_main_call1_v1_apply, val_main_call1_c_apply, val_main_call1_v3_apply, val_main_v52_apply,
    val_main_c_12_apply, val_main_call1_v5_apply, val_main_call1_c_0_apply]
  show Scalar.select (IntOp.cmpi .sge (IntOp.addi (BitVec.ofNat 32 r.val) 4294967295#32) (BitVec.ofNat 32 s.val))
    1#1 0#1 = _
  rw [mask_bit]
  by_cases h : s < r
  · rw [if_pos h, select_one]
  · rw [if_neg h, select_zero]

/-- The four zero arrays the masked selects fall back to read zero everywhere. -/
theorem zero_a (i : S8192x8192.Idx) : val_main_call2_v1 (F := Ideal) i = 0 := by
  rw [val_main_call2_v1_apply]; exact Ideal.ofBits_zero_f32
theorem zero_b (i : S8192x8192.Idx) : val_main_call3_v1 (F := Ideal) i = 0 := by
  rw [val_main_call3_v1_apply]; exact Ideal.ofBits_zero_f32
theorem zero_ac (i : S8192x8192.Idx) : val_main_call4_v1 (F := Ideal) i = 0 := by
  rw [val_main_call4_v1_apply]; exact Ideal.ofBits_zero_f32
theorem zero_bc (i : S8192x8192.Idx) : val_main_call5_v1 (F := Ideal) i = 0 := by
  rw [val_main_call5_v1_apply]; exact Ideal.ofBits_zero_f32

/-- A value selected by the mask against a zero is the value below the diagonal and zero elsewhere. -/
theorem masked (r s : Fin 8192) (x z : EReal) (hz : z = 0) :
    Scalar.select (val_main_v53 (F := Ideal) (ix2 r s)) x z = if s < r then x else 0 := by
  rw [mask_entry, hz]
  by_cases h : s < r
  · rw [if_pos h, if_pos h, select_one]
  · rw [if_neg h, if_neg h, select_zero]

/-- The mask as a number: one below the diagonal and zero elsewhere. -/
theorem mask_num (r s : Fin 8192) :
    val_main_v54 (F := Ideal) (ix2 r s) = if s < r then (1 : EReal) else 0 := by
  rw [val_main_v54_apply, mask_entry]
  by_cases h : s < r
  · rw [if_pos h, if_pos h]
    show (((1#1 : BitVec 1).toNat : ℝ) : EReal) = 1
    simp
  · rw [if_neg h, if_neg h]
    show (((0#1 : BitVec 1).toNat : ℝ) : EReal) = 0
    simp

/-! ## Whole-array sums as sums over the pairs -/

/-- A sum over the whole 8192 × 8192 array from the zero word is the sum over the pairs of samples. -/
theorem total_sum (f : S8192x8192.Idx → EReal) :
    Ideal.ofBits .f32 0x00000000#32 + ∑ j : S8192x8192.Idx, f j = ∑ p : Corr.Pair, f (ix2 p.1 p.2) := by
  rw [Ideal.ofBits_zero_f32, zero_add, sum_idx2]
  exact (Fintype.sum_prod_type (fun p : Fin 8192 × Fin 8192 => f (ix2 p.1 p.2))).symm

/-! ## The pieces of the correlation -/

/-- The number of pairs below the diagonal, as the sum of the mask. -/
abbrev cnt : EReal := ∑ p : Corr.Pair, (if Corr.below p then (1 : EReal) else 0)
/-- The mean of a family over the pairs below the diagonal. -/
abbrev meanOf (a : Corr.Pair → EReal) : EReal := Ideal.div (∑ p, (if Corr.below p then a p else 0)) cnt
/-- A family centred at its mean below the diagonal, zero elsewhere. -/
abbrev centred (a : Corr.Pair → EReal) : Corr.Pair → EReal := fun p => if Corr.below p then a p - meanOf a else 0

/-- The response similarity as a family over the pairs. -/
abbrev simF : Corr.Pair → EReal := fun p => Corr.sim (feat x0 x2) p.1 p.2
/-- The distance similarity as a family over the pairs. -/
abbrev disF : Corr.Pair → EReal := fun p => Corr.dis (coord x1 x2) (sqn x1 x2) p.1 p.2

/-- The count. -/
theorem count_eq : val_main_v55 (F := Ideal) ix0 = cnt := by
  rw [val_main_v55_apply]
  refine (total_sum _).trans (Finset.sum_congr rfl fun p _ => ?_)
  exact mask_num p.1 p.2

/-- The mean of the response similarity. -/
theorem mean_sim : val_main_v58 (F := Ideal) x0 x2 ix0 = meanOf (simF x0 x2) := by
  rw [val_main_v58_apply, count_eq, val_main_v57_apply]
  refine congrArg (fun t => Ideal.div t cnt) ((total_sum _).trans (Finset.sum_congr rfl fun p _ => ?_))
  rw [val_main_v56_apply, sim_entry]
  exact masked p.1 p.2 _ _ (zero_a _)

/-- The mean of the distance similarity. -/
theorem mean_dis : val_main_v61 (F := Ideal) x1 x2 ix0 = meanOf (disF x1 x2) := by
  rw [val_main_v61_apply, count_eq, val_main_v60_apply]
  refine congrArg (fun t => Ideal.div t cnt) ((total_sum _).trans (Finset.sum_congr rfl fun p _ => ?_))
  rw [val_main_v59_apply, dis_entry]
  exact masked p.1 p.2 _ _ (zero_b _)

/-- The centred, masked response similarity at (r, s). -/
theorem centred_sim (r s : Fin 8192) :
    val_main_v64 (F := Ideal) x0 x2 (ix2 r s) = centred (simF x0 x2) (r, s) := by
  rw [val_main_v64_apply, val_main_v63_apply, val_main_v62_apply, sim_entry]
  have e : idx_main_v62 (ix2 r s) = ix0 := funext fun a => a.elim0
  rw [e, mean_sim]
  exact masked r s _ _ (zero_ac _)

/-- The centred, masked distance similarity at (r, s). -/
theorem centred_dis (r s : Fin 8192) :
    val_main_v67 (F := Ideal) x1 x2 (ix2 r s) = centred (disF x1 x2) (r, s) := by
  rw [val_main_v67_apply, val_main_v66_apply, val_main_v65_apply, dis_entry]
  have e : idx_main_v65 (ix2 r s) = ix0 := funext fun a => a.elim0
  rw [e, mean_dis]
  exact masked r s _ _ (zero_bc _)

/-- The sum of products of the two centred families. -/
theorem cov_eq : val_main_v69 (F := Ideal) x0 x1 x2 ix0
    = ∑ p : Corr.Pair, centred (simF x0 x2) p * centred (disF x1 x2) p := by
  rw [val_main_v69_apply]
  refine (total_sum _).trans (Finset.sum_congr rfl fun p _ => ?_)
  rw [val_main_v68_apply]
  exact congrArg₂ (· * ·) (centred_sim x0 x2 p.1 p.2) (centred_dis x1 x2 p.1 p.2)

/-- The sum of squares of the centred response similarity. -/
theorem var_sim : val_main_v71 (F := Ideal) x0 x2 ix0
    = ∑ p : Corr.Pair, centred (simF x0 x2) p * centred (simF x0 x2) p := by
  rw [val_main_v71_apply]
  refine (total_sum _).trans (Finset.sum_congr rfl fun p _ => ?_)
  rw [val_main_v70_apply]
  exact congrArg₂ (· * ·) (centred_sim x0 x2 p.1 p.2) (centred_sim x0 x2 p.1 p.2)

/-- The sum of squares of the centred distance similarity. -/
theorem var_dis : val_main_v74 (F := Ideal) x1 x2 ix0
    = ∑ p : Corr.Pair, centred (disF x1 x2) p * centred (disF x1 x2) p := by
  rw [val_main_v74_apply]
  refine (total_sum _).trans (Finset.sum_congr rfl fun p _ => ?_)
  rw [val_main_v73_apply]
  exact congrArg₂ (· * ·) (centred_dis x1 x2 p.1 p.2) (centred_dis x1 x2 p.1 p.2)

/-! ## The result -/

/-- The specification's correlation in terms of the pieces above. -/
theorem rho_eq (a b : Corr.Pair → EReal) :
    Corr.rhoCentred a b cnt = Ideal.div (∑ p : Corr.Pair, centred a p * centred b p)
      (Ideal.sqrt (∑ p : Corr.Pair, centred a p * centred a p) * Ideal.sqrt (∑ p : Corr.Pair, centred b p * centred b p)) := rfl

/-- The specification's loss in terms of the pieces above. -/
theorem loss_eq (X : Fin 8192 → Fin 16 → EReal) (C : Fin 8192 → Fin 2 → EReal) (Q : Fin 8192 → EReal) :
    Corr.loss X C Q
      = Ideal.div (Ideal.ofBits .f32 0x3F800000#32
          - Ideal.div (∑ p : Corr.Pair, centred (fun p => Corr.sim X p.1 p.2) p * centred (fun p => Corr.dis C Q p.1 p.2) p)
              (Ideal.sqrt (∑ p : Corr.Pair, centred (fun p => Corr.sim X p.1 p.2) p * centred (fun p => Corr.sim X p.1 p.2) p)
                * Ideal.sqrt (∑ p : Corr.Pair, centred (fun p => Corr.dis C Q p.1 p.2) p * centred (fun p => Corr.dis C Q p.1 p.2) p)))
          (Ideal.ofBits .f32 0x40000000#32) := rfl

/-- The reference's result is the specification's loss of the features, the coordinates and their squared norms. -/
theorem ref_is_loss :
    val_main_v79 (F := Ideal) x0 x1 x2 ix0 = Corr.loss (feat x0 x2) (coord x1 x2) (sqn x1 x2) := by
  rw [val_main_v79_apply, val_main_v78_apply, val_main_v77_apply, val_main_v76_apply, val_main_v72_apply,
    val_main_v75_apply, cov_eq, var_sim, var_dis, val_main_cst_23_apply, val_main_cst_24_apply]
  simp only [Ideal.hostDivf_def, Ideal.subf_def, Ideal.mulf_def, Ideal.hostUnary_sqrt_def, Ideal.ofBits_def]
  exact (loss_eq (feat x0 x2) (coord x1 x2) (sqn x1 x2)).symm

end Cert.ReferenceIdeal.RefIs

end
-- ==== Proof.KRun.lean ====
/-
  The kernel's run, read.

  The kernel's program first prepares the three arrays of the call exactly as the reference prepares its own stages,
  runs the call — after which the five results hold the five moment sums over the pairs of samples below the diagonal —
  and then forms the correlation from the moments. With real coordinates the distance similarity is a positive real,
  and the correlation from the moments is the correlation from the centred values: so the result is the specification's
  `loss` of the reference's own stages.
-/
import proofs.«149199_j10763188043930_1_alg».proof.Proof.Final
import proofs.«149199_j10763188043930_1_alg».proof.Proof.Tail
import proofs.«149199_j10763188043930_1_alg».proof.Proof.KAcc
import proofs.«149199_j10763188043930_1_alg».proof.Proof.Prefix
import proofs.«149199_j10763188043930_1_alg».proof.Proof.Bridge
import proofs.«149199_j10763188043930_1_alg».proof.Proof.Finite
import proofs.«149199_j10763188043930_1_alg».proof.Proof.FiniteStages
import proofs.«149199_j10763188043930_1_alg».proof.Proof.RefIs

noncomputable section

namespace Cert.KernelIdeal.KRun

open Cert.KernelIdeal Cert.KernelIdeal.Gen Idealize.ShloMosaic Idealize.ShloMosaic.ValueIdx Idealize.ShloMosaic.TcCoe
open Idealize.SL.Sem Idealize.ShloMosaic.StableHlo

variable (m : (ℓ : Loc nD τ sig) → Buf (Elt Ideal) ℓ) (ρ : Dev nD → PrngReg)

/-- The reference's three stages of the kernel's own arguments. -/
abbrev rfeat (c : Dev nD) : Fin 8192 → Fin 16 → EReal :=
  Cert.ReferenceIdeal.RefIs.feat (m ((c : Thread nD τ).loc main_arg0)) (m ((c : Thread nD τ).loc main_arg2))
abbrev rcoord (c : Dev nD) : Fin 8192 → Fin 2 → EReal :=
  Cert.ReferenceIdeal.RefIs.coord (m ((c : Thread nD τ).loc main_arg1)) (m ((c : Thread nD τ).loc main_arg2))
abbrev rsqn (c : Dev nD) : Fin 8192 → EReal :=
  Cert.ReferenceIdeal.RefIs.sqn (m ((c : Thread nD τ).loc main_arg1)) (m ((c : Thread nD τ).loc main_arg2))

/-- The call's features are the reference's. -/
theorem feat_eq (c : Dev nD) : KSum.fX (KAcc.AX m c) = rfeat m c :=
  funext fun r => funext fun k => congrFun (Prefix.V_feat m c) (ix2 r k)

/-- The call's coordinates are the reference's. -/
theorem coord_eq (c : Dev nD) : KSum.fC (KAcc.AC m c) = rcoord m c :=
  funext fun r => funext fun k => congrFun (Prefix.V_coord m c) (ix2 r k)

/-- The call's squared-norm column holds the reference's squared norms. -/
theorem sqn_eq (c : Dev nD) : KSum.fQ (KAcc.AQ m c) = rsqn m c := by
  funext r
  refine (congrFun (Prefix.V_sqn m c) (ix2 r (0 : Fin 1))).trans ?_
  rw [Cert.ReferenceIdeal.ReadP.val_main_v17_apply]
  exact congrArg _ (funext fun a => Fin.ext (by match a with | ⟨0, _⟩ => rfl))

variable (hpre : Cert.Pre_KernelIdeal (hPre_finite_inputs := Cert.Pre_finite_inputs.Gen.facts) m)

include hpre in
/-- Under the precondition the gathered coordinates are real. -/
theorem coord_real (c : Dev nD) (r : Fin 8192) (k : Fin 2) : ∃ x : ℝ, rcoord m c r k = (x : EReal) :=
  Cert.ReferenceIdeal.FiniteStages.coord_real _ _ (Cert.KernelIdeal.Finite.coords_real m hpre c) r k

include hpre in
/-- Under the precondition the squared norms are real. -/
theorem sqn_real (c : Dev nD) (r : Fin 8192) : ∃ x : ℝ, rsqn m c r = (x : EReal) :=
  Cert.ReferenceIdeal.FiniteStages.sqn_real _ _ (Cert.KernelIdeal.Finite.coords_real m hpre c) r

/-- What a result array of the call holds once the host lines after it read it. -/
theorem arr_read (c : Dev nD) (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 launch0.win.arr_inj c _ _ w

include hpre in
/-- THE KERNEL'S RESULT: the specification's loss of the reference's stages. -/
theorem result_eq (c : Dev nD) :
    (Pipeline.afterTail₀ cfgs (dats m) 0 (V0 m) [hostOps1] c main_v53 : S_.Idx → EReal)
      = fun _ => Corr.loss (rfeat m c) (rcoord m c) (rsqn m c) := by
  funext i
  unfold Pipeline.afterTail₀
  simp only [List.flatten_cons, List.flatten_nil, List.append_nil]
  generalize hW : Pipeline.withArrays _ _ _ _ = W
  have a0 : (W (Proc.devRef .tc main_v31_0) : S1x1.Idx → EReal) (ix2 0 0)
      = ∑ p : Corr.Pair, (if Corr.below p then KAcc.gA m c p.1 p.2 else 0) := by
    rw [← hW]
    exact ((congrFun (arr_read m c 3) (ix2 0 0)).trans (congrFun (final0_3 m c) (ix2 0 0))).trans (KAcc.total_0 m c lastLt (ix2 0 0))
  have a1 : (W (Proc.devRef .tc main_v31_1) : S1x1.Idx → EReal) (ix2 0 0)
      = ∑ p : Corr.Pair, (if Corr.below p then KAcc.gB m c p.1 p.2 else 0) := by
    rw [← hW]
    exact ((congrFun (arr_read m c 4) (ix2 0 0)).trans (congrFun (final0_4 m c) (ix2 0 0))).trans (KAcc.total_1 m c lastLt (ix2 0 0))
  have a2 : (W (Proc.devRef .tc main_v31_2) : S1x1.Idx → EReal) (ix2 0 0)
      = ∑ p : Corr.Pair, (if Corr.below p then KAcc.gA2 m c p.1 p.2 else 0) := by
    rw [← hW]
    exact ((congrFun (arr_read m c 5) (ix2 0 0)).trans (congrFun (final0_5 m c) (ix2 0 0))).trans (KAcc.total_2 m c lastLt (ix2 0 0))
  have a3 : (W (Proc.devRef .tc main_v31_3) : S1x1.Idx → EReal) (ix2 0 0)
      = ∑ p : Corr.Pair, (if Corr.below p then KAcc.gB2 m c p.1 p.2 else 0) := by
    rw [← hW]
    exact ((congrFun (arr_read m c 6) (ix2 0 0)).trans (congrFun (final0_6 m c) (ix2 0 0))).trans (KAcc.total_3 m c lastLt (ix2 0 0))
  have a4 : (W (Proc.devRef .tc main_v31_4) : S1x1.Idx → EReal) (ix2 0 0)
      = ∑ p : Corr.Pair, (if Corr.below p then KAcc.gAB m c p.1 p.2 else 0) := by
    rw [← hW]
    exact ((congrFun (arr_read m c 7) (ix2 0 0)).trans (congrFun (final0_7 m c) (ix2 0 0))).trans (KAcc.total_4 m c lastLt (ix2 0 0))
  rw [Tail.tail_apply W i, a0, a1, a2, a3, a4]
  show Corr.lossMoments (KSum.fX (KAcc.AX m c)) (KSum.fC (KAcc.AC m c)) (KSum.fQ (KAcc.AQ m c)) (Ideal.ofBits .f32 0x4BFFF800#32) = _
  rw [feat_eq, coord_eq, sqn_eq]
  exact Corr.loss_eq _ _ _ (coord_real m hpre c) (sqn_real m hpre c)

include hpre in
/-- THE KERNEL'S RUN, READ: every weakly fair execution terminates with the result at the specification's loss of the
    reference's stages of the arguments, and the arguments unchanged. -/
theorem run : θ_run defs (onTc (τ := τ) (main (F := Ideal))) ⟨m, fun _ => 0, ρ⟩ fun r => ∀ c : Dev nD,
      r.2.mem ((c.tc : Thread nD τ).loc main_v53) = (fun _ => Corr.loss (rfeat m c) (rcoord m c) (rsqn m c) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v53 (Pipeline.mem_restRefs_of main_v53 (by decide) (by decide))).trans (result_eq m hpre c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KRun

end
-- ==== Proof.RefRun.lean ====
/-
  The reference program's run, taken in five stretches.

  The reference's @main is a straight line of 125 host operations (a called function's operations standing in its
  call's place). Every weakly fair execution of it terminates with each buffer at the fold of the operations' results
  over the launch contents (`run_raw`). The line is cut in five — the operations up to the distance similarity
  (`opsA`), those up to the response similarity (`opsB`), the mask and the masked means (`opsC1`), the centred matrices
  (`opsC2`) and the correlation (`opsC3`) — so that what a later
  stretch reads of an earlier one is a named stage and not its whole term.
-/
import proofs.«149199_j10763188043930_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ reshape main_arg0 main_v0 rfl shapeCasts_S16x64x32x32_S16x65536,
    nullary main_c (constantI S_ 32 0#32),
    unary main_c main_v1 (broadcastInDim S8192 ![] bcast_S_S8192 : (⟨S_, .i32⟩ : BufTy).Contents (Elt F) → (⟨S8192, .i32⟩ : BufTy).Contents (Elt F)),
    binary main_arg2 main_v1 main_v2 (cmpi .slt : (⟨S8192, .i32⟩ : BufTy).Contents (Elt F) → (⟨S8192, .i32⟩ : BufTy).Contents (Elt F) → (⟨S8192, .i1⟩ : BufTy).Contents (Elt F)),
    nullary main_c_0 (constantI S_ 32 65536#32),
    unary main_c_0 main_v3 (broadcastInDim S8192 ![] bcast_S_S8192 : (⟨S_, .i32⟩ : BufTy).Contents (Elt F) → (⟨S8192, .i32⟩ : BufTy).Contents (Elt F)),
    binary main_arg2 main_v3 main_v4 (addi : (⟨S8192, .i32⟩ : BufTy).Contents (Elt F) → (⟨S8192, .i32⟩ : BufTy).Contents (Elt F) → (⟨S8192, .i32⟩ : BufTy).Contents (Elt F)),
    ternary main_v2 main_v4 main_arg2 main_v5 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v5 main_v6 (broadcastInDim S8192x1 ![0] bcast_S8192_S8192x1_0 : (⟨S8192, .i32⟩ : BufTy).Contents (Elt F) → (⟨S8192x1, .i32⟩ : BufTy).Contents (Elt F)),
    binary main_v0 main_v6 main_v7 ((fun x i => Host.gather gather_S16x65536_S8192x1_S16x8192_0_1_n_n_1_1_161 x i) : (⟨S16x65536, .f32⟩ : BufTy).Contents (Elt F) → (⟨S8192x1, .i32⟩ : BufTy).Contents (Elt F) → (⟨S16x8192, .f32⟩ : BufTy).Contents (Elt F)),
    nullary main_c_1 (constantI S_ 32 0#32),
    unary main_c_1 main_v8 (broadcastInDim S8192 ![] bcast_S_S8192 : (⟨S_, .i32⟩ : BufTy).Contents (Elt F) → (⟨S8192, .i32⟩ : BufTy).Contents (Elt F)),
    binary main_arg2 main_v8 main_v9 (cmpi .slt : (⟨S8192, .i32⟩ : BufTy).Contents (Elt F) → (⟨S8192, .i32⟩ : BufTy).Contents (Elt F) → (⟨S8192, .i1⟩ : BufTy).Contents (Elt F)),
    nullary main_c_2 (constantI S_ 32 65536#32),
    unary main_c_2 main_v10 (broadcastInDim S8192 ![] bcast_S_S8192 : (⟨S_, .i32⟩ : BufTy).Contents (Elt F) → (⟨S8192, .i32⟩ : BufTy).Contents (Elt F)),
    binary main_arg2 main_v10 main_v11 (addi : (⟨S8192, .i32⟩ : BufTy).Contents (Elt F) → (⟨S8192, .i32⟩ : BufTy).Contents (Elt F) → (⟨S8192, .i32⟩ : BufTy).Contents (Elt F)),
    ternary main_v9 main_v11 main_arg2 main_v12 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v12 main_v13 (broadcastInDim S8192x1 ![0] bcast_S8192_S8192x1_0 : (⟨S8192, .i32⟩ : BufTy).Contents (Elt F) → (⟨S8192x1, .i32⟩ : BufTy).Contents (Elt F)),
    binary main_arg1 main_v13 main_v14 ((fun x i => Host.gather gather_S65536x2_S8192x1_S8192x2_1_0_n_n_0_1_12 x i) : (⟨S65536x2, .f32⟩ : BufTy).Contents (Elt F) → (⟨S8192x1, .i32⟩ : BufTy).Contents (Elt F) → (⟨S8192x2, .f32⟩ : BufTy).Contents (Elt F)),
    binary main_v14 main_v14 main_v15 (mulf : (⟨S8192x2, .f32⟩ : BufTy).Contents (Elt F) → (⟨S8192x2, .f32⟩ : BufTy).Contents (Elt F) → (⟨S8192x2, .f32⟩ : BufTy).Contents (Elt F)),
    nullary main_cst (constant S_ .f32 0x00000000#32),
    binary main_v15 main_cst main_v16 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_v16 main_v17 (broadcastInDim S8192x1 ![0] bcast_S8192_S8192x1_0 : (⟨S8192, .f32⟩ : BufTy).Contents (Elt F) → (⟨S8192x1, .f32⟩ : BufTy).Contents (Elt F)),
    unary main_v16 main_v18 (broadcastInDim S1x8192 ![1] bcast_S8192_S1x8192_1 : (⟨S8192, .f32⟩ : BufTy).Contents (Elt F) → (⟨S1x8192, .f32⟩ : BufTy).Contents (Elt F)),
    unary main_v17 main_v19 (broadcastInDim S8192x8192 ![0, 1] bcast_S8192x1_S8192x8192_0_1 : (⟨S8192x1, .f32⟩ : BufTy).Contents (Elt F) → (⟨S8192x8192, .f32⟩ : BufTy).Contents (Elt F)),
    unary main_v18 main_v20 (broadcastInDim S8192x8192 ![0, 1] bcast_S1x8192_S8192x8192_0_1 : (⟨S1x8192, .f32⟩ : BufTy).Contents (Elt F) → (⟨S8192x8192, .f32⟩ : BufTy).Contents (Elt F)),
    binary main_v19 main_v20 main_v21 (addf : (⟨S8192x8192, .f32⟩ : BufTy).Contents (Elt F) → (⟨S8192x8192, .f32⟩ : BufTy).Contents (Elt F) → (⟨S8192x8192, .f32⟩ : BufTy).Contents (Elt F)),
    unary main_v14 main_v22 ((transpose S2x8192 [1, 0] · transposes_S8192x2_S2x8192_1_0) : (⟨S8192x2, .f32⟩ : BufTy).Contents (Elt F) → (⟨S2x8192, .f32⟩ : BufTy).Contents (Elt F)),
    binary main_v14 main_v22 main_v23 ((fun l r => Host.dotGeneral dot_S8192x2_S2x8192_S8192x8192_1_0_0_1_n_n none l r) : (⟨S8192x2, .f32⟩ : BufTy).Contents (Elt F) → (⟨S2x8192, .f32⟩ : BufTy).Contents (Elt F) → (⟨S8192x8192, .f32⟩ : BufTy).Contents (Elt F)),
    nullary main_cst_3 (constant S_ .f32 0x40000000#32),
    unary main_cst_3 main_v24 (broadcastInDim S8192x8192 ![] bcast_S_S8192x8192 : (⟨S_, .f32⟩ : BufTy).Contents (Elt F) → (⟨S8192x8192, .f32⟩ : BufTy).Contents (Elt F)),
    binary main_v24 main_v23 main_v25 (mulf : (⟨S8192x8192, .f32⟩ : BufTy).Contents (Elt F) → (⟨S8192x8192, .f32⟩ : BufTy).Contents (Elt F) → (⟨S8192x8192, .f32⟩ : BufTy).Contents (Elt F)),
    binary main_v21 main_v25 main_v26 (subf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x00000000#32),
    unary main_cst_4 main_v27 (broadcastInDim S8192x8192 ![] bcast_S_S8192x8192 : (⟨S_, .f32⟩ : BufTy).Contents (Elt F) → (⟨S8192x8192, .f32⟩ : BufTy).Contents (Elt F)),
    binary main_v26 main_v27 main_v28 (maximumf : (⟨S8192x8192, .f32⟩ : BufTy).Contents (Elt F) → (⟨S8192x8192, .f32⟩ : BufTy).Contents (Elt F) → (⟨S8192x8192, .f32⟩ : BufTy).Contents (Elt F)),
    nullary main_cst_5 (constant S_ .f32 0x2B8CBCCC#32),
    unary main_cst_5 main_v29 (broadcastInDim S8192x8192 ![] bcast_S_S8192x8192 : (⟨S_, .f32⟩ : BufTy).Contents (Elt F) → (⟨S8192x8192, .f32⟩ : BufTy).Contents (Elt F)),
    binary main_v28 main_v29 main_v30 (cmpf .ogt : (⟨S8192x8192, .f32⟩ : BufTy).Contents (Elt F) → (⟨S8192x8192, .f32⟩ : BufTy).Contents (Elt F) → (⟨S8192x8192, .i1⟩ : BufTy).Contents (Elt F)),
    nullary main_cst_6 (constant S_ .f32 0x2B8CBCCC#32),
    TRef.unary (TRef.of (T := ⟨S_, .f32⟩) main_cst_6) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.ternary (TRef.of (T := ⟨S8192x8192, .i1⟩) main_v30) (TRef.of (T := ⟨S8192x8192, .f32⟩) main_v28) (TRef.of (T := ⟨S8192x8192, .f32⟩) main_call0_v1) (TRef.of (T := ⟨S8192x8192, .f32⟩) main_v31) select,
    unary main_v31 main_v32 (Host.sqrt : (⟨S8192x8192, .f32⟩ : BufTy).Contents (Elt F) → (⟨S8192x8192, .f32⟩ : BufTy).Contents (Elt F)),
    nullary main_cst_7 (constant S_ .f32 0x3F800000#32),
    unary main_cst_7 main_v33 (broadcastInDim S8192x8192 ![] bcast_S_S8192x8192 : (⟨S_, .f32⟩ : BufTy).Contents (Elt F) → (⟨S8192x8192, .f32⟩ : BufTy).Contents (Elt F)),
    binary main_v32 main_v33 main_v34 (addf : (⟨S8192x8192, .f32⟩ : BufTy).Contents (Elt F) → (⟨S8192x8192, .f32⟩ : BufTy).Contents (Elt F) → (⟨S8192x8192, .f32⟩ : BufTy).Contents (Elt F)),
    nullary main_cst_8 (constant S_ .f32 0x3F800000#32),
    unary main_cst_8 main_v35 (broadcastInDim S8192x8192 ![] bcast_S_S8192x8192 : (⟨S_, .f32⟩ : BufTy).Contents (Elt F) → (⟨S8192x8192, .f32⟩ : BufTy).Contents (Elt F)),
    binary main_v35 main_v34 main_v36 (Host.divf : (⟨S8192x8192, .f32⟩ : BufTy).Contents (Elt F) → (⟨S8192x8192, .f32⟩ : BufTy).Contents (Elt F) → (⟨S8192x8192, .f32⟩ : BufTy).Contents (Elt F)),
    unary main_v7 main_v37 ((transpose S8192x16 [1, 0] · transposes_S16x8192_S8192x16_1_0) : (⟨S16x8192, .f32⟩ : BufTy).Contents (Elt F) → (⟨S8192x16, .f32⟩ : BufTy).Contents (Elt F)),
    nullary main_cst_9 (constant S_ .f32 0x00000000#32),
    binary main_v37 main_cst_9 main_v38 ((fun x v => Host.reduceAdd x v reducesTo_S8192x16_S8192_d1 h_S_) : (⟨S8192x16, .f32⟩ : BufTy).Contents (Elt F) → (⟨S_, .f32⟩ : BufTy).Contents (Elt F) → (⟨S8192, .f32⟩ : BufTy).Contents (Elt F)),
    unary main_v38 main_v39 (broadcastInDim S8192x1 ![0] bcast_S8192_S8192x1_0 : (⟨S8192, .f32⟩ : BufTy).Contents (Elt F) → (⟨S8192x1, .f32⟩ : BufTy).Contents (Elt F)),
    nullary main_cst_10 (constant S_ .f32 0x41800000#32),
    unary main_cst_10 main_v40 (broadcastInDim S8192x1 ![] bcast_S_S8192x1 : (⟨S_, .f32⟩ : BufTy).Contents (Elt F) → (⟨S8192x1, .f32⟩ : BufTy).Contents (Elt F)),
    binary main_v39 main_v40 main_v41 (Host.divf : (⟨S8192x1, .f32⟩ : BufTy).Contents (Elt F) → (⟨S8192x1, .f32⟩ : BufTy).Contents (Elt F) → (⟨S8192x1, .f32⟩ : BufTy).Contents (Elt F)),
    unary main_v41 main_v42 (broadcastInDim S8192x16 ![0, 1] bcast_S8192x1_S8192x16_0_1 : (⟨S8192x1, .f32⟩ : BufTy).Contents (Elt F) → (⟨S8192x16, .f32⟩ : BufTy).Contents (Elt F)),
    binary main_v37 main_v42 main_v43 (subf : (⟨S8192x16, .f32⟩ : BufTy).Contents (Elt F) → (⟨S8192x16, .f32⟩ : BufTy).Contents (Elt F) → (⟨S8192x16, .f32⟩ : BufTy).Contents (Elt F)),
    binary main_v43 main_v43 main_v44 (mulf : (⟨S8192x16, .f32⟩ : BufTy).Contents (Elt F) → (⟨S8192x16, .f32⟩ : BufTy).Contents (Elt F) → (⟨S8192x16, .f32⟩ : BufTy).Contents (Elt F)),
    nullary main_cst_11 (constant S_ .f32 0x00000000#32),
    binary main_v44 main_cst_11 main_v45 ((fun x v => Host.reduceAdd x v reducesTo_S8192x16_S8192_d1 h_S_) : (⟨S8192x16, .f32⟩ : BufTy).Contents (Elt F) → (⟨S_, .f32⟩ : BufTy).Contents (Elt F) → (⟨S8192, .f32⟩ : BufTy).Contents (Elt F)),
    unary main_v45 main_v46 (broadcastInDim S8192x1 ![0] bcast_S8192_S8192x1_0 : (⟨S8192, .f32⟩ : BufTy).Contents (Elt F) → (⟨S8192x1, .f32⟩ : BufTy).Contents (Elt F)),
    unary main_v46 main_v47 (Host.sqrt : (⟨S8192x1, .f32⟩ : BufTy).Contents (Elt F) → (⟨S8192x1, .f32⟩ : BufTy).Contents (Elt F)),
    unary main_v47 main_v48 (broadcastInDim S8192x16 ![0, 1] bcast_S8192x1_S8192x16_0_1 : (⟨S8192x1, .f32⟩ : BufTy).Contents (Elt F) → (⟨S8192x16, .f32⟩ : BufTy).Contents (Elt F)),
    binary main_v43 main_v48 main_v49 (Host.divf : (⟨S8192x16, .f32⟩ : BufTy).Contents (Elt F) → (⟨S8192x16, .f32⟩ : BufTy).Contents (Elt F) → (⟨S8192x16, .f32⟩ : BufTy).Contents (Elt F)),
    unary main_v49 main_v50 ((transpose S16x8192 [1, 0] · transposes_S8192x16_S16x8192_1_0) : (⟨S8192x16, .f32⟩ : BufTy).Contents (Elt F) → (⟨S16x8192, .f32⟩ : BufTy).Contents (Elt F)),
    binary main_v49 main_v50 main_v51 ((fun l r => Host.dotGeneral dot_S8192x16_S16x8192_S8192x8192_1_0_0_1_n_n none l r) : (⟨S8192x16, .f32⟩ : BufTy).Contents (Elt F) → (⟨S16x8192, .f32⟩ : BufTy).Contents (Elt F) → (⟨S8192x8192, .f32⟩ : BufTy).Contents (Elt F)),
    nullary main_c_12 (constantI S_ 1 1#1),
    unary main_c_12 main_v52 (broadcastInDim S8192x8192 ![] bcast_S_S8192x8192 : (⟨S_, .i1⟩ : BufTy).Contents (Elt F) → (⟨S8192x8192, .i1⟩ : BufTy).Contents (Elt F)),
    TRef.nullary (TRef.of (T := ⟨S8192x8192, .i32⟩) main_call1_v0) (iotaInDim S8192x8192 32 0),
    TRef.nullary (TRef.of (T := ⟨S_, .i32⟩) main_call1_c) (constantI S_ 32 4294967295#32),
    TRef.unary (TRef.of (T := ⟨S_, .i32⟩) main_call1_c) (TRef.of (T := ⟨S8192x8192, .i32⟩) main_call1_v1) (broadcastInDim S8192x8192 ![] bcast_S_S8192x8192),
    TRef.binary (TRef.of (T := ⟨S8192x8192, .i32⟩) main_call1_v0) (TRef.of (T := ⟨S8192x8192, .i32⟩) main_call1_v1) (TRef.of (T := ⟨S8192x8192, .i32⟩) main_call1_v2) addi,
    TRef.nullary (TRef.of (T := ⟨S8192x8192, .i32⟩) main_call1_v3) (iotaInDim S8192x8192 32 1),
    TRef.binary (TRef.of (T := ⟨S8192x8192, .i32⟩) main_call1_v2) (TRef.of (T := ⟨S8192x8192, .i32⟩) main_call1_v3) (TRef.of (T := ⟨S8192x8192, .i1⟩) main_call1_v4) (cmpi .sge),
    TRef.nullary (TRef.of (T := ⟨S_, .i1⟩) main_call1_c_0) (constantI S_ 1 0#1),
    TRef.unary (TRef.of (T := ⟨S_, .i1⟩) main_call1_c_0) (TRef.of (T := ⟨S8192x8192, .i1⟩) main_call1_v5) (broadcastInDim S8192x8192 ![] bcast_S_S8192x8192),
    TRef.ternary (TRef.of (T := ⟨S8192x8192, .i1⟩) main_call1_v4) (TRef.of (T := ⟨S8192x8192, .i1⟩) main_v52) (TRef.of (T := ⟨S8192x8192, .i1⟩) main_call1_v5) (TRef.of (T := ⟨S8192x8192, .i1⟩) main_v53) select,
    unary main_v53 main_v54 (uitofp .f32 : (⟨S8192x8192, .i1⟩ : BufTy).Contents (Elt F) → (⟨S8192x8192, .f32⟩ : BufTy).Contents (Elt F)),
    nullary main_cst_13 (constant S_ .f32 0x00000000#32),
    binary main_v54 main_cst_13 main_v55 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v53) (TRef.of (T := ⟨S8192x8192, .f32⟩) main_v51) (TRef.of (T := ⟨S8192x8192, .f32⟩) main_call2_v1) (TRef.of (T := ⟨S8192x8192, .f32⟩) main_v56) select,
    nullary main_cst_15 (constant S_ .f32 0x00000000#32),
    binary main_v56 main_cst_15 main_v57 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    binary main_v57 main_v55 main_v58 (Host.divf : (⟨S_, .f32⟩ : BufTy).Contents (Elt F) → (⟨S_, .f32⟩ : BufTy).Contents (Elt F) → (⟨S_, .f32⟩ : BufTy).Contents (Elt F)),
    nullary main_cst_16 (constant S_ .f32 0x00000000#32),
    TRef.unary (TRef.of (T := ⟨S_, .f32⟩) main_cst_16) (TRef.of (T := ⟨S_, .f32⟩) main_call3_v0) id,
    TRef.unary (TRef.of (T := ⟨S_, .f32⟩) main_call3_v0) (TRef.of (T := ⟨S8192x8192, .f32⟩) main_call3_v1) (broadcastInDim S8192x8192 ![] bcast_S_S8192x8192),
    TRef.ternary (TRef.of (T := ⟨S8192x8192, .i1⟩) main_v53) (TRef.of (T := ⟨S8192x8192, .f32⟩) main_v36) (TRef.of (T := ⟨S8192x8192, .f32⟩) main_call3_v1) (TRef.of (T := ⟨S8192x8192, .f32⟩) main_v59) select,
    nullary main_cst_17 (constant S_ .f32 0x00000000#32),
    binary main_v59 main_cst_17 main_v60 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    binary main_v60 main_v55 main_v61 (Host.divf : (⟨S_, .f32⟩ : BufTy).Contents (Elt F) → (⟨S_, .f32⟩ : BufTy).Contents (Elt F) → (⟨S_, .f32⟩ : BufTy).Contents (Elt F)),
    unary main_v58 main_v62 (broadcastInDim S8192x8192 ![] bcast_S_S8192x8192 : (⟨S_, .f32⟩ : BufTy).Contents (Elt F) → (⟨S8192x8192, .f32⟩ : BufTy).Contents (Elt F)),
    binary main_v51 main_v62 main_v63 (subf : (⟨S8192x8192, .f32⟩ : BufTy).Contents (Elt F) → (⟨S8192x8192, .f32⟩ : BufTy).Contents (Elt F) → (⟨S8192x8192, .f32⟩ : BufTy).Contents (Elt F)),
    nullary main_cst_18 (constant S_ .f32 0x00000000#32),
    TRef.unary (TRef.of (T := ⟨S_, .f32⟩) main_cst_18) (TRef.of (T := ⟨S_, .f32⟩) main_call4_v0) id,
    TRef.unary (TRef.of (T := ⟨S_, .f32⟩) main_call4_v0) (TRef.of (T := ⟨S8192x8192, .f32⟩) main_call4_v1) (broadcastInDim S8192x8192 ![] bcast_S_S8192x8192),
    TRef.ternary (TRef.of (T := ⟨S8192x8192, .i1⟩) main_v53) (TRef.of (T := ⟨S8192x8192, .f32⟩) main_v63) (TRef.of (T := ⟨S8192x8192, .f32⟩) main_call4_v1) (TRef.of (T := ⟨S8192x8192, .f32⟩) main_v64) select,
    unary main_v61 main_v65 (broadcastInDim S8192x8192 ![] bcast_S_S8192x8192 : (⟨S_, .f32⟩ : BufTy).Contents (Elt F) → (⟨S8192x8192, .f32⟩ : BufTy).Contents (Elt F)),
    binary main_v36 main_v65 main_v66 (subf : (⟨S8192x8192, .f32⟩ : BufTy).Contents (Elt F) → (⟨S8192x8192, .f32⟩ : BufTy).Contents (Elt F) → (⟨S8192x8192, .f32⟩ : BufTy).Contents (Elt F)),
    nullary main_cst_19 (constant S_ .f32 0x00000000#32),
    TRef.unary (TRef.of (T := ⟨S_, .f32⟩) main_cst_19) (TRef.of (T := ⟨S_, .f32⟩) main_call5_v0) id,
    TRef.unary (TRef.of (T := ⟨S_, .f32⟩) main_call5_v0) (TRef.of (T := ⟨S8192x8192, .f32⟩) main_call5_v1) (broadcastInDim S8192x8192 ![] bcast_S_S8192x8192),
    TRef.ternary (TRef.of (T := ⟨S8192x8192, .i1⟩) main_v53) (TRef.of (T := ⟨S8192x8192, .f32⟩) main_v66) (TRef.of (T := ⟨S8192x8192, .f32⟩) main_call5_v1) (TRef.of (T := ⟨S8192x8192, .f32⟩) main_v67) select,
    binary main_v64 main_v67 main_v68 (mulf : (⟨S8192x8192, .f32⟩ : BufTy).Contents (Elt F) → (⟨S8192x8192, .f32⟩ : BufTy).Contents (Elt F) → (⟨S8192x8192, .f32⟩ : BufTy).Contents (Elt F)),
    nullary main_cst_20 (constant S_ .f32 0x00000000#32),
    binary main_v68 main_cst_20 main_v69 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    binary main_v64 main_v64 main_v70 (mulf : (⟨S8192x8192, .f32⟩ : BufTy).Contents (Elt F) → (⟨S8192x8192, .f32⟩ : BufTy).Contents (Elt F) → (⟨S8192x8192, .f32⟩ : BufTy).Contents (Elt F)),
    nullary main_cst_21 (constant S_ .f32 0x00000000#32),
    binary main_v70 main_cst_21 main_v71 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    unary main_v71 main_v72 (Host.sqrt : (⟨S_, .f32⟩ : BufTy).Contents (Elt F) → (⟨S_, .f32⟩ : BufTy).Contents (Elt F)),
    binary main_v67 main_v67 main_v73 (mulf : (⟨S8192x8192, .f32⟩ : BufTy).Contents (Elt F) → (⟨S8192x8192, .f32⟩ : BufTy).Contents (Elt F) → (⟨S8192x8192, .f32⟩ : BufTy).Contents (Elt F)),
    nullary main_cst_22 (constant S_ .f32 0x00000000#32),
    binary main_v73 main_cst_22 main_v74 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    unary main_v74 main_v75 (Host.sqrt : (⟨S_, .f32⟩ : BufTy).Contents (Elt F) → (⟨S_, .f32⟩ : BufTy).Contents (Elt F)),
    binary main_v72 main_v75 main_v76 (mulf : (⟨S_, .f32⟩ : BufTy).Contents (Elt F) → (⟨S_, .f32⟩ : BufTy).Contents (Elt F) → (⟨S_, .f32⟩ : BufTy).Contents (Elt F)),
    binary main_v69 main_v76 main_v77 (Host.divf : (⟨S_, .f32⟩ : BufTy).Contents (Elt F) → (⟨S_, .f32⟩ : BufTy).Contents (Elt F) → (⟨S_, .f32⟩ : BufTy).Contents (Elt F)),
    nullary main_cst_23 (constant S_ .f32 0x3F800000#32),
    binary main_cst_23 main_v77 main_v78 (subf : (⟨S_, .f32⟩ : BufTy).Contents (Elt F) → (⟨S_, .f32⟩ : BufTy).Contents (Elt F) → (⟨S_, .f32⟩ : BufTy).Contents (Elt F)),
    nullary main_cst_24 (constant S_ .f32 0x40000000#32),
    binary main_v78 main_cst_24 main_v79 (Host.divf : (⟨S_, .f32⟩ : BufTy).Contents (Elt F) → (⟨S_, .f32⟩ : BufTy).Contents (Elt F) → (⟨S_, .f32⟩ : BufTy).Contents (Elt F)) ]

/-- The first stretch: the gathers, the squared norms, the guarded distances, the distance similarity. -/
abbrev opsA : List (HloOp τ sig (Elt F)) :=
  [ reshape main_arg0 main_v0 rfl shapeCasts_S16x64x32x32_S16x65536,
    nullary main_c (constantI S_ 32 0#32),
    unary main_c main_v1 (broadcastInDim S8192 ![] bcast_S_S8192 : (⟨S_, .i32⟩ : BufTy).Contents (Elt F) → (⟨S8192, .i32⟩ : BufTy).Contents (Elt F)),
    binary main_arg2 main_v1 main_v2 (cmpi .slt : (⟨S8192, .i32⟩ : BufTy).Contents (Elt F) → (⟨S8192, .i32⟩ : BufTy).Contents (Elt F) → (⟨S8192, .i1⟩ : BufTy).Contents (Elt F)),
    nullary main_c_0 (constantI S_ 32 65536#32),
    unary main_c_0 main_v3 (broadcastInDim S8192 ![] bcast_S_S8192 : (⟨S_, .i32⟩ : BufTy).Contents (Elt F) → (⟨S8192, .i32⟩ : BufTy).Contents (Elt F)),
    binary main_arg2 main_v3 main_v4 (addi : (⟨S8192, .i32⟩ : BufTy).Contents (Elt F) → (⟨S8192, .i32⟩ : BufTy).Contents (Elt F) → (⟨S8192, .i32⟩ : BufTy).Contents (Elt F)),
    ternary main_v2 main_v4 main_arg2 main_v5 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v5 main_v6 (broadcastInDim S8192x1 ![0] bcast_S8192_S8192x1_0 : (⟨S8192, .i32⟩ : BufTy).Contents (Elt F) → (⟨S8192x1, .i32⟩ : BufTy).Contents (Elt F)),
    binary main_v0 main_v6 main_v7 ((fun x i => Host.gather gather_S16x65536_S8192x1_S16x8192_0_1_n_n_1_1_161 x i) : (⟨S16x65536, .f32⟩ : BufTy).Contents (Elt F) → (⟨S8192x1, .i32⟩ : BufTy).Contents (Elt F) → (⟨S16x8192, .f32⟩ : BufTy).Contents (Elt F)),
    nullary main_c_1 (constantI S_ 32 0#32),
    unary main_c_1 main_v8 (broadcastInDim S8192 ![] bcast_S_S8192 : (⟨S_, .i32⟩ : BufTy).Contents (Elt F) → (⟨S8192, .i32⟩ : BufTy).Contents (Elt F)),
    binary main_arg2 main_v8 main_v9 (cmpi .slt : (⟨S8192, .i32⟩ : BufTy).Contents (Elt F) → (⟨S8192, .i32⟩ : BufTy).Contents (Elt F) → (⟨S8192, .i1⟩ : BufTy).Contents (Elt F)),
    nullary main_c_2 (constantI S_ 32 65536#32),
    unary main_c_2 main_v10 (broadcastInDim S8192 ![] bcast_S_S8192 : (⟨S_, .i32⟩ : BufTy).Contents (Elt F) → (⟨S8192, .i32⟩ : BufTy).Contents (Elt F)),
    binary main_arg2 main_v10 main_v11 (addi : (⟨S8192, .i32⟩ : BufTy).Contents (Elt F) → (⟨S8192, .i32⟩ : BufTy).Contents (Elt F) → (⟨S8192, .i32⟩ : BufTy).Contents (Elt F)),
    ternary main_v9 main_v11 main_arg2 main_v12 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v12 main_v13 (broadcastInDim S8192x1 ![0] bcast_S8192_S8192x1_0 : (⟨S8192, .i32⟩ : BufTy).Contents (Elt F) → (⟨S8192x1, .i32⟩ : BufTy).Contents (Elt F)),
    binary main_arg1 main_v13 main_v14 ((fun x i => Host.gather gather_S65536x2_S8192x1_S8192x2_1_0_n_n_0_1_12 x i) : (⟨S65536x2, .f32⟩ : BufTy).Contents (Elt F) → (⟨S8192x1, .i32⟩ : BufTy).Contents (Elt F) → (⟨S8192x2, .f32⟩ : BufTy).Contents (Elt F)),
    binary main_v14 main_v14 main_v15 (mulf : (⟨S8192x2, .f32⟩ : BufTy).Contents (Elt F) → (⟨S8192x2, .f32⟩ : BufTy).Contents (Elt F) → (⟨S8192x2, .f32⟩ : BufTy).Contents (Elt F)),
    nullary main_cst (constant S_ .f32 0x00000000#32),
    binary main_v15 main_cst main_v16 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_v16 main_v17 (broadcastInDim S8192x1 ![0] bcast_S8192_S8192x1_0 : (⟨S8192, .f32⟩ : BufTy).Contents (Elt F) → (⟨S8192x1, .f32⟩ : BufTy).Contents (Elt F)),
    unary main_v16 main_v18 (broadcastInDim S1x8192 ![1] bcast_S8192_S1x8192_1 : (⟨S8192, .f32⟩ : BufTy).Contents (Elt F) → (⟨S1x8192, .f32⟩ : BufTy).Contents (Elt F)),
    unary main_v17 main_v19 (broadcastInDim S8192x8192 ![0, 1] bcast_S8192x1_S8192x8192_0_1 : (⟨S8192x1, .f32⟩ : BufTy).Contents (Elt F) → (⟨S8192x8192, .f32⟩ : BufTy).Contents (Elt F)),
    unary main_v18 main_v20 (broadcastInDim S8192x8192 ![0, 1] bcast_S1x8192_S8192x8192_0_1 : (⟨S1x8192, .f32⟩ : BufTy).Contents (Elt F) → (⟨S8192x8192, .f32⟩ : BufTy).Contents (Elt F)),
    binary main_v19 main_v20 main_v21 (addf : (⟨S8192x8192, .f32⟩ : BufTy).Contents (Elt F) → (⟨S8192x8192, .f32⟩ : BufTy).Contents (Elt F) → (⟨S8192x8192, .f32⟩ : BufTy).Contents (Elt F)),
    unary main_v14 main_v22 ((transpose S2x8192 [1, 0] · transposes_S8192x2_S2x8192_1_0) : (⟨S8192x2, .f32⟩ : BufTy).Contents (Elt F) → (⟨S2x8192, .f32⟩ : BufTy).Contents (Elt F)),
    binary main_v14 main_v22 main_v23 ((fun l r => Host.dotGeneral dot_S8192x2_S2x8192_S8192x8192_1_0_0_1_n_n none l r) : (⟨S8192x2, .f32⟩ : BufTy).Contents (Elt F) → (⟨S2x8192, .f32⟩ : BufTy).Contents (Elt F) → (⟨S8192x8192, .f32⟩ : BufTy).Contents (Elt F)),
    nullary main_cst_3 (constant S_ .f32 0x40000000#32),
    unary main_cst_3 main_v24 (broadcastInDim S8192x8192 ![] bcast_S_S8192x8192 : (⟨S_, .f32⟩ : BufTy).Contents (Elt F) → (⟨S8192x8192, .f32⟩ : BufTy).Contents (Elt F)),
    binary main_v24 main_v23 main_v25 (mulf : (⟨S8192x8192, .f32⟩ : BufTy).Contents (Elt F) → (⟨S8192x8192, .f32⟩ : BufTy).Contents (Elt F) → (⟨S8192x8192, .f32⟩ : BufTy).Contents (Elt F)),
    binary main_v21 main_v25 main_v26 (subf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x00000000#32),
    unary main_cst_4 main_v27 (broadcastInDim S8192x8192 ![] bcast_S_S8192x8192 : (⟨S_, .f32⟩ : BufTy).Contents (Elt F) → (⟨S8192x8192, .f32⟩ : BufTy).Contents (Elt F)),
    binary main_v26 main_v27 main_v28 (maximumf : (⟨S8192x8192, .f32⟩ : BufTy).Contents (Elt F) → (⟨S8192x8192, .f32⟩ : BufTy).Contents (Elt F) → (⟨S8192x8192, .f32⟩ : BufTy).Contents (Elt F)),
    nullary main_cst_5 (constant S_ .f32 0x2B8CBCCC#32),
    unary main_cst_5 main_v29 (broadcastInDim S8192x8192 ![] bcast_S_S8192x8192 : (⟨S_, .f32⟩ : BufTy).Contents (Elt F) → (⟨S8192x8192, .f32⟩ : BufTy).Contents (Elt F)),
    binary main_v28 main_v29 main_v30 (cmpf .ogt : (⟨S8192x8192, .f32⟩ : BufTy).Contents (Elt F) → (⟨S8192x8192, .f32⟩ : BufTy).Contents (Elt F) → (⟨S8192x8192, .i1⟩ : BufTy).Contents (Elt F)),
    nullary main_cst_6 (constant S_ .f32 0x2B8CBCCC#32),
    TRef.unary (TRef.of (T := ⟨S_, .f32⟩) main_cst_6) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.ternary (TRef.of (T := ⟨S8192x8192, .i1⟩) main_v30) (TRef.of (T := ⟨S8192x8192, .f32⟩) main_v28) (TRef.of (T := ⟨S8192x8192, .f32⟩) main_call0_v1) (TRef.of (T := ⟨S8192x8192, .f32⟩) main_v31) select,
    unary main_v31 main_v32 (Host.sqrt : (⟨S8192x8192, .f32⟩ : BufTy).Contents (Elt F) → (⟨S8192x8192, .f32⟩ : BufTy).Contents (Elt F)),
    nullary main_cst_7 (constant S_ .f32 0x3F800000#32),
    unary main_cst_7 main_v33 (broadcastInDim S8192x8192 ![] bcast_S_S8192x8192 : (⟨S_, .f32⟩ : BufTy).Contents (Elt F) → (⟨S8192x8192, .f32⟩ : BufTy).Contents (Elt F)),
    binary main_v32 main_v33 main_v34 (addf : (⟨S8192x8192, .f32⟩ : BufTy).Contents (Elt F) → (⟨S8192x8192, .f32⟩ : BufTy).Contents (Elt F) → (⟨S8192x8192, .f32⟩ : BufTy).Contents (Elt F)),
    nullary main_cst_8 (constant S_ .f32 0x3F800000#32),
    unary main_cst_8 main_v35 (broadcastInDim S8192x8192 ![] bcast_S_S8192x8192 : (⟨S_, .f32⟩ : BufTy).Contents (Elt F) → (⟨S8192x8192, .f32⟩ : BufTy).Contents (Elt F)),
    binary main_v35 main_v34 main_v36 (Host.divf : (⟨S8192x8192, .f32⟩ : BufTy).Contents (Elt F) → (⟨S8192x8192, .f32⟩ : BufTy).Contents (Elt F) → (⟨S8192x8192, .f32⟩ : BufTy).Contents (Elt F)) ]

/-- The second stretch: the features centred and normalised, the response similarity. -/
abbrev opsB : List (HloOp τ sig (Elt F)) :=
  [ unary main_v7 main_v37 ((transpose S8192x16 [1, 0] · transposes_S16x8192_S8192x16_1_0) : (⟨S16x8192, .f32⟩ : BufTy).Contents (Elt F) → (⟨S8192x16, .f32⟩ : BufTy).Contents (Elt F)),
    nullary main_cst_9 (constant S_ .f32 0x00000000#32),
    binary main_v37 main_cst_9 main_v38 ((fun x v => Host.reduceAdd x v reducesTo_S8192x16_S8192_d1 h_S_) : (⟨S8192x16, .f32⟩ : BufTy).Contents (Elt F) → (⟨S_, .f32⟩ : BufTy).Contents (Elt F) → (⟨S8192, .f32⟩ : BufTy).Contents (Elt F)),
    unary main_v38 main_v39 (broadcastInDim S8192x1 ![0] bcast_S8192_S8192x1_0 : (⟨S8192, .f32⟩ : BufTy).Contents (Elt F) → (⟨S8192x1, .f32⟩ : BufTy).Contents (Elt F)),
    nullary main_cst_10 (constant S_ .f32 0x41800000#32),
    unary main_cst_10 main_v40 (broadcastInDim S8192x1 ![] bcast_S_S8192x1 : (⟨S_, .f32⟩ : BufTy).Contents (Elt F) → (⟨S8192x1, .f32⟩ : BufTy).Contents (Elt F)),
    binary main_v39 main_v40 main_v41 (Host.divf : (⟨S8192x1, .f32⟩ : BufTy).Contents (Elt F) → (⟨S8192x1, .f32⟩ : BufTy).Contents (Elt F) → (⟨S8192x1, .f32⟩ : BufTy).Contents (Elt F)),
    unary main_v41 main_v42 (broadcastInDim S8192x16 ![0, 1] bcast_S8192x1_S8192x16_0_1 : (⟨S8192x1, .f32⟩ : BufTy).Contents (Elt F) → (⟨S8192x16, .f32⟩ : BufTy).Contents (Elt F)),
    binary main_v37 main_v42 main_v43 (subf : (⟨S8192x16, .f32⟩ : BufTy).Contents (Elt F) → (⟨S8192x16, .f32⟩ : BufTy).Contents (Elt F) → (⟨S8192x16, .f32⟩ : BufTy).Contents (Elt F)),
    binary main_v43 main_v43 main_v44 (mulf : (⟨S8192x16, .f32⟩ : BufTy).Contents (Elt F) → (⟨S8192x16, .f32⟩ : BufTy).Contents (Elt F) → (⟨S8192x16, .f32⟩ : BufTy).Contents (Elt F)),
    nullary main_cst_11 (constant S_ .f32 0x00000000#32),
    binary main_v44 main_cst_11 main_v45 ((fun x v => Host.reduceAdd x v reducesTo_S8192x16_S8192_d1 h_S_) : (⟨S8192x16, .f32⟩ : BufTy).Contents (Elt F) → (⟨S_, .f32⟩ : BufTy).Contents (Elt F) → (⟨S8192, .f32⟩ : BufTy).Contents (Elt F)),
    unary main_v45 main_v46 (broadcastInDim S8192x1 ![0] bcast_S8192_S8192x1_0 : (⟨S8192, .f32⟩ : BufTy).Contents (Elt F) → (⟨S8192x1, .f32⟩ : BufTy).Contents (Elt F)),
    unary main_v46 main_v47 (Host.sqrt : (⟨S8192x1, .f32⟩ : BufTy).Contents (Elt F) → (⟨S8192x1, .f32⟩ : BufTy).Contents (Elt F)),
    unary main_v47 main_v48 (broadcastInDim S8192x16 ![0, 1] bcast_S8192x1_S8192x16_0_1 : (⟨S8192x1, .f32⟩ : BufTy).Contents (Elt F) → (⟨S8192x16, .f32⟩ : BufTy).Contents (Elt F)),
    binary main_v43 main_v48 main_v49 (Host.divf : (⟨S8192x16, .f32⟩ : BufTy).Contents (Elt F) → (⟨S8192x16, .f32⟩ : BufTy).Contents (Elt F) → (⟨S8192x16, .f32⟩ : BufTy).Contents (Elt F)),
    unary main_v49 main_v50 ((transpose S16x8192 [1, 0] · transposes_S8192x16_S16x8192_1_0) : (⟨S8192x16, .f32⟩ : BufTy).Contents (Elt F) → (⟨S16x8192, .f32⟩ : BufTy).Contents (Elt F)),
    binary main_v49 main_v50 main_v51 ((fun l r => Host.dotGeneral dot_S8192x16_S16x8192_S8192x8192_1_0_0_1_n_n none l r) : (⟨S8192x16, .f32⟩ : BufTy).Contents (Elt F) → (⟨S16x8192, .f32⟩ : BufTy).Contents (Elt F) → (⟨S8192x8192, .f32⟩ : BufTy).Contents (Elt F)) ]

/-- The third stretch: the mask, the count, the two masked means. -/
abbrev opsC1 : List (HloOp τ sig (Elt F)) :=
  [ nullary main_c_12 (constantI S_ 1 1#1),
    unary main_c_12 main_v52 (broadcastInDim S8192x8192 ![] bcast_S_S8192x8192 : (⟨S_, .i1⟩ : BufTy).Contents (Elt F) → (⟨S8192x8192, .i1⟩ : BufTy).Contents (Elt F)),
    TRef.nullary (TRef.of (T := ⟨S8192x8192, .i32⟩) main_call1_v0) (iotaInDim S8192x8192 32 0),
    TRef.nullary (TRef.of (T := ⟨S_, .i32⟩) main_call1_c) (constantI S_ 32 4294967295#32),
    TRef.unary (TRef.of (T := ⟨S_, .i32⟩) main_call1_c) (TRef.of (T := ⟨S8192x8192, .i32⟩) main_call1_v1) (broadcastInDim S8192x8192 ![] bcast_S_S8192x8192),
    TRef.binary (TRef.of (T := ⟨S8192x8192, .i32⟩) main_call1_v0) (TRef.of (T := ⟨S8192x8192, .i32⟩) main_call1_v1) (TRef.of (T := ⟨S8192x8192, .i32⟩) main_call1_v2) addi,
    TRef.nullary (TRef.of (T := ⟨S8192x8192, .i32⟩) main_call1_v3) (iotaInDim S8192x8192 32 1),
    TRef.binary (TRef.of (T := ⟨S8192x8192, .i32⟩) main_call1_v2) (TRef.of (T := ⟨S8192x8192, .i32⟩) main_call1_v3) (TRef.of (T := ⟨S8192x8192, .i1⟩) main_call1_v4) (cmpi .sge),
    TRef.nullary (TRef.of (T := ⟨S_, .i1⟩) main_call1_c_0) (constantI S_ 1 0#1),
    TRef.unary (TRef.of (T := ⟨S_, .i1⟩) main_call1_c_0) (TRef.of (T := ⟨S8192x8192, .i1⟩) main_call1_v5) (broadcastInDim S8192x8192 ![] bcast_S_S8192x8192),
    TRef.ternary (TRef.of (T := ⟨S8192x8192, .i1⟩) main_call1_v4) (TRef.of (T := ⟨S8192x8192, .i1⟩) main_v52) (TRef.of (T := ⟨S8192x8192, .i1⟩) main_call1_v5) (TRef.of (T := ⟨S8192x8192, .i1⟩) main_v53) select,
    unary main_v53 main_v54 (uitofp .f32 : (⟨S8192x8192, .i1⟩ : BufTy).Contents (Elt F) → (⟨S8192x8192, .f32⟩ : BufTy).Contents (Elt F)),
    nullary main_cst_13 (constant S_ .f32 0x00000000#32),
    binary main_v54 main_cst_13 main_v55 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v53) (TRef.of (T := ⟨S8192x8192, .f32⟩) main_v51) (TRef.of (T := ⟨S8192x8192, .f32⟩) main_call2_v1) (TRef.of (T := ⟨S8192x8192, .f32⟩) main_v56) select,
    nullary main_cst_15 (constant S_ .f32 0x00000000#32),
    binary main_v56 main_cst_15 main_v57 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    binary main_v57 main_v55 main_v58 (Host.divf : (⟨S_, .f32⟩ : BufTy).Contents (Elt F) → (⟨S_, .f32⟩ : BufTy).Contents (Elt F) → (⟨S_, .f32⟩ : BufTy).Contents (Elt F)),
    nullary main_cst_16 (constant S_ .f32 0x00000000#32),
    TRef.unary (TRef.of (T := ⟨S_, .f32⟩) main_cst_16) (TRef.of (T := ⟨S_, .f32⟩) main_call3_v0) id,
    TRef.unary (TRef.of (T := ⟨S_, .f32⟩) main_call3_v0) (TRef.of (T := ⟨S8192x8192, .f32⟩) main_call3_v1) (broadcastInDim S8192x8192 ![] bcast_S_S8192x8192),
    TRef.ternary (TRef.of (T := ⟨S8192x8192, .i1⟩) main_v53) (TRef.of (T := ⟨S8192x8192, .f32⟩) main_v36) (TRef.of (T := ⟨S8192x8192, .f32⟩) main_call3_v1) (TRef.of (T := ⟨S8192x8192, .f32⟩) main_v59) select,
    nullary main_cst_17 (constant S_ .f32 0x00000000#32),
    binary main_v59 main_cst_17 main_v60 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    binary main_v60 main_v55 main_v61 (Host.divf : (⟨S_, .f32⟩ : BufTy).Contents (Elt F) → (⟨S_, .f32⟩ : BufTy).Contents (Elt F) → (⟨S_, .f32⟩ : BufTy).Contents (Elt F)) ]

/-- The fourth stretch: the two similarity matrices centred on the mask. -/
abbrev opsC2 : List (HloOp τ sig (Elt F)) :=
  [ unary main_v58 main_v62 (broadcastInDim S8192x8192 ![] bcast_S_S8192x8192 : (⟨S_, .f32⟩ : BufTy).Contents (Elt F) → (⟨S8192x8192, .f32⟩ : BufTy).Contents (Elt F)),
    binary main_v51 main_v62 main_v63 (subf : (⟨S8192x8192, .f32⟩ : BufTy).Contents (Elt F) → (⟨S8192x8192, .f32⟩ : BufTy).Contents (Elt F) → (⟨S8192x8192, .f32⟩ : BufTy).Contents (Elt F)),
    nullary main_cst_18 (constant S_ .f32 0x00000000#32),
    TRef.unary (TRef.of (T := ⟨S_, .f32⟩) main_cst_18) (TRef.of (T := ⟨S_, .f32⟩) main_call4_v0) id,
    TRef.unary (TRef.of (T := ⟨S_, .f32⟩) main_call4_v0) (TRef.of (T := ⟨S8192x8192, .f32⟩) main_call4_v1) (broadcastInDim S8192x8192 ![] bcast_S_S8192x8192),
    TRef.ternary (TRef.of (T := ⟨S8192x8192, .i1⟩) main_v53) (TRef.of (T := ⟨S8192x8192, .f32⟩) main_v63) (TRef.of (T := ⟨S8192x8192, .f32⟩) main_call4_v1) (TRef.of (T := ⟨S8192x8192, .f32⟩) main_v64) select,
    unary main_v61 main_v65 (broadcastInDim S8192x8192 ![] bcast_S_S8192x8192 : (⟨S_, .f32⟩ : BufTy).Contents (Elt F) → (⟨S8192x8192, .f32⟩ : BufTy).Contents (Elt F)),
    binary main_v36 main_v65 main_v66 (subf : (⟨S8192x8192, .f32⟩ : BufTy).Contents (Elt F) → (⟨S8192x8192, .f32⟩ : BufTy).Contents (Elt F) → (⟨S8192x8192, .f32⟩ : BufTy).Contents (Elt F)),
    nullary main_cst_19 (constant S_ .f32 0x00000000#32),
    TRef.unary (TRef.of (T := ⟨S_, .f32⟩) main_cst_19) (TRef.of (T := ⟨S_, .f32⟩) main_call5_v0) id,
    TRef.unary (TRef.of (T := ⟨S_, .f32⟩) main_call5_v0) (TRef.of (T := ⟨S8192x8192, .f32⟩) main_call5_v1) (broadcastInDim S8192x8192 ![] bcast_S_S8192x8192),
    TRef.ternary (TRef.of (T := ⟨S8192x8192, .i1⟩) main_v53) (TRef.of (T := ⟨S8192x8192, .f32⟩) main_v66) (TRef.of (T := ⟨S8192x8192, .f32⟩) main_call5_v1) (TRef.of (T := ⟨S8192x8192, .f32⟩) main_v67) select ]

/-- The fifth stretch: the centred products summed, the correlation and the result. -/
abbrev opsC3 : List (HloOp τ sig (Elt F)) :=
  [ binary main_v64 main_v67 main_v68 (mulf : (⟨S8192x8192, .f32⟩ : BufTy).Contents (Elt F) → (⟨S8192x8192, .f32⟩ : BufTy).Contents (Elt F) → (⟨S8192x8192, .f32⟩ : BufTy).Contents (Elt F)),
    nullary main_cst_20 (constant S_ .f32 0x00000000#32),
    binary main_v68 main_cst_20 main_v69 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    binary main_v64 main_v64 main_v70 (mulf : (⟨S8192x8192, .f32⟩ : BufTy).Contents (Elt F) → (⟨S8192x8192, .f32⟩ : BufTy).Contents (Elt F) → (⟨S8192x8192, .f32⟩ : BufTy).Contents (Elt F)),
    nullary main_cst_21 (constant S_ .f32 0x00000000#32),
    binary main_v70 main_cst_21 main_v71 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    unary main_v71 main_v72 (Host.sqrt : (⟨S_, .f32⟩ : BufTy).Contents (Elt F) → (⟨S_, .f32⟩ : BufTy).Contents (Elt F)),
    binary main_v67 main_v67 main_v73 (mulf : (⟨S8192x8192, .f32⟩ : BufTy).Contents (Elt F) → (⟨S8192x8192, .f32⟩ : BufTy).Contents (Elt F) → (⟨S8192x8192, .f32⟩ : BufTy).Contents (Elt F)),
    nullary main_cst_22 (constant S_ .f32 0x00000000#32),
    binary main_v73 main_cst_22 main_v74 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    unary main_v74 main_v75 (Host.sqrt : (⟨S_, .f32⟩ : BufTy).Contents (Elt F) → (⟨S_, .f32⟩ : BufTy).Contents (Elt F)),
    binary main_v72 main_v75 main_v76 (mulf : (⟨S_, .f32⟩ : BufTy).Contents (Elt F) → (⟨S_, .f32⟩ : BufTy).Contents (Elt F) → (⟨S_, .f32⟩ : BufTy).Contents (Elt F)),
    binary main_v69 main_v76 main_v77 (Host.divf : (⟨S_, .f32⟩ : BufTy).Contents (Elt F) → (⟨S_, .f32⟩ : BufTy).Contents (Elt F) → (⟨S_, .f32⟩ : BufTy).Contents (Elt F)),
    nullary main_cst_23 (constant S_ .f32 0x3F800000#32),
    binary main_cst_23 main_v77 main_v78 (subf : (⟨S_, .f32⟩ : BufTy).Contents (Elt F) → (⟨S_, .f32⟩ : BufTy).Contents (Elt F) → (⟨S_, .f32⟩ : BufTy).Contents (Elt F)),
    nullary main_cst_24 (constant S_ .f32 0x40000000#32),
    binary main_v78 main_cst_24 main_v79 (Host.divf : (⟨S_, .f32⟩ : BufTy).Contents (Elt F) → (⟨S_, .f32⟩ : BufTy).Contents (Elt F) → (⟨S_, .f32⟩ : BufTy).Contents (Elt F)) ]

set_option maxRecDepth 8192 in
/-- The line is its five stretches, one after the other. -/
theorem ops_split : (ops : List (HloOp τ sig (Elt F))) = opsA ++ (opsB ++ (opsC1 ++ (opsC2 ++ opsC3))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., nullary_bufs_sub .., binary_bufs_sub .., nullary_bufs_sub .., unary_bufs_sub .., unary_bufs_sub .., ternary_bufs_sub .., nullary_bufs_sub .., binary_bufs_sub .., binary_bufs_sub .., nullary_bufs_sub .., unary_bufs_sub .., unary_bufs_sub .., ternary_bufs_sub .., nullary_bufs_sub .., binary_bufs_sub .., binary_bufs_sub .., unary_bufs_sub .., binary_bufs_sub .., nullary_bufs_sub .., unary_bufs_sub .., unary_bufs_sub .., ternary_bufs_sub .., unary_bufs_sub .., binary_bufs_sub .., nullary_bufs_sub .., unary_bufs_sub .., unary_bufs_sub .., ternary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., binary_bufs_sub .., nullary_bufs_sub .., binary_bufs_sub ..⟩

/-- The fold over a line cut in two is the fold over the second part from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- On every device, from any memory with zero counters: every weakly fair execution of @main terminates with each
    buffer at the fold of the operations' results over the launch contents. -/
theorem run_raw (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.RefRun

end
-- ==== Proof.RefVal.lean ====
/-
  What the reference's result buffer holds at the end of its run: the last stage of the read-back, as a function of
  the three argument arrays. The run is evaluated stretch by stretch: the first stretch leaves the distance similarity
  and the gathered features, the second the response similarity, the third the mask and the two masked means, the fourth
  the two matrices centred on the mask, and the fifth turns those into the result.
-/
import proofs.«149199_j10763188043930_1_alg».proof.Proof.RefRun
import proofs.«149199_j10763188043930_1_alg».proof.Proof.ReadP

noncomputable section

namespace Cert.ReferenceIdeal.RefVal

open Cert.ReferenceIdeal Cert.ReferenceIdeal.Gen Cert.ReferenceIdeal.RefRun Cert.ReferenceIdeal.ReadP
open Idealize.ShloMosaic Idealize.ShloMosaic.TcCoe Idealize.SL.Sem Idealize.ShloMosaic.StableHlo

variable {F : FTy → Type} [FloatOps F]

/-- Contents carried to a buffer's own type and back are the contents. -/
theorem ofBuf_toBuf {T : BufTy} (x : TRef sig T) (v : T.Contents (Elt F)) :
    x.ofBuf (Val := Elt F) (x.toBuf (Val := Elt F) v) = v := by
  obtain ⟨r, h, h2, h3⟩ := x
  subst h
  rfl

set_option maxRecDepth 65536 in
set_option maxHeartbeats 4000000 in
/-- After the first stretch the distance-similarity buffer holds that stage of the coordinates and indices. -/
theorem A_dis (V : Valuation τ sig (Elt F)) :
    (after (opsA (F := F)) V (Proc.devRef .tc main_v36) : (⟨S8192x8192, .f32⟩ : BufTy).Contents (Elt F))
      = val_main_v36 (F := F) (V (Proc.devRef .tc main_arg1)) (V (Proc.devRef .tc main_arg2)) := by
  after_results_simp
  rfl

set_option maxRecDepth 65536 in
set_option maxHeartbeats 4000000 in
/-- After the first stretch the gathered-feature buffer holds that stage of the features and indices. -/
theorem A_gath (V : Valuation τ sig (Elt F)) :
    (after (opsA (F := F)) V (Proc.devRef .tc main_v7) : (⟨S16x8192, .f32⟩ : BufTy).Contents (Elt F))
      = val_main_v7 (F := F) (V (Proc.devRef .tc main_arg0)) (V (Proc.devRef .tc main_arg2)) := by
  after_results_simp
  rfl

set_option maxRecDepth 65536 in
set_option maxHeartbeats 4000000 in
/-- The second stretch turns the gathered features into the response similarity. -/
theorem B_sim (W : Valuation τ sig (Elt F)) (x0 : (⟨S16x64x32x32, .f32⟩ : BufTy).Contents (Elt F))
    (x2 : (⟨S8192, .i32⟩ : BufTy).Contents (Elt F))
    (h7 : (W (Proc.devRef .tc main_v7) : (⟨S16x8192, .f32⟩ : BufTy).Contents (Elt F)) = val_main_v7 (F := F) x0 x2) :
    (after (opsB (F := F)) W (Proc.devRef .tc main_v51) : (⟨S8192x8192, .f32⟩ : BufTy).Contents (Elt F))
      = val_main_v51 (F := F) x0 x2 := by
  after_results_simp
  rw [h7]
  rfl

set_option maxRecDepth 65536 in
set_option maxHeartbeats 4000000 in
/-- The second stretch leaves the distance similarity where it was. -/
theorem B_keeps (W : Valuation τ sig (Elt F)) :
    after (opsB (F := F)) W (Proc.devRef .tc main_v36) = W (Proc.devRef .tc main_v36) := by
  after_results_simp

set_option maxRecDepth 65536 in
set_option maxHeartbeats 8000000 in
/-- The third stretch leaves the mean of the response similarity over the mask. -/
theorem C1_meanA (W : Valuation τ sig (Elt F)) (x0 : (⟨S16x64x32x32, .f32⟩ : BufTy).Contents (Elt F)) (x2 : (⟨S8192, .i32⟩ : BufTy).Contents (Elt F))
    (h51 : (W (Proc.devRef .tc main_v51) : (⟨S8192x8192, .f32⟩ : BufTy).Contents (Elt F)) = val_main_v51 (F := F) x0 x2) :
    (after (opsC1 (F := F)) W (Proc.devRef .tc main_v58) : (⟨S_, .f32⟩ : BufTy).Contents (Elt F)) = val_main_v58 (F := F) x0 x2 := by
  suffices h : ∀ Z, val_main_v58 (F := F) x0 x2 = Z → after (opsC1 (F := F)) W (Proc.devRef .tc main_v58) = Z from h _ rfl
  intro Z hZ
  after_results_simp
  try simp only [ofBuf_toBuf]
  try simp only [TRef.toBuf, TRef.ofBuf, cast_eq]
  rw [h51]
  rw [← hZ]
  rfl

set_option maxRecDepth 65536 in
set_option maxHeartbeats 8000000 in
/-- The third stretch leaves the mean of the distance similarity over the mask. -/
theorem C1_meanB (W : Valuation τ sig (Elt F)) (x1 : (⟨S65536x2, .f32⟩ : BufTy).Contents (Elt F)) (x2 : (⟨S8192, .i32⟩ : BufTy).Contents (Elt F))
    (h36 : (W (Proc.devRef .tc main_v36) : (⟨S8192x8192, .f32⟩ : BufTy).Contents (Elt F)) = val_main_v36 (F := F) x1 x2) :
    (after (opsC1 (F := F)) W (Proc.devRef .tc main_v61) : (⟨S_, .f32⟩ : BufTy).Contents (Elt F)) = val_main_v61 (F := F) x1 x2 := by
  suffices h : ∀ Z, val_main_v61 (F := F) x1 x2 = Z → after (opsC1 (F := F)) W (Proc.devRef .tc main_v61) = Z from h _ rfl
  intro Z hZ
  after_results_simp
  try simp only [ofBuf_toBuf]
  try simp only [TRef.toBuf, TRef.ofBuf, cast_eq]
  rw [h36]
  rw [← hZ]
  rfl

set_option maxRecDepth 65536 in
set_option maxHeartbeats 8000000 in
/-- The third stretch leaves the mask. -/
theorem C1_mask (W : Valuation τ sig (Elt F)) :
    (after (opsC1 (F := F)) W (Proc.devRef .tc main_v53) : (⟨S8192x8192, .i1⟩ : BufTy).Contents (Elt F)) = val_main_v53 (F := F) := by
  suffices h : ∀ Z, val_main_v53 (F := F) = Z → after (opsC1 (F := F)) W (Proc.devRef .tc main_v53) = Z from h _ rfl
  intro Z hZ
  after_results_simp
  try simp only [ofBuf_toBuf]
  try simp only [TRef.toBuf, TRef.ofBuf, cast_eq]
  rw [← hZ]
  rfl

set_option maxRecDepth 65536 in
set_option maxHeartbeats 8000000 in
/-- The third stretch leaves both similarity matrices where they were. -/
theorem C1_keeps (W : Valuation τ sig (Elt F)) :
    after (opsC1 (F := F)) W (Proc.devRef .tc main_v51) = W (Proc.devRef .tc main_v51)
    ∧ after (opsC1 (F := F)) W (Proc.devRef .tc main_v36) = W (Proc.devRef .tc main_v36) := by
  refine ⟨?_, ?_⟩ <;> after_results_simp

set_option maxRecDepth 65536 in
set_option maxHeartbeats 8000000 in
/-- The fourth stretch leaves the response similarity centred on the mask. -/
theorem C2_cenA (W : Valuation τ sig (Elt F)) (x0 : (⟨S16x64x32x32, .f32⟩ : BufTy).Contents (Elt F)) (x2 : (⟨S8192, .i32⟩ : BufTy).Contents (Elt F))
    (h51 : (W (Proc.devRef .tc main_v51) : (⟨S8192x8192, .f32⟩ : BufTy).Contents (Elt F)) = val_main_v51 (F := F) x0 x2)
    (h58 : (W (Proc.devRef .tc main_v58) : (⟨S_, .f32⟩ : BufTy).Contents (Elt F)) = val_main_v58 (F := F) x0 x2)
    (h53 : (W (Proc.devRef .tc main_v53) : (⟨S8192x8192, .i1⟩ : BufTy).Contents (Elt F)) = val_main_v53 (F := F)) :
    (after (opsC2 (F := F)) W (Proc.devRef .tc main_v64) : (⟨S8192x8192, .f32⟩ : BufTy).Contents (Elt F)) = val_main_v64 (F := F) x0 x2 := by
  suffices h : ∀ Z, val_main_v64 (F := F) x0 x2 = Z → after (opsC2 (F := F)) W (Proc.devRef .tc main_v64) = Z from h _ rfl
  intro Z hZ
  after_results_simp
  try simp only [ofBuf_toBuf]
  try simp only [TRef.toBuf, TRef.ofBuf, cast_eq]
  rw [h51, h58, h53]
  rw [← hZ]
  rfl

set_option maxRecDepth 65536 in
set_option maxHeartbeats 8000000 in
/-- The fourth stretch leaves the distance similarity centred on the mask. -/
theorem C2_cenB (W : Valuation τ sig (Elt F)) (x1 : (⟨S65536x2, .f32⟩ : BufTy).Contents (Elt F)) (x2 : (⟨S8192, .i32⟩ : BufTy).Contents (Elt F))
    (h36 : (W (Proc.devRef .tc main_v36) : (⟨S8192x8192, .f32⟩ : BufTy).Contents (Elt F)) = val_main_v36 (F := F) x1 x2)
    (h61 : (W (Proc.devRef .tc main_v61) : (⟨S_, .f32⟩ : BufTy).Contents (Elt F)) = val_main_v61 (F := F) x1 x2)
    (h53 : (W (Proc.devRef .tc main_v53) : (⟨S8192x8192, .i1⟩ : BufTy).Contents (Elt F)) = val_main_v53 (F := F)) :
    (after (opsC2 (F := F)) W (Proc.devRef .tc main_v67) : (⟨S8192x8192, .f32⟩ : BufTy).Contents (Elt F)) = val_main_v67 (F := F) x1 x2 := by
  suffices h : ∀ Z, val_main_v67 (F := F) x1 x2 = Z → after (opsC2 (F := F)) W (Proc.devRef .tc main_v67) = Z from h _ rfl
  intro Z hZ
  after_results_simp
  try simp only [ofBuf_toBuf]
  try simp only [TRef.toBuf, TRef.ofBuf, cast_eq]
  rw [h36, h61, h53]
  rw [← hZ]
  rfl

set_option maxRecDepth 65536 in
set_option maxHeartbeats 8000000 in
/-- The fifth stretch turns the two centred matrices into the result. -/
theorem C3_res (W : Valuation τ sig (Elt F)) (x0 : (⟨S16x64x32x32, .f32⟩ : BufTy).Contents (Elt F)) (x1 : (⟨S65536x2, .f32⟩ : BufTy).Contents (Elt F)) (x2 : (⟨S8192, .i32⟩ : BufTy).Contents (Elt F))
    (h64 : (W (Proc.devRef .tc main_v64) : (⟨S8192x8192, .f32⟩ : BufTy).Contents (Elt F)) = val_main_v64 (F := F) x0 x2)
    (h67 : (W (Proc.devRef .tc main_v67) : (⟨S8192x8192, .f32⟩ : BufTy).Contents (Elt F)) = val_main_v67 (F := F) x1 x2) :
    (after (opsC3 (F := F)) W (Proc.devRef .tc main_v79) : (⟨S_, .f32⟩ : BufTy).Contents (Elt F)) = val_main_v79 (F := F) x0 x1 x2 := by
  after_results_simp
  rw [h64, h67]
  rfl

/-- The whole line: the result buffer ends at the last stage of the arguments' launch contents. -/
theorem res_eq (V : Valuation τ sig (Elt F)) :
    (after (ops (F := F)) V (Proc.devRef .tc main_v79) : (⟨S_, .f32⟩ : BufTy).Contents (Elt F))
      = val_main_v79 (F := F) (V (Proc.devRef .tc main_arg0)) (V (Proc.devRef .tc main_arg1)) (V (Proc.devRef .tc main_arg2)) := by
  rw [ops_split, after_append, after_append, after_append, after_append]
  have hB51 := B_sim (after opsA V) _ _ (A_gath V)
  have hB36 : (after (opsB (F := F)) (after opsA V) (Proc.devRef .tc main_v36) : (⟨S8192x8192, .f32⟩ : BufTy).Contents (Elt F)) = _ := (B_keeps (after opsA V)).trans (A_dis V)
  have hC51 := (C1_keeps (after (opsB (F := F)) (after opsA V))).1.trans hB51
  have hC36 := (C1_keeps (after (opsB (F := F)) (after opsA V))).2.trans hB36
  exact C3_res _ _ _ _
    (C2_cenA _ _ _ hC51 (C1_meanA _ _ _ hB51) (C1_mask _))
    (C2_cenB _ _ _ hC36 (C1_meanB _ _ _ hB36) (C1_mask _))

set_option maxRecDepth 65536 in
set_option maxHeartbeats 8000000 in
/-- No operation of the line writes an argument array. -/
theorem args_kept (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2) := by
  refine ⟨?_, ?_, ?_⟩ <;> after_results_simp

/-- THE REFERENCE'S RUN, READ: every weakly fair execution terminates with the result at the last stage of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79) = val_main_v79 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v79).trans (res_eq _),
      (h c main_arg0).trans (args_kept _).1,
      (h c main_arg1).trans (args_kept _).2.1,
      (h c main_arg2).trans (args_kept _).2.2⟩)
    (run_raw m ρ)

end Cert.ReferenceIdeal.RefVal

end
-- ==== Proof.lean ====
/-
  The certificate of a masked Pearson correlation computed tile by tile.

  From 8192 sampled units the programs form the 8192 × 8192 response similarity (inner products of centred, normalised
  feature rows) and distance similarity (1 / (1 + guarded distance) of the units' coordinates), and return (1 − ρ) / 2 for
  the Pearson correlation ρ of the two over the pairs strictly below the diagonal. The reference centres both families on
  their masked means and sums the centred products. The kernel never forms the matrices: it walks a 16 × 16 grid of
  512 × 512 tiles, skips the tiles above the block diagonal, accumulates in five one-entry outputs the masked sums
  ∑a, ∑b, ∑a², ∑b², ∑ab, and forms ρ from these moments on the host.

  At the ideal instance (floats are extended reals, operations exact):
  * both programs prepare the same three arrays from the arguments (the same host lines);
  * the kernel's five outputs end at the five moment sums over the pairs below the diagonal (the tiles on or below the
    block diagonal cover exactly those pairs, and addition of extended reals may be regrouped freely);
  * with real coordinates the distance similarity is a positive real, and then the correlation from the moments equals
    the correlation from the centred values for EVERY response similarity, infinite entries included: with all entries
    real by the usual algebra, and otherwise because both quotients collapse to the same conventional value;
  so the two results are one extended real. The three frames: the kernel's body is run case by case of its two
  conditionals (first point; a later point on or below the block diagonal; a point above it), the reference is a straight
  line of host operations.
-/
import proofs.«149199_j10763188043930_1_alg».proof.Defs
import proofs.«149199_j10763188043930_1_alg».proof.Proof.Gen.Kernel
import proofs.«149199_j10763188043930_1_alg».proof.Proof.Gen.KernelIdeal
import proofs.«149199_j10763188043930_1_alg».proof.Proof.Gen.ReferenceIdeal
import proofs.«149199_j10763188043930_1_alg».proof.Proof.Gen.Pre_finite_inputs
import proofs.«149199_j10763188043930_1_alg».proof.Proof.KBody
import proofs.«149199_j10763188043930_1_alg».proof.Proof.KRun
import proofs.«149199_j10763188043930_1_alg».proof.Proof.RefVal
import proofs.«149199_j10763188043930_1_alg».proof.Proof.RefIs
import Idealize.ShloMosaic.Adequacy
import Idealize.ShloMosaic.Init

noncomputable section

namespace Cert.Proof

open Idealize.ShloMosaic Idealize.ShloMosaic.ValueIdx Idealize.SL.Sem

/-- The word-level kernel runs to the end, faults nowhere and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefVal.run (F := Ideal) m ρ)

/-- The idealization rewrote nothing. -/
theorem preserves : Cert.preserves_Kernel_KernelIdeal := trivial

/-- From memories agreeing on the arguments both idealized programs end at the specification's loss of the reference's
    stages of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (fun _ => Corr.loss (Cert.KernelIdeal.KRun.rfeat m c) (Cert.KernelIdeal.KRun.rcoord m c) (Cert.KernelIdeal.KRun.rsqn m c)),
    Cert.KernelIdeal.KRun.run m ρ hpre, ?_⟩
  refine (θ_run Cert.ReferenceIdeal.defs _ _).mono (fun _ h c => ⟨(h c).1.trans ?_, (h c).2⟩)
    (Cert.ReferenceIdeal.RefVal.run (F := Ideal) m' ρ')
  rw [(hagree c).1, (hagree c).2.1, (hagree c).2.2]
  funext i
  rw [eq_ix0 i]
  exact Cert.ReferenceIdeal.RefIs.ref_is_loss _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
